-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v130) = v2 c
          ∧ r.2.mem ((c.tc : Thread Cert.ReferenceIdeal.nD Cert.ReferenceIdeal.τ).loc Cert.ReferenceIdeal.main_v233) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x22x256x256 : Shape := ⟨4, ![4, 22, 256, 256]⟩
abbrev S_ : Shape := ⟨0, ![]⟩

class Facts : Prop where
  bcast_S_S4x22x256x256 : S_.BroadcastsInDim S4x22x256x256 (![] : Fin 0 → Fin S4x22x256x256.rank)
  reducesTo_S4x22x256x256_S_d0_1_2_3 : S4x22x256x256.ReducesTo [0, 1, 2, 3] S_
  h_S_ : 0 < S_.numel

variable [Facts]

def fn_part1 {F : FTy → Type} [FloatOps F] (main_v13 : IVec S_ 1) (main_v16 : IVec S4x22x256x256 1) : IVec S_ 1 :=
  let main_c_5 : IVec S_ 1 := constantI S_ 1 1#1
  let main_v17 : IVec S_ 1 := (fun x v => Host.reduce IntOp.andi x v reducesTo_S4x22x256x256_S_d0_1_2_3 h_S_) main_v16 main_c_5
  let main_v18 : IVec S_ 1 := andi main_v13 main_v17
  main_v18

def fn {F : FTy → Type} [FloatOps F] (main_arg0 : FVec F S4x22x256x256 .f32) (main_arg1 : FVec F S4x22x256x256 .f32) (main_arg2 : FVec F S4x22x256x256 .f32) (main_arg3 : FVec F S4x22x256x256 .f32) : IVec S_ 1 :=
  let main_v0 : FVec F S4x22x256x256 .f32 := Host.absf main_arg0
  let main_cst : FVec F S_ .f32 := constant S_ .f32 0x7F800000#32
  let main_v1 : FVec F S4x22x256x256 .f32 := broadcastInDim S4x22x256x256 ![] bcast_S_S4x22x256x256 main_cst
  let main_v2 : IVec S4x22x256x256 1 := cmpf .olt main_v0 main_v1
  let main_c : IVec S_ 1 := constantI S_ 1 1#1
  let main_v3 : IVec S_ 1 := (fun x v => Host.reduce IntOp.andi x v reducesTo_S4x22x256x256_S_d0_1_2_3 h_S_) main_v2 main_c
  let main_v4 : FVec F S4x22x256x256 .f32 := Host.absf main_arg1
  let main_cst_0 : FVec F S_ .f32 := constant S_ .f32 0x7F800000#32
  let main_v5 : FVec F S4x22x256x256 .f32 := broadcastInDim S4x22x256x256 ![] bcast_S_S4x22x256x256 main_cst_0
  let main_v6 : IVec S4x22x256x256 1 := cmpf .olt main_v4 main_v5
  let main_c_1 : IVec S_ 1 := constantI S_ 1 1#1
  let main_v7 : IVec S_ 1 := (fun x v => Host.reduce IntOp.andi x v reducesTo_S4x22x256x256_S_d0_1_2_3 h_S_) main_v6 main_c_1
  let main_v8 : IVec S_ 1 := andi main_v3 main_v7
  let main_v9 : FVec F S4x22x256x256 .f32 := Host.absf main_arg2
  let main_cst_2 : FVec F S_ .f32 := constant S_ .f32 0x7F800000#32
  let main_v10 : FVec F S4x22x256x256 .f32 := broadcastInDim S4x22x256x256 ![] bcast_S_S4x22x256x256 main_cst_2
  let main_v11 : IVec S4x22x256x256 1 := cmpf .olt main_v9 main_v10
  let main_c_3 : IVec S_ 1 := constantI S_ 1 1#1
  let main_v12 : IVec S_ 1 := (fun x v => Host.reduce IntOp.andi x v reducesTo_S4x22x256x256_S_d0_1_2_3 h_S_) main_v11 main_c_3
  let main_v13 : IVec S_ 1 := andi main_v8 main_v12
  let main_v14 : FVec F S4x22x256x256 .f32 := Host.absf main_arg3
  let main_cst_4 : FVec F S_ .f32 := constant S_ .f32 0x7F800000#32
  let main_v15 : FVec F S4x22x256x256 .f32 := broadcastInDim S4x22x256x256 ![] bcast_S_S4x22x256x256 main_cst_4
  let main_v16 : IVec S4x22x256x256 1 := cmpf .olt main_v14 main_v15
  fn_part1 (F := F) main_v13 main_v16
-- ==== Kernel.lean ====
abbrev S4x22x256x256 : Shape := ⟨4, ![4, 22, 256, 256]⟩
abbrev S4x1x1 : Shape := ⟨3, ![4, 1, 1]⟩
abbrev S1x1x256x256 : Shape := ⟨4, ![1, 1, 256, 256]⟩
abbrev S1x1x1 : Shape := ⟨3, ![1, 1, 1]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 21
  | .vmem => 22
  | .smem => 0
  | _ => 0

abbrev bufTy : (tb : Table) → Fin (tcTables nBuf tb) → BufTy
  | .hbm, ⟨0, _⟩ => ⟨S4x22x256x256, .f32⟩
  | .hbm, ⟨1, _⟩ => ⟨S4x22x256x256, .f32⟩
  | .hbm, ⟨2, _⟩ => ⟨S4x22x256x256, .f32⟩
  | .hbm, ⟨3, _⟩ => ⟨S4x22x256x256, .f32⟩
  | .hbm, ⟨4, _⟩ => ⟨S4x1x1, .f32⟩
  | .hbm, ⟨5, _⟩ => ⟨S4x1x1, .f32⟩
  | .hbm, ⟨6, _⟩ => ⟨S4x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1x256x256, .f32⟩
  | .local _ .vmem, ⟨1, _⟩ => ⟨S1x1x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .f32⟩
  | .local _ .vmem, ⟨11, _⟩ => ⟨S1x1x256x256, .f32⟩
  | .local _ .vmem, ⟨12, _⟩ => ⟨S1x1x256x256, .f32⟩
  | .local _ .vmem, ⟨13, _⟩ => ⟨S1x1x256x256, .f32⟩
  | .local _ .vmem, ⟨14, _⟩ => ⟨S1x1x256x256, .f32⟩
  | .local _ .vmem, ⟨15, _⟩ => ⟨S1x1x256x256, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | _, _ => ⟨S4x22x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_cst_4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 20], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  rotates_S256x256_d1 : S256x256.Rotates 1 none
  rotates_S256x256_d0 : S256x256.Rotates 0 none
  reduces_S256x256_S256 : S256x256.Reduces [1] S256
  shapeCasts_S256_S256x1 : S256.ShapeCasts S256x1
  reduces_S256x1_S1 : S256x1.Reduces [0] S1
  shapeCasts_S1_S1x1 : S1.ShapeCasts S1x1
  reducesTo_S4x1x1_S_d0_1_2 : S4x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x256.size a ≤ S4x22x256x256.size a
  hwx0_0 : ∀ i : grid0.Coords, EltTy.bits .f32 = 32 ∨ (Rect.block (s := S4x22x256x256) S1x1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x256.size a ≤ S4x22x256x256.size a
  hwx0_1 : ∀ i : grid0.Coords, EltTy.bits .f32 = 32 ∨ (Rect.block (s := S4x22x256x256) S1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x256.size a ≤ S4x22x256x256.size a
  hwx0_2 : ∀ i : grid0.Coords, EltTy.bits .f32 = 32 ∨ (Rect.block (s := S4x22x256x256) S1x1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x256.size a ≤ S4x22x256x256.size a
  hwx0_3 : ∀ i : grid0.Coords, EltTy.bits .f32 = 32 ∨ (Rect.block (s := S4x22x256x256) S1x1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x256.size a ≤ S4x22x256x256.size a
  hwx0_4 : ∀ i : grid0.Coords, EltTy.bits .f32 = 32 ∨ (Rect.block (s := S4x22x256x256) S1x1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x256.size a ≤ S4x22x256x256.size a
  hwx0_5 : ∀ i : grid0.Coords, EltTy.bits .f32 = 32 ∨ (Rect.block (s := S4x22x256x256) S1x1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256x256.size a ≤ S4x22x256x256.size a
  hwx0_6 : ∀ i : grid0.Coords, EltTy.bits .f32 = 32 ∨ (Rect.block (s := S4x22x256x256) S1x1x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256x256.size a ≤ S4x22x256x256.size a
  hwx0_7 : ∀ i : grid0.Coords, EltTy.bits .f32 = 32 ∨ (Rect.block (s := S4x22x256x256) S1x1x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S4x1x1.size a
  hwx0_8 : ∀ i : grid0.Coords, EltTy.bits .f32 = 32 ∨ (Rect.block (s := S4x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S4x1x1.size a
  hwx0_9 : ∀ i : grid0.Coords, EltTy.bits .f32 = 32 ∨ (Rect.block (s := S4x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S4x1x1.size a
  hwx0_10 : ∀ i : grid0.Coords, EltTy.bits .f32 = 32 ∨ (Rect.block (s := S4x1x1) S1x1x1.size (cc0_transform_10 i) (hinb0_10 i)).WholeWords (EltTy.packing .f32)

variable [Facts₀]

abbrev win0_0 : Pipeline.Window sig grid0 :=
  Pipeline.Window.ofSpec (Memref.whole main_arg0) S1x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1x1x256x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S1x1x256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x1x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S1x1x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x22x256x256 : Shape := ⟨4, ![4, 22, 256, 256]⟩
abbrev S4x20x256x256 : Shape := ⟨4, ![4, 20, 256, 256]⟩
abbrev S4x20x256x255 : Shape := ⟨4, ![4, 20, 256, 255]⟩
abbrev S4x20x256x1 : Shape := ⟨4, ![4, 20, 256, 1]⟩
abbrev S_ : Shape := ⟨0, ![]⟩
abbrev S4x20x255x256 : Shape := ⟨4, ![4, 20, 255, 256]⟩
abbrev S4x20x1x256 : Shape := ⟨4, ![4, 20, 1, 256]⟩
abbrev S4x20x256x254 : Shape := ⟨4, ![4, 20, 256, 254]⟩
abbrev S4x20x256x2 : Shape := ⟨4, ![4, 20, 256, 2]⟩
abbrev S4x20x254x256 : Shape := ⟨4, ![4, 20, 254, 256]⟩
abbrev S4x20x2x256 : Shape := ⟨4, ![4, 20, 2, 256]⟩

abbrev nBuf : Space → Nat
  | .hbm => 364
  | .vmem => 0
  | .smem => 0
  | _ => 0

abbrev hbmTy0_0 (i : Nat) : BufTy := match i % 128 with
  | 0 => ⟨S4x22x256x256, .f32⟩
  | 1 => ⟨S4x22x256x256, .f32⟩
  | 2 => ⟨S4x22x256x256, .f32⟩
  | 3 => ⟨S4x22x256x256, .f32⟩
  | 4 => ⟨S4x20x256x256, .f32⟩
  | 5 => ⟨S4x20x256x256, .f32⟩
  | 6 => ⟨S4x20x256x255, .f32⟩
  | 7 => ⟨S4x20x256x1, .f32⟩
  | 8 => ⟨S4x20x256x256, .f32⟩
  | 9 => ⟨S4x20x256x256, .f32⟩
  | 10 => ⟨S_, .f32⟩
  | 11 => ⟨S4x20x256x256, .f32⟩
  | 12 => ⟨S4x20x256x256, .f32⟩
  | 13 => ⟨S4x20x256x1, .f32⟩
  | 14 => ⟨S4x20x256x255, .f32⟩
  | 15 => ⟨S4x20x256x256, .f32⟩
  | 16 => ⟨S4x20x256x256, .f32⟩
  | 17 => ⟨S_, .f32⟩
  | 18 => ⟨S4x20x256x256, .f32⟩
  | 19 => ⟨S4x20x256x256, .f32⟩
  | 20 => ⟨S4x20x255x256, .f32⟩
  | 21 => ⟨S4x20x1x256, .f32⟩
  | 22 => ⟨S4x20x256x256, .f32⟩
  | 23 => ⟨S4x20x256x256, .f32⟩
  | 24 => ⟨S_, .f32⟩
  | 25 => ⟨S4x20x256x256, .f32⟩
  | 26 => ⟨S4x20x256x256, .f32⟩
  | 27 => ⟨S4x20x1x256, .f32⟩
  | 28 => ⟨S4x20x255x256, .f32⟩
  | 29 => ⟨S4x20x256x256, .f32⟩
  | 30 => ⟨S4x20x256x256, .f32⟩
  | 31 => ⟨S_, .f32⟩
  | 32 => ⟨S4x20x256x256, .f32⟩
  | 33 => ⟨S4x20x256x256, .f32⟩
  | 34 => ⟨S4x20x256x256, .f32⟩
  | 35 => ⟨S_, .f32⟩
  | 36 => ⟨S4x20x256x256, .f32⟩
  | 37 => ⟨S4x20x256x256, .f32⟩
  | 38 => ⟨S4x20x256x256, .f32⟩
  | 39 => ⟨S_, .f32⟩
  | 40 => ⟨S4x20x256x256, .f32⟩
  | 41 => ⟨S4x20x256x256, .f32⟩
  | 42 => ⟨S4x20x256x256, .f32⟩
  | 43 => ⟨S4x20x256x256, .f32⟩
  | 44 => ⟨S_, .f32⟩
  | 45 => ⟨S_, .f32⟩
  | 46 => ⟨S_, .f32⟩
  | 47 => ⟨S_, .f32⟩
  | 48 => ⟨S4x20x256x256, .f32⟩
  | 49 => ⟨S4x20x256x256, .f32⟩
  | 50 => ⟨S4x20x256x256, .f32⟩
  | 51 => ⟨S4x20x256x256, .f32⟩
  | 52 => ⟨S_, .f32⟩
  | 53 => ⟨S4x20x256x256, .f32⟩
  | 54 => ⟨S4x20x256x256, .f32⟩
  | 55 => ⟨S4x20x256x255, .f32⟩
  | 56 => ⟨S4x20x256x1, .f32⟩
  | 57 => ⟨S4x20x256x256, .f32⟩
  | 58 => ⟨S4x20x256x1, .f32⟩
  | 59 => ⟨S4x20x256x255, .f32⟩
  | 60 => ⟨S4x20x256x256, .f32⟩
  | 61 => ⟨S4x20x256x254, .f32⟩
  | 62 => ⟨S4x20x256x2, .f32⟩
  | 63 => ⟨S4x20x256x256, .f32⟩
  | 64 => ⟨S4x20x256x2, .f32⟩
  | 65 => ⟨S4x20x256x254, .f32⟩
  | 66 => ⟨S4x20x256x256, .f32⟩
  | 67 => ⟨S4x20x255x256, .f32⟩
  | 68 => ⟨S4x20x1x256, .f32⟩
  | 69 => ⟨S4x20x256x256, .f32⟩
  | 70 => ⟨S4x20x1x256, .f32⟩
  | 71 => ⟨S4x20x255x256, .f32⟩
  | 72 => ⟨S4x20x256x256, .f32⟩
  | 73 => ⟨S4x20x254x256, .f32⟩
  | 74 => ⟨S4x20x2x256, .f32⟩
  | 75 => ⟨S4x20x256x256, .f32⟩
  | 76 => ⟨S4x20x2x256, .f32⟩
  | 77 => ⟨S4x20x254x256, .f32⟩
  | 78 => ⟨S4x20x256x256, .f32⟩
  | 79 => ⟨S_, .f32⟩
  | 80 => ⟨S4x20x256x256, .f32⟩
  | 81 => ⟨S4x20x256x256, .i1⟩
  | 82 => ⟨S_, .f32⟩
  | 83 => ⟨S4x20x256x256, .f32⟩
  | 84 => ⟨S4x20x256x256, .f32⟩
  | 85 => ⟨S_, .f32⟩
  | 86 => ⟨S4x20x256x256, .f32⟩
  | 87 => ⟨S4x20x256x256, .f32⟩
  | 88 => ⟨S4x20x256x256, .f32⟩
  | 89 => ⟨S_, .f32⟩
  | 90 => ⟨S4x20x256x256, .f32⟩
  | 91 => ⟨S4x20x256x256, .f32⟩
  | 92 => ⟨S_, .f32⟩
  | 93 => ⟨S4x20x256x256, .f32⟩
  | 94 => ⟨S4x20x256x256, .f32⟩
  | 95 => ⟨S4x20x256x256, .f32⟩
  | 96 => ⟨S4x20x256x256, .f32⟩
  | 97 => ⟨S_, .f32⟩
  | 98 => ⟨S4x20x256x256, .f32⟩
  | 99 => ⟨S4x20x256x256, .i1⟩
  | 100 => ⟨S_, .f32⟩
  | 101 => ⟨S4x20x256x256, .f32⟩
  | 102 => ⟨S4x20x256x256, .f32⟩
  | 103 => ⟨S_, .f32⟩
  | 104 => ⟨S4x20x256x256, .f32⟩
  | 105 => ⟨S4x20x256x256, .f32⟩
  | 106 => ⟨S4x20x256x256, .f32⟩
  | 107 => ⟨S_, .f32⟩
  | 108 => ⟨S4x20x256x256, .f32⟩
  | 109 => ⟨S4x20x256x256, .f32⟩
  | 110 => ⟨S_, .f32⟩
  | 111 => ⟨S4x20x256x256, .f32⟩
  | 112 => ⟨S4x20x256x256, .f32⟩
  | 113 => ⟨S4x20x256x256, .f32⟩
  | 114 => ⟨S4x20x256x256, .f32⟩
  | 115 => ⟨S_, .f32⟩
  | 116 => ⟨S4x20x256x256, .f32⟩
  | 117 => ⟨S4x20x256x256, .i1⟩
  | 118 => ⟨S_, .f32⟩
  | 119 => ⟨S4x20x256x256, .f32⟩
  | 120 => ⟨S4x20x256x256, .f32⟩
  | 121 => ⟨S_, .f32⟩
  | 122 => ⟨S4x20x256x256, .f32⟩
  | 123 => ⟨S4x20x256x256, .f32⟩
  | 124 => ⟨S4x20x256x256, .f32⟩
  | 125 => ⟨S_, .f32⟩
  | 126 => ⟨S4x20x256x256, .f32⟩
  | 127 => ⟨S4x20x256x256, .f32⟩
  | _ => ⟨S4x22x256x256, .f32⟩

abbrev hbmTy0_1 (i : Nat) : BufTy := match i % 128 with
  | 0 => ⟨S_, .f32⟩
  | 1 => ⟨S4x20x256x256, .f32⟩
  | 2 => ⟨S4x20x256x256, .f32⟩
  | 3 => ⟨S4x20x256x256, .f32⟩
  | 4 => ⟨S4x20x256x256, .f32⟩
  | 5 => ⟨S_, .f32⟩
  | 6 => ⟨S4x20x256x256, .f32⟩
  | 7 => ⟨S4x20x256x256, .i1⟩
  | 8 => ⟨S_, .f32⟩
  | 9 => ⟨S4x20x256x256, .f32⟩
  | 10 => ⟨S4x20x256x256, .f32⟩
  | 11 => ⟨S_, .f32⟩
  | 12 => ⟨S4x20x256x256, .f32⟩
  | 13 => ⟨S4x20x256x256, .f32⟩
  | 14 => ⟨S4x20x256x256, .f32⟩
  | 15 => ⟨S_, .f32⟩
  | 16 => ⟨S4x20x256x256, .f32⟩
  | 17 => ⟨S4x20x256x256, .f32⟩
  | 18 => ⟨S_, .f32⟩
  | 19 => ⟨S4x20x256x256, .f32⟩
  | 20 => ⟨S4x20x256x256, .f32⟩
  | 21 => ⟨S4x20x256x256, .f32⟩
  | 22 => ⟨S4x20x256x256, .f32⟩
  | 23 => ⟨S4x20x256x256, .f32⟩
  | 24 => ⟨S4x20x256x256, .f32⟩
  | 25 => ⟨S4x20x256x256, .f32⟩
  | 26 => ⟨S_, .f32⟩
  | 27 => ⟨S4x20x256x256, .f32⟩
  | 28 => ⟨S4x20x256x256, .f32⟩
  | 29 => ⟨S4x20x256x256, .f32⟩
  | 30 => ⟨S4x20x256x256, .f32⟩
  | 31 => ⟨S4x20x256x256, .f32⟩
  | 32 => ⟨S_, .f32⟩
  | 33 => ⟨S4x20x256x256, .f32⟩
  | 34 => ⟨S4x20x256x256, .f32⟩
  | 35 => ⟨S4x20x256x256, .f32⟩
  | 36 => ⟨S4x20x256x256, .f32⟩
  | 37 => ⟨S4x20x256x255, .f32⟩
  | 38 => ⟨S4x20x256x1, .f32⟩
  | 39 => ⟨S4x20x256x256, .f32⟩
  | 40 => ⟨S_, .f32⟩
  | 41 => ⟨S4x20x256x256, .f32⟩
  | 42 => ⟨S4x20x256x256, .f32⟩
  | 43 => ⟨S4x20x256x256, .f32⟩
  | 44 => ⟨S4x20x256x1, .f32⟩
  | 45 => ⟨S4x20x256x255, .f32⟩
  | 46 => ⟨S4x20x256x256, .f32⟩
  | 47 => ⟨S4x20x256x256, .f32⟩
  | 48 => ⟨S_, .f32⟩
  | 49 => ⟨S4x20x256x256, .f32⟩
  | 50 => ⟨S4x20x256x256, .f32⟩
  | 51 => ⟨S4x20x255x256, .f32⟩
  | 52 => ⟨S4x20x1x256, .f32⟩
  | 53 => ⟨S4x20x256x256, .f32⟩
  | 54 => ⟨S_, .f32⟩
  | 55 => ⟨S4x20x256x256, .f32⟩
  | 56 => ⟨S4x20x256x256, .f32⟩
  | 57 => ⟨S4x20x256x256, .f32⟩
  | 58 => ⟨S4x20x1x256, .f32⟩
  | 59 => ⟨S4x20x255x256, .f32⟩
  | 60 => ⟨S4x20x256x256, .f32⟩
  | 61 => ⟨S4x20x256x256, .f32⟩
  | 62 => ⟨S_, .f32⟩
  | 63 => ⟨S4x20x256x256, .f32⟩
  | 64 => ⟨S4x20x256x256, .f32⟩
  | 65 => ⟨S4x20x256x256, .f32⟩
  | 66 => ⟨S_, .f32⟩
  | 67 => ⟨S4x20x256x256, .f32⟩
  | 68 => ⟨S4x20x256x256, .f32⟩
  | 69 => ⟨S4x20x256x256, .f32⟩
  | 70 => ⟨S4x20x256x256, .f32⟩
  | 71 => ⟨S4x20x256x256, .f32⟩
  | 72 => ⟨S4x20x256x256, .f32⟩
  | 73 => ⟨S_, .f32⟩
  | 74 => ⟨S_, .f32⟩
  | 75 => ⟨S_, .f32⟩
  | 76 => ⟨S_, .f32⟩
  | 77 => ⟨S4x20x256x256, .f32⟩
  | 78 => ⟨S4x20x256x256, .f32⟩
  | 79 => ⟨S4x20x256x256, .f32⟩
  | 80 => ⟨S4x20x256x256, .f32⟩
  | 81 => ⟨S_, .f32⟩
  | 82 => ⟨S4x20x256x256, .f32⟩
  | 83 => ⟨S4x20x256x256, .f32⟩
  | 84 => ⟨S4x20x256x255, .f32⟩
  | 85 => ⟨S4x20x256x1, .f32⟩
  | 86 => ⟨S4x20x256x256, .f32⟩
  | 87 => ⟨S4x20x256x1, .f32⟩
  | 88 => ⟨S4x20x256x255, .f32⟩
  | 89 => ⟨S4x20x256x256, .f32⟩
  | 90 => ⟨S4x20x256x254, .f32⟩
  | 91 => ⟨S4x20x256x2, .f32⟩
  | 92 => ⟨S4x20x256x256, .f32⟩
  | 93 => ⟨S4x20x256x2, .f32⟩
  | 94 => ⟨S4x20x256x254, .f32⟩
  | 95 => ⟨S4x20x256x256, .f32⟩
  | 96 => ⟨S4x20x255x256, .f32⟩
  | 97 => ⟨S4x20x1x256, .f32⟩
  | 98 => ⟨S4x20x256x256, .f32⟩
  | 99 => ⟨S4x20x1x256, .f32⟩
  | 100 => ⟨S4x20x255x256, .f32⟩
  | 101 => ⟨S4x20x256x256, .f32⟩
  | 102 => ⟨S4x20x254x256, .f32⟩
  | 103 => ⟨S4x20x2x256, .f32⟩
  | 104 => ⟨S4x20x256x256, .f32⟩
  | 105 => ⟨S4x20x2x256, .f32⟩
  | 106 => ⟨S4x20x254x256, .f32⟩
  | 107 => ⟨S4x20x256x256, .f32⟩
  | 108 => ⟨S_, .f32⟩
  | 109 => ⟨S4x20x256x256, .f32⟩
  | 110 => ⟨S4x20x256x256, .i1⟩
  | 111 => ⟨S_, .f32⟩
  | 112 => ⟨S4x20x256x256, .f32⟩
  | 113 => ⟨S4x20x256x256, .f32⟩
  | 114 => ⟨S_, .f32⟩
  | 115 => ⟨S4x20x256x256, .f32⟩
  | 116 => ⟨S4x20x256x256, .f32⟩
  | 117 => ⟨S4x20x256x256, .f32⟩
  | 118 => ⟨S_, .f32⟩
  | 119 => ⟨S4x20x256x256, .f32⟩
  | 120 => ⟨S4x20x256x256, .f32⟩
  | 121 => ⟨S_, .f32⟩
  | 122 => ⟨S4x20x256x256, .f32⟩
  | 123 => ⟨S4x20x256x256, .f32⟩
  | 124 => ⟨S4x20x256x256, .f32⟩
  | 125 => ⟨S4x20x256x256, .f32⟩
  | 126 => ⟨S_, .f32⟩
  | 127 => ⟨S4x20x256x256, .f32⟩
  | _ => ⟨S4x22x256x256, .f32⟩

abbrev hbmTy0_2 (i : Nat) : BufTy := match i % 128 with
  | 0 => ⟨S4x20x256x256, .i1⟩
  | 1 => ⟨S_, .f32⟩
  | 2 => ⟨S4x20x256x256, .f32⟩
  | 3 => ⟨S4x20x256x256, .f32⟩
  | 4 => ⟨S_, .f32⟩
  | 5 => ⟨S4x20x256x256, .f32⟩
  | 6 => ⟨S4x20x256x256, .f32⟩
  | 7 => ⟨S4x20x256x256, .f32⟩
  | 8 => ⟨S_, .f32⟩
  | 9 => ⟨S4x20x256x256, .f32⟩
  | 10 => ⟨S4x20x256x256, .f32⟩
  | 11 => ⟨S_, .f32⟩
  | 12 => ⟨S4x20x256x256, .f32⟩
  | 13 => ⟨S4x20x256x256, .f32⟩
  | 14 => ⟨S4x20x256x256, .f32⟩
  | 15 => ⟨S4x20x256x256, .f32⟩
  | 16 => ⟨S_, .f32⟩
  | 17 => ⟨S4x20x256x256, .f32⟩
  | 18 => ⟨S4x20x256x256, .i1⟩
  | 19 => ⟨S_, .f32⟩
  | 20 => ⟨S4x20x256x256, .f32⟩
  | 21 => ⟨S4x20x256x256, .f32⟩
  | 22 => ⟨S_, .f32⟩
  | 23 => ⟨S4x20x256x256, .f32⟩
  | 24 => ⟨S4x20x256x256, .f32⟩
  | 25 => ⟨S4x20x256x256, .f32⟩
  | 26 => ⟨S_, .f32⟩
  | 27 => ⟨S4x20x256x256, .f32⟩
  | 28 => ⟨S4x20x256x256, .f32⟩
  | 29 => ⟨S_, .f32⟩
  | 30 => ⟨S4x20x256x256, .f32⟩
  | 31 => ⟨S4x20x256x256, .f32⟩
  | 32 => ⟨S4x20x256x256, .f32⟩
  | 33 => ⟨S4x20x256x256, .f32⟩
  | 34 => ⟨S_, .f32⟩
  | 35 => ⟨S4x20x256x256, .f32⟩
  | 36 => ⟨S4x20x256x256, .i1⟩
  | 37 => ⟨S_, .f32⟩
  | 38 => ⟨S4x20x256x256, .f32⟩
  | 39 => ⟨S4x20x256x256, .f32⟩
  | 40 => ⟨S_, .f32⟩
  | 41 => ⟨S4x20x256x256, .f32⟩
  | 42 => ⟨S4x20x256x256, .f32⟩
  | 43 => ⟨S4x20x256x256, .f32⟩
  | 44 => ⟨S_, .f32⟩
  | 45 => ⟨S4x20x256x256, .f32⟩
  | 46 => ⟨S4x20x256x256, .f32⟩
  | 47 => ⟨S_, .f32⟩
  | 48 => ⟨S4x20x256x256, .f32⟩
  | 49 => ⟨S4x20x256x256, .f32⟩
  | 50 => ⟨S4x20x256x256, .f32⟩
  | 51 => ⟨S4x20x256x256, .f32⟩
  | 52 => ⟨S4x20x256x256, .f32⟩
  | 53 => ⟨S4x20x256x256, .f32⟩
  | 54 => ⟨S4x20x256x256, .f32⟩
  | 55 => ⟨S_, .f32⟩
  | 56 => ⟨S4x20x256x256, .f32⟩
  | 57 => ⟨S4x20x256x256, .f32⟩
  | 58 => ⟨S4x20x256x256, .f32⟩
  | 59 => ⟨S4x20x256x256, .f32⟩
  | 60 => ⟨S4x20x256x256, .f32⟩
  | 61 => ⟨S_, .f32⟩
  | 62 => ⟨S4x20x256x256, .f32⟩
  | 63 => ⟨S4x20x256x256, .f32⟩
  | 64 => ⟨S4x20x256x256, .f32⟩
  | 65 => ⟨S4x20x256x256, .f32⟩
  | 66 => ⟨S4x20x256x255, .f32⟩
  | 67 => ⟨S4x20x256x1, .f32⟩
  | 68 => ⟨S4x20x256x256, .f32⟩
  | 69 => ⟨S_, .f32⟩
  | 70 => ⟨S4x20x256x256, .f32⟩
  | 71 => ⟨S4x20x256x256, .f32⟩
  | 72 => ⟨S4x20x256x256, .f32⟩
  | 73 => ⟨S4x20x256x1, .f32⟩
  | 74 => ⟨S4x20x256x255, .f32⟩
  | 75 => ⟨S4x20x256x256, .f32⟩
  | 76 => ⟨S4x20x256x256, .f32⟩
  | 77 => ⟨S_, .f32⟩
  | 78 => ⟨S4x20x256x256, .f32⟩
  | 79 => ⟨S4x20x256x256, .f32⟩
  | 80 => ⟨S4x20x255x256, .f32⟩
  | 81 => ⟨S4x20x1x256, .f32⟩
  | 82 => ⟨S4x20x256x256, .f32⟩
  | 83 => ⟨S_, .f32⟩
  | 84 => ⟨S4x20x256x256, .f32⟩
  | 85 => ⟨S4x20x256x256, .f32⟩
  | 86 => ⟨S4x20x256x256, .f32⟩
  | 87 => ⟨S4x20x1x256, .f32⟩
  | 88 => ⟨S4x20x255x256, .f32⟩
  | 89 => ⟨S4x20x256x256, .f32⟩
  | 90 => ⟨S4x20x256x256, .f32⟩
  | 91 => ⟨S_, .f32⟩
  | 92 => ⟨S4x20x256x256, .f32⟩
  | 93 => ⟨S4x20x256x256, .f32⟩
  | 94 => ⟨S4x20x256x256, .f32⟩
  | 95 => ⟨S_, .f32⟩
  | 96 => ⟨S4x20x256x256, .f32⟩
  | 97 => ⟨S4x20x256x256, .f32⟩
  | 98 => ⟨S4x20x256x256, .f32⟩
  | 99 => ⟨S4x20x256x256, .f32⟩
  | 100 => ⟨S4x20x256x256, .f32⟩
  | 101 => ⟨S4x20x256x256, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | _ => ⟨S4x22x256x256, .f32⟩

abbrev hbmTy (i : Nat) : BufTy := match i / 128 with
  | 0 => hbmTy0_0 i
  | 1 => hbmTy0_1 i
  | 2 => hbmTy0_2 i
  | _ => ⟨S4x22x256x256, .f32⟩

abbrev bufTy : (tb : Table) → Fin (tcTables nBuf tb) → BufTy
  | .hbm, ⟨i, _⟩ => hbmTy i
  | _, _ => ⟨S4x22x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_call2_v0 : Ref sig .tc := ⟨.hbm, 20, rfl⟩
abbrev main_call2_v1 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_call3_v0 : Ref sig .tc := ⟨.hbm, 27, rfl⟩
abbrev main_call3_v1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_call4_v0 : Ref sig .tc := ⟨.hbm, 55, rfl⟩
abbrev main_call4_v1 : Ref sig .tc := ⟨.hbm, 56, rfl⟩
abbrev main_v34 : Ref sig .tc := ⟨.hbm, 57, rfl⟩
abbrev main_call5_v0 : Ref sig .tc := ⟨.hbm, 58, rfl⟩
abbrev main_call5_v1 : Ref sig .tc := ⟨.hbm, 59, rfl⟩
abbrev main_v35 : Ref sig .tc := ⟨.hbm, 60, rfl⟩
abbrev main_call6_v0 : Ref sig .tc := ⟨.hbm, 61, rfl⟩
abbrev main_call6_v1 : Ref sig .tc := ⟨.hbm, 62, rfl⟩
abbrev main_v36 : Ref sig .tc := ⟨.hbm, 63, rfl⟩
abbrev main_call7_v0 : Ref sig .tc := ⟨.hbm, 64, rfl⟩
abbrev main_call7_v1 : Ref sig .tc := ⟨.hbm, 65, rfl⟩
abbrev main_v37 : Ref sig .tc := ⟨.hbm, 66, rfl⟩
abbrev main_call8_v0 : Ref sig .tc := ⟨.hbm, 67, rfl⟩
abbrev main_call8_v1 : Ref sig .tc := ⟨.hbm, 68, rfl⟩
abbrev main_v38 : Ref sig .tc := ⟨.hbm, 69, rfl⟩
abbrev main_call9_v0 : Ref sig .tc := ⟨.hbm, 70, rfl⟩
abbrev main_call9_v1 : Ref sig .tc := ⟨.hbm, 71, rfl⟩
abbrev main_v39 : Ref sig .tc := ⟨.hbm, 72, rfl⟩
abbrev main_call10_v0 : Ref sig .tc := ⟨.hbm, 73, rfl⟩
abbrev main_call10_v1 : Ref sig .tc := ⟨.hbm, 74, rfl⟩
abbrev main_v40 : Ref sig .tc := ⟨.hbm, 75, rfl⟩
abbrev main_call11_v0 : Ref sig .tc := ⟨.hbm, 76, rfl⟩
abbrev main_call11_v1 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_cst_9 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_11 : Ref sig .tc := ⟨.hbm, 89, rfl⟩
abbrev main_v49 : Ref sig .tc := ⟨.hbm, 90, rfl⟩
abbrev main_v50 : Ref sig .tc := ⟨.hbm, 91, rfl⟩
abbrev main_cst_12 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_13 : Ref sig .tc := ⟨.hbm, 97, rfl⟩
abbrev main_v55 : Ref sig .tc := ⟨.hbm, 98, rfl⟩
abbrev main_v56 : Ref sig .tc := ⟨.hbm, 99, rfl⟩
abbrev main_cst_14 : Ref sig .tc := ⟨.hbm, 100, rfl⟩
abbrev main_v57 : Ref sig .tc := ⟨.hbm, 101, rfl⟩
abbrev main_v58 : Ref sig .tc := ⟨.hbm, 102, rfl⟩
abbrev main_cst_15 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_16 : Ref sig .tc := ⟨.hbm, 107, rfl⟩
abbrev main_v62 : Ref sig .tc := ⟨.hbm, 108, rfl⟩
abbrev main_v63 : Ref sig .tc := ⟨.hbm, 109, rfl⟩
abbrev main_cst_17 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_18 : Ref sig .tc := ⟨.hbm, 115, rfl⟩
abbrev main_v68 : Ref sig .tc := ⟨.hbm, 116, rfl⟩
abbrev main_v69 : Ref sig .tc := ⟨.hbm, 117, rfl⟩
abbrev main_cst_19 : Ref sig .tc := ⟨.hbm, 118, rfl⟩
abbrev main_v70 : Ref sig .tc := ⟨.hbm, 119, rfl⟩
abbrev main_v71 : Ref sig .tc := ⟨.hbm, 120, rfl⟩
abbrev main_cst_20 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_21 : Ref sig .tc := ⟨.hbm, 125, rfl⟩
abbrev main_v75 : Ref sig .tc := ⟨.hbm, 126, rfl⟩
abbrev main_v76 : Ref sig .tc := ⟨.hbm, 127, rfl⟩
abbrev main_cst_22 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_23 : Ref sig .tc := ⟨.hbm, 133, rfl⟩
abbrev main_v81 : Ref sig .tc := ⟨.hbm, 134, rfl⟩
abbrev main_v82 : Ref sig .tc := ⟨.hbm, 135, rfl⟩
abbrev main_cst_24 : Ref sig .tc := ⟨.hbm, 136, rfl⟩
abbrev main_v83 : Ref sig .tc := ⟨.hbm, 137, rfl⟩
abbrev main_v84 : Ref sig .tc := ⟨.hbm, 138, rfl⟩
abbrev main_cst_25 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_26 : Ref sig .tc := ⟨.hbm, 143, rfl⟩
abbrev main_v88 : Ref sig .tc := ⟨.hbm, 144, rfl⟩
abbrev main_v89 : Ref sig .tc := ⟨.hbm, 145, rfl⟩
abbrev main_cst_27 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_28 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_29 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_call16_v0 : Ref sig .tc := ⟨.hbm, 165, rfl⟩
abbrev main_call16_v1 : Ref sig .tc := ⟨.hbm, 166, rfl⟩
abbrev main_v106 : Ref sig .tc := ⟨.hbm, 167, rfl⟩
abbrev main_cst_30 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_call17_v0 : Ref sig .tc := ⟨.hbm, 172, rfl⟩
abbrev main_call17_v1 : Ref sig .tc := ⟨.hbm, 173, rfl⟩
abbrev main_v110 : Ref sig .tc := ⟨.hbm, 174, rfl⟩
abbrev main_v111 : Ref sig .tc := ⟨.hbm, 175, rfl⟩
abbrev main_cst_31 : Ref sig .tc := ⟨.hbm, 176, rfl⟩
abbrev main_v112 : Ref sig .tc := ⟨.hbm, 177, rfl⟩
abbrev main_v113 : Ref sig .tc := ⟨.hbm, 178, rfl⟩
abbrev main_call18_v0 : Ref sig .tc := ⟨.hbm, 179, rfl⟩
abbrev main_call18_v1 : Ref sig .tc := ⟨.hbm, 180, rfl⟩
abbrev main_v114 : Ref sig .tc := ⟨.hbm, 181, rfl⟩
abbrev main_cst_32 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_call19_v0 : Ref sig .tc := ⟨.hbm, 186, rfl⟩
abbrev main_call19_v1 : Ref sig .tc := ⟨.hbm, 187, rfl⟩
abbrev main_v118 : Ref sig .tc := ⟨.hbm, 188, rfl⟩
abbrev main_v119 : Ref sig .tc := ⟨.hbm, 189, rfl⟩
abbrev main_cst_33 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_cst_34 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_cst_35 : Ref sig .tc := ⟨.hbm, 201, rfl⟩
abbrev main_v129 : Ref sig .tc := ⟨.hbm, 202, rfl⟩
abbrev main_cst_36 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_37 : Ref sig .tc := ⟨.hbm, 209, rfl⟩
abbrev main_v135 : Ref sig .tc := ⟨.hbm, 210, rfl⟩
abbrev main_v136 : Ref sig .tc := ⟨.hbm, 211, rfl⟩
abbrev main_call20_v0 : Ref sig .tc := ⟨.hbm, 212, rfl⟩
abbrev main_call20_v1 : Ref sig .tc := ⟨.hbm, 213, rfl⟩
abbrev main_v137 : Ref sig .tc := ⟨.hbm, 214, rfl⟩
abbrev main_call21_v0 : Ref sig .tc := ⟨.hbm, 215, rfl⟩
abbrev main_call21_v1 : Ref sig .tc := ⟨.hbm, 216, rfl⟩
abbrev main_v138 : Ref sig .tc := ⟨.hbm, 217, rfl⟩
abbrev main_call22_v0 : Ref sig .tc := ⟨.hbm, 218, rfl⟩
abbrev main_call22_v1 : Ref sig .tc := ⟨.hbm, 219, rfl⟩
abbrev main_v139 : Ref sig .tc := ⟨.hbm, 220, rfl⟩
abbrev main_call23_v0 : Ref sig .tc := ⟨.hbm, 221, rfl⟩
abbrev main_call23_v1 : Ref sig .tc := ⟨.hbm, 222, rfl⟩
abbrev main_v140 : Ref sig .tc := ⟨.hbm, 223, rfl⟩
abbrev main_call24_v0 : Ref sig .tc := ⟨.hbm, 224, rfl⟩
abbrev main_call24_v1 : Ref sig .tc := ⟨.hbm, 225, rfl⟩
abbrev main_v141 : Ref sig .tc := ⟨.hbm, 226, rfl⟩
abbrev main_call25_v0 : Ref sig .tc := ⟨.hbm, 227, rfl⟩
abbrev main_call25_v1 : Ref sig .tc := ⟨.hbm, 228, rfl⟩
abbrev main_v142 : Ref sig .tc := ⟨.hbm, 229, rfl⟩
abbrev main_call26_v0 : Ref sig .tc := ⟨.hbm, 230, rfl⟩
abbrev main_call26_v1 : Ref sig .tc := ⟨.hbm, 231, rfl⟩
abbrev main_v143 : Ref sig .tc := ⟨.hbm, 232, rfl⟩
abbrev main_call27_v0 : Ref sig .tc := ⟨.hbm, 233, rfl⟩
abbrev main_call27_v1 : Ref sig .tc := ⟨.hbm, 234, rfl⟩
abbrev main_v144 : Ref sig .tc := ⟨.hbm, 235, rfl⟩
abbrev main_cst_38 : Ref sig .tc := ⟨.hbm, 236, rfl⟩
abbrev main_v145 : Ref sig .tc := ⟨.hbm, 237, rfl⟩
abbrev main_v146 : Ref sig .tc := ⟨.hbm, 238, rfl⟩
abbrev main_cst_39 : Ref sig .tc := ⟨.hbm, 239, rfl⟩
abbrev main_v147 : Ref sig .tc := ⟨.hbm, 240, rfl⟩
abbrev main_v148 : Ref sig .tc := ⟨.hbm, 241, rfl⟩
abbrev main_cst_40 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_cst_41 : Ref sig .tc := ⟨.hbm, 246, rfl⟩
abbrev main_v152 : Ref sig .tc := ⟨.hbm, 247, rfl⟩
abbrev main_v153 : Ref sig .tc := ⟨.hbm, 248, rfl⟩
abbrev main_cst_42 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_cst_43 : Ref sig .tc := ⟨.hbm, 254, rfl⟩
abbrev main_v158 : Ref sig .tc := ⟨.hbm, 255, rfl⟩
abbrev main_v159 : Ref sig .tc := ⟨.hbm, 256, rfl⟩
abbrev main_cst_44 : Ref sig .tc := ⟨.hbm, 257, rfl⟩
abbrev main_v160 : Ref sig .tc := ⟨.hbm, 258, rfl⟩
abbrev main_v161 : Ref sig .tc := ⟨.hbm, 259, rfl⟩
abbrev main_cst_45 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_cst_46 : Ref sig .tc := ⟨.hbm, 264, rfl⟩
abbrev main_v165 : Ref sig .tc := ⟨.hbm, 265, rfl⟩
abbrev main_v166 : Ref sig .tc := ⟨.hbm, 266, rfl⟩
abbrev main_cst_47 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_cst_48 : Ref sig .tc := ⟨.hbm, 272, rfl⟩
abbrev main_v171 : Ref sig .tc := ⟨.hbm, 273, rfl⟩
abbrev main_v172 : Ref sig .tc := ⟨.hbm, 274, rfl⟩
abbrev main_cst_49 : Ref sig .tc := ⟨.hbm, 275, rfl⟩
abbrev main_v173 : Ref sig .tc := ⟨.hbm, 276, rfl⟩
abbrev main_v174 : Ref sig .tc := ⟨.hbm, 277, rfl⟩
abbrev main_cst_50 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_cst_51 : Ref sig .tc := ⟨.hbm, 282, rfl⟩
abbrev main_v178 : Ref sig .tc := ⟨.hbm, 283, rfl⟩
abbrev main_v179 : Ref sig .tc := ⟨.hbm, 284, rfl⟩
abbrev main_cst_52 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_cst_53 : Ref sig .tc := ⟨.hbm, 290, rfl⟩
abbrev main_v184 : Ref sig .tc := ⟨.hbm, 291, rfl⟩
abbrev main_v185 : Ref sig .tc := ⟨.hbm, 292, rfl⟩
abbrev main_cst_54 : Ref sig .tc := ⟨.hbm, 293, rfl⟩
abbrev main_v186 : Ref sig .tc := ⟨.hbm, 294, rfl⟩
abbrev main_v187 : Ref sig .tc := ⟨.hbm, 295, rfl⟩
abbrev main_cst_55 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_cst_56 : Ref sig .tc := ⟨.hbm, 300, rfl⟩
abbrev main_v191 : Ref sig .tc := ⟨.hbm, 301, rfl⟩
abbrev main_v192 : Ref sig .tc := ⟨.hbm, 302, rfl⟩
abbrev main_cst_57 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_58 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_cst_59 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_call32_v0 : Ref sig .tc := ⟨.hbm, 322, rfl⟩
abbrev main_call32_v1 : Ref sig .tc := ⟨.hbm, 323, rfl⟩
abbrev main_v209 : Ref sig .tc := ⟨.hbm, 324, rfl⟩
abbrev main_cst_60 : Ref sig .tc := ⟨.hbm, 325, rfl⟩
abbrev main_v210 : Ref sig .tc := ⟨.hbm, 326, rfl⟩
abbrev main_v211 : Ref sig .tc := ⟨.hbm, 327, rfl⟩
abbrev main_v212 : Ref sig .tc := ⟨.hbm, 328, rfl⟩
abbrev main_call33_v0 : Ref sig .tc := ⟨.hbm, 329, rfl⟩
abbrev main_call33_v1 : Ref sig .tc := ⟨.hbm, 330, rfl⟩
abbrev main_v213 : Ref sig .tc := ⟨.hbm, 331, rfl⟩
abbrev main_v214 : Ref sig .tc := ⟨.hbm, 332, rfl⟩
abbrev main_cst_61 : Ref sig .tc := ⟨.hbm, 333, rfl⟩
abbrev main_v215 : Ref sig .tc := ⟨.hbm, 334, rfl⟩
abbrev main_v216 : Ref sig .tc := ⟨.hbm, 335, rfl⟩
abbrev main_call34_v0 : Ref sig .tc := ⟨.hbm, 336, rfl⟩
abbrev main_call34_v1 : Ref sig .tc := ⟨.hbm, 337, rfl⟩
abbrev main_v217 : Ref sig .tc := ⟨.hbm, 338, rfl⟩
abbrev main_cst_62 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_call35_v0 : Ref sig .tc := ⟨.hbm, 343, rfl⟩
abbrev main_call35_v1 : Ref sig .tc := ⟨.hbm, 344, rfl⟩
abbrev main_v221 : Ref sig .tc := ⟨.hbm, 345, rfl⟩
abbrev main_v222 : Ref sig .tc := ⟨.hbm, 346, rfl⟩
abbrev main_cst_63 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_cst_64 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_cst_65 : Ref sig .tc := ⟨.hbm, 358, rfl⟩
abbrev main_v232 : Ref sig .tc := ⟨.hbm, 359, rfl⟩
abbrev main_cst_66 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩

abbrev nD : Nat := 1
abbrev τ : Topo := Topo.v7x

variable {F : FTy → Type} [FloatOps F]

class Facts₀ : Prop where
  slices_S4x22x256x256_S4x20x256x256_0_1_0_0 : S4x22x256x256.Slices ![0, 1, 0, 0] S4x20x256x256
  slices_S4x20x256x256_S4x20x256x255_0_0_0_1 : S4x20x256x256.Slices ![0, 0, 0, 1] S4x20x256x255
  slices_S4x20x256x256_S4x20x256x1_0_0_0_0 : S4x20x256x256.Slices ![0, 0, 0, 0] S4x20x256x1
  concatenates_S4x20x256x255_S4x20x256x1_S4x20x256x256_d3 : Shape.Concatenates [S4x20x256x255, S4x20x256x1] S4x20x256x256 3
  bcast_S_S4x20x256x256 : S_.BroadcastsInDim S4x20x256x256 (![] : Fin 0 → Fin S4x20x256x256.rank)
  slices_S4x20x256x256_S4x20x256x1_0_0_0_255 : S4x20x256x256.Slices ![0, 0, 0, 255] S4x20x256x1
  slices_S4x20x256x256_S4x20x256x255_0_0_0_0 : S4x20x256x256.Slices ![0, 0, 0, 0] S4x20x256x255
  concatenates_S4x20x256x1_S4x20x256x255_S4x20x256x256_d3 : Shape.Concatenates [S4x20x256x1, S4x20x256x255] S4x20x256x256 3
  slices_S4x20x256x256_S4x20x255x256_0_0_1_0 : S4x20x256x256.Slices ![0, 0, 1, 0] S4x20x255x256
  slices_S4x20x256x256_S4x20x1x256_0_0_0_0 : S4x20x256x256.Slices ![0, 0, 0, 0] S4x20x1x256
  concatenates_S4x20x255x256_S4x20x1x256_S4x20x256x256_d2 : Shape.Concatenates [S4x20x255x256, S4x20x1x256] S4x20x256x256 2
  slices_S4x20x256x256_S4x20x1x256_0_0_255_0 : S4x20x256x256.Slices ![0, 0, 255, 0] S4x20x1x256
  slices_S4x20x256x256_S4x20x255x256_0_0_0_0 : S4x20x256x256.Slices ![0, 0, 0, 0] S4x20x255x256
  concatenates_S4x20x1x256_S4x20x255x256_S4x20x256x256_d2 : Shape.Concatenates [S4x20x1x256, S4x20x255x256] S4x20x256x256 2
  reducesTo_S4x20x256x256_S_d0_1_2_3 : S4x20x256x256.ReducesTo [0, 1, 2, 3] S_
  h_S_ : 0 < S_.numel
  slices_S4x22x256x256_S4x20x256x256_0_2_0_0 : S4x22x256x256.Slices ![0, 2, 0, 0] S4x20x256x256
  slices_S4x22x256x256_S4x20x256x256_0_0_0_0 : S4x22x256x256.Slices ![0, 0, 0, 0] S4x20x256x256
  slices_S4x20x256x256_S4x20x256x254_0_0_0_2 : S4x20x256x256.Slices ![0, 0, 0, 2] S4x20x256x254
  slices_S4x20x256x256_S4x20x256x2_0_0_0_0 : S4x20x256x256.Slices ![0, 0, 0, 0] S4x20x256x2
  concatenates_S4x20x256x254_S4x20x256x2_S4x20x256x256_d3 : Shape.Concatenates [S4x20x256x254, S4x20x256x2] S4x20x256x256 3
  slices_S4x20x256x256_S4x20x256x2_0_0_0_254 : S4x20x256x256.Slices ![0, 0, 0, 254] S4x20x256x2
  slices_S4x20x256x256_S4x20x256x254_0_0_0_0 : S4x20x256x256.Slices ![0, 0, 0, 0] S4x20x256x254
  concatenates_S4x20x256x2_S4x20x256x254_S4x20x256x256_d3 : Shape.Concatenates [S4x20x256x2, S4x20x256x254] S4x20x256x256 3
  slices_S4x20x256x256_S4x20x254x256_0_0_2_0 : S4x20x256x256.Slices ![0, 0, 2, 0] S4x20x254x256
  slices_S4x20x256x256_S4x20x2x256_0_0_0_0 : S4x20x256x256.Slices ![0, 0, 0, 0] S4x20x2x256
  concatenates_S4x20x254x256_S4x20x2x256_S4x20x256x256_d2 : Shape.Concatenates [S4x20x254x256, S4x20x2x256] S4x20x256x256 2
  slices_S4x20x256x256_S4x20x2x256_0_0_254_0 : S4x20x256x256.Slices ![0, 0, 254, 0] S4x20x2x256
  slices_S4x20x256x256_S4x20x254x256_0_0_0_0 : S4x20x256x256.Slices ![0, 0, 0, 0] S4x20x254x256
  concatenates_S4x20x2x256_S4x20x254x256_S4x20x256x256_d2 : Shape.Concatenates [S4x20x2x256, S4x20x254x256] S4x20x256x256 2

variable [Facts₀]

class Facts : Prop extends Facts₀ where

variable [Facts]
-- ==== Proof.KB.Runs.lean ====
/-
  What the case runs of the kernel body share: the contents of a core's buffers when the region is entered
  (the launch contents: the region is the first line of the program), each window's block at a grid point read
  off its array, the staging memrefs the body is called with at a point, and the body's one branch condition
  (the accumulators are reset at the first time step of each batch entry) in closed form over the grid.
-/
import proofs.«130660_j5119601017343_2_alg».proof.Proof.Gen.Kernel.Launch
import proofs.«130660_j5119601017343_2_alg».proof.Proof.Gen.Kernel.Skeleton
import proofs.«130660_j5119601017343_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers when the region is entered: as launched. -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's branch condition: the time coordinate is zero. -/
abbrev cond0_0 (i : grid0.Coords) : Prop := (Scalar.cmpi .ne (Scalar.extui (Scalar.cmpi .eq (BitVec.ofNat 32 (i 1).val) 0#32)) 0#32) = 1#1
/-- It holds exactly at the first of every twenty consecutive points. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of each output window, through which its contents are stated. -/
abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev VO0_10 : View sig .tc .vmem S1x1x1 .f32 := (Memref.whole cc0_stg10_0 : Memref sig .tc .vmem S1x1x1 .f32).view

abbrev ms0_0 (t : Fin cfg0.N) : Memref sig .tc .vmem S1x1x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1 .f32 := win0_10.stage (cfg0.slots t 10)
abbrev hs0_10 (t : Fin cfg0.N) : (ms0_10 t).IsWhole := hstage0_10 ((cfg0.slots t 10).cast nbuf0_10)

end Cert.Kernel.Hand

end
-- ==== Proof.KB.RunA.lean ====
/-
  The kernel body run on any whole staging memrefs at a grid point where the accumulators are reset (the time coordinate is zero): each accumulator's memref, whatever it held, ends with the pieces the stores wrote;
  the inputs' memrefs are handed back as they were.
-/
import proofs.«130660_j5119601017343_2_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces each accumulator's memref ends with, and the body's triple over them. -/
structure KRunA (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Type where
  L8 : List (View.Piece (Elt F) S1x1x1 .f32)
  L9 : List (View.Piece (Elt F) S1x1x1 .f32)
  L10 : List (View.Piece (Elt F) S1x1x1 .f32)
  run : ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
      ⊢ wp frame (wpE (defs₀ (F := F)) Variants.none c none) E (cc0__pde_kernel i arg2 harg2 arg3 harg3 arg4 harg4 arg5 harg5 arg6 harg6 arg7 harg7 arg8 harg8 arg9 harg9 arg10 harg10 arg11 harg11 arg12 harg12) K

set_option maxHeartbeats 4000000 in
noncomputable def kernelRun0_A (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : KRunA (F := F) c i arg2 harg2 arg3 harg3 arg4 harg4 arg5 harg5 arg6 harg6 arg7 harg7 arg8 harg8 arg9 harg9 arg10 harg10 arg11 harg11 arg12 harg12 x0 x1 x2 x3 x4 x5 x6 x7 := by
  refine ⟨?_, ?_, ?_, fun E K => ?run⟩
  case run =>
    simp only [cc0__pde_kernel_eq_skeleton]; unfold cc0__pde_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.Kernel.Hand

end
-- ==== Proof.KB.RunB.lean ====
/-
  The kernel body run on any whole staging memrefs at a grid point where the accumulators are carried (the time coordinate is not zero): each accumulator's memref, holding the running total, ends with the pieces the stores wrote;
  the inputs' memrefs are handed back as they were.
-/
import proofs.«130660_j5119601017343_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces each accumulator's memref ends with, and the body's triple over them. -/
structure KRunB (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 : Vec F S1x1x1 .f32) (xo9 : Vec F S1x1x1 .f32) (xo10 : Vec F S1x1x1 .f32) : Type where
  L8 : List (View.Piece (Elt F) S1x1x1 .f32)
  L9 : List (View.Piece (Elt F) S1x1x1 .f32)
  L10 : List (View.Piece (Elt F) S1x1x1 .f32)
  run : ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
      ⊢ wp frame (wpE (defs₀ (F := F)) Variants.none c none) E (cc0__pde_kernel i arg2 harg2 arg3 harg3 arg4 harg4 arg5 harg5 arg6 harg6 arg7 harg7 arg8 harg8 arg9 harg9 arg10 harg10 arg11 harg11 arg12 harg12) K

set_option maxHeartbeats 4000000 in
noncomputable def kernelRun0_B (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 : Vec F S1x1x1 .f32) (xo9 : Vec F S1x1x1 .f32) (xo10 : Vec F S1x1x1 .f32) : KRunB (F := F) c i arg2 harg2 arg3 harg3 arg4 harg4 arg5 harg5 arg6 harg6 arg7 harg7 arg8 harg8 arg9 harg9 arg10 harg10 arg11 harg11 arg12 harg12 x0 x1 x2 x3 x4 x5 x6 x7 xo8 xo9 xo10 := by
  refine ⟨?_, ?_, ?_, fun E K => ?run⟩
  case run =>
    simp only [cc0__pde_kernel_eq_skeleton]; unfold cc0__pde_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.Kernel.Hand

end
-- ==== Proof.KB.Frame.lean ====
/-
  The proof data of the kernel's one pipelined region and its body obligation. The three accumulator windows
  (one element per batch entry) are reset at the first time step of a batch entry and added to at the nineteen
  later ones; their staging buffers are written back after the last. What the accumulators hold after each grid
  point is defined by recursion on the point from the two case runs of the body. The two time-stencilled input
  arrays are each handed to the region through three windows (frames t, t+1, t+2), which hold the array at three
  shares that make up the whole.
-/
import proofs.«130660_j5119601017343_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of accumulator window 8 cover its one-element block. -/
theorem cover0_A_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8 S1x1x1.size (by sl_kernel_rfl) y

/-- What the body leaves in accumulator window 8's staging buffer: its pieces read back. -/
def out0_A_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_8.read (Elt F) (VO0_8.writes (Elt F) VO0_8.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8)

/-- The pieces of accumulator window 9 cover its one-element block. -/
theorem cover0_A_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9 S1x1x1.size (by sl_kernel_rfl) y

/-- What the body leaves in accumulator window 9's staging buffer: its pieces read back. -/
def out0_A_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_9.read (Elt F) (VO0_9.writes (Elt F) VO0_9.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9)

/-- The pieces of accumulator window 10 cover its one-element block. -/
theorem cover0_A_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10 S1x1x1.size (by sl_kernel_rfl) y

/-- What the body leaves in accumulator window 10's staging buffer: its pieces read back. -/
def out0_A_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_10.read (Elt F) (VO0_10.writes (Elt F) VO0_10.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10)

/-- The pieces of accumulator window 8 cover its one-element block. -/
theorem cover0_B_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8 S1x1x1.size (by sl_kernel_rfl) y

/-- What the body leaves in accumulator window 8's staging buffer: its pieces read back. -/
def out0_B_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_8.read (Elt F) (VO0_8.writes (Elt F) VO0_8.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8)

/-- The pieces of accumulator window 9 cover its one-element block. -/
theorem cover0_B_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9 S1x1x1.size (by sl_kernel_rfl) y

/-- What the body leaves in accumulator window 9's staging buffer: its pieces read back. -/
def out0_B_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_9.read (Elt F) (VO0_9.writes (Elt F) VO0_9.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9)

/-- The pieces of accumulator window 10 cover its one-element block. -/
theorem cover0_B_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10 S1x1x1.size (by sl_kernel_rfl) y

/-- What the body leaves in accumulator window 10's staging buffer: its pieces read back. -/
def out0_B_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_10.read (Elt F) (VO0_10.writes (Elt F) VO0_10.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10)

/-! ## What the accumulators hold after each point -/

/-- The three accumulators' staging contents after the body at position n: at a reset point the reset case's,
    else the carrying case's over what the point before left. -/
def outsAt0 (c : Dev nD) : (n : ℕ) → n < cfg0.N → Vec F S1x1x1 .f32 × Vec F S1x1x1 .f32 × Vec F S1x1x1 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
        out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
        out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 20 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2,
        out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2,
        out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 20 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t),
        out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t),
        out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 20 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The proof data -/

/-- The proof data on core c: the arrays as the region finds them; after the body each input's buffer at its block and
    the accumulators' at outsAt0; the scoped rest and the generator register as invariant; nothing owed. The three
    windows on one array hold a half and two quarters of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2
  Φ _ := Pipeline.ΦA spec0 c
  q w := match w with
    | ⟨0, _⟩ => fullShare
    | ⟨1, _⟩ => fullShare
    | ⟨2, _⟩ => fullShare.left
    | ⟨3, _⟩ => fullShare.right.left
    | ⟨4, _⟩ => fullShare.right.right
    | ⟨5, _⟩ => fullShare.left
    | ⟨6, _⟩ => fullShare.right.left
    | ⟨7, _⟩ => fullShare.right.right
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a carrying point accumulator window 8's staging buffer holds what the body left at the point before. -/
theorem before0_8_B (c : Dev nD) (t : Fin cfg0.N) (h0 : ¬t.val % 20 = 0) (d) :
    (dats m 0 c).before 8 t d = (outsAt0 m c (t.val - 1) (Nat.lt_of_le_of_lt (Nat.sub_le _ _) t.isLt)).1 := by
  have hN : t.val < 80 := lt_of_lt_of_eq t.isLt (show cfg0.N = 80 from N_0)
  rw [Dat.before_out_kept _ 8 rfl t (by omega) (Bool.eq_false_iff.mpr fun h => by have := (flush0_8 _).mp h; dsimp only at this; omega)
    (fun _ => rfl) (fun _ _ => rfl)]
  dsimp only [dats]

/-- At a carrying point accumulator window 9's staging buffer holds what the body left at the point before. -/
theorem before0_9_B (c : Dev nD) (t : Fin cfg0.N) (h0 : ¬t.val % 20 = 0) (d) :
    (dats m 0 c).before 9 t d = (outsAt0 m c (t.val - 1) (Nat.lt_of_le_of_lt (Nat.sub_le _ _) t.isLt)).2.1 := by
  have hN : t.val < 80 := lt_of_lt_of_eq t.isLt (show cfg0.N = 80 from N_0)
  rw [Dat.before_out_kept _ 9 rfl t (by omega) (Bool.eq_false_iff.mpr fun h => by have := (flush0_9 _).mp h; dsimp only at this; omega)
    (fun _ => rfl) (fun _ _ => rfl)]
  dsimp only [dats]

/-- At a carrying point accumulator window 10's staging buffer holds what the body left at the point before. -/
theorem before0_10_B (c : Dev nD) (t : Fin cfg0.N) (h0 : ¬t.val % 20 = 0) (d) :
    (dats m 0 c).before 10 t d = (outsAt0 m c (t.val - 1) (Nat.lt_of_le_of_lt (Nat.sub_le _ _) t.isLt)).2.2 := by
  have hN : t.val < 80 := lt_of_lt_of_eq t.isLt (show cfg0.N = 80 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 80 := lt_of_lt_of_eq t.isLt (show cfg0.N = 80 from N_0)
  by_cases h0 : t.val % 20 = 0
  · rw [outsAt0_A m c t h0]
    dsimp only
    unfold out0_A_8 out0_A_9 out0_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A (F := F) c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _)
  · rw [outsAt0_B m c t h0]
    dsimp only
    simp only [before0_8_B m c t h0, before0_9_B m c t h0, before0_10_B m c t h0]
    unfold out0_B_8 out0_B_9 out0_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B (F := F) c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KB.Launch.lean ====
/-
  The launch of the kernel's one pipelined region followed by the host lines that average the three accumulated
  sums: every weakly fair execution terminates, each window's array ends at what the write-backs leave, and
  every other buffer at what the host lines compute from the region's results. The two time-stencilled arrays
  reach the region through three windows each; the region holds such an array at three shares that make up the
  whole, split off the whole at entry.
-/
import proofs.«130660_j5119601017343_2_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch contents as a valuation of the device's references. -/
abbrev V0 (c : Dev nD) : Valuation τ sig (Elt F) := fun b => m (c, b)

theorem V_eq_V0 (c : Dev nD) (b : Ref sig .tc) : V m c b = V0 m c (Proc.devRef .tc b) := rfl

/-- The program is the region followed by the host lines. -/
theorem hmain (𝒱₀ : Variants) : Pipeline.HMainK (Ix := Unit) (Name := ℕ) (U := UR sig nD τ) (Lvl := ℕ) cfgs 0 defs₀ 𝒱₀ m (main (F := F))
    (V m) (fun _ => Pipeline.chain ([hostOps1 (F := F)].map StableHlo.seq)) :=
  Pipeline.hmain_around cfgs 0 defs₀ 𝒱₀ m main [] [hostOps1] trivial trivial (fun c => (main_chain c).trans rfl)

theorem pt_whole (c : Dev nD) (b : Ref sig .tc) (q : PosShare TreeShare) (f : Buf (Elt F) ((c.tc : Thread nD τ).loc b)) :
    ((View.loc (c.tc : Thread nD τ) (View.whole b)) ↦[(View.whole b).set]{q} f : sProp 𝕄) = (((c.tc : Thread nD τ).loc b) ↦{q} f) := by
  rw [show (View.whole b).set = Finset.univ from (Memref.isWhole_whole b).set_eq_univ]

/-- The seven distinct buffers behind the eleven windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_arg3) ↦{fullShare} W main_arg3)
          ∗ (((c.tc : Thread nD τ).loc main_v0_0) ↦{fullShare} W main_v0_0) ∗ (((c.tc : Thread nD τ).loc main_v0_1) ↦{fullShare} W main_v0_1)
          ∗ (((c.tc : Thread nD τ).loc main_v0_2) ↦{fullShare} W main_v0_2)) :=
  BI.bigSep_eq_bigSepL_of_eq [main_arg0, main_arg1, main_arg2, main_arg3, main_v0_0, main_v0_1, main_v0_2] (by decide) (by decide) _

/-- At entry the seven distinct buffers behind the eleven windows, each whole, make the windows' arrays at their
    shares: a time-stencilled array's whole is split into a half and two quarters. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [bigSep_W0, arrBufs_eq]
  simp only [pt_whole c main_arg0, pt_whole c main_arg1, pt_whole c main_arg2, pt_whole c main_arg3, pt_whole c main_v0_0, pt_whole c main_v0_1, pt_whole c main_v0_2]
  iintro ⟨H0, H1, H2, H3, H8, H9, H10⟩
  ihave H2s := (pointsTo_share (PosShare.mem_left_op_right fullShare)).1 $$ H2
  icases H2s with ⟨H2a, H2r⟩
  ihave H2t := (pointsTo_share (PosShare.mem_left_op_right fullShare.right)).1 $$ H2r
  icases H2t with ⟨H2b, H2c⟩
  ihave H3s := (pointsTo_share (PosShare.mem_left_op_right fullShare)).1 $$ H3
  icases H3s with ⟨H3a, H3r⟩
  ihave H3t := (pointsTo_share (PosShare.mem_left_op_right fullShare.right)).1 $$ H3r
  icases H3t with ⟨H3b, H3c⟩
  isplitl [H0]; · iexact H0
  isplitl [H1]; · iexact H1
  isplitl [H2a]; · iexact H2a
  isplitl [H2b]; · iexact H2b
  isplitl [H2c]; · iexact H2c
  isplitl [H3a]; · iexact H3a
  isplitl [H3b]; · iexact H3b
  isplitl [H3c]; · iexact H3c
  isplitl [H8]; · iexact H8
  isplitl [H9]; · iexact H9
  iexact H10

/-! ## The host lines after the region -/

/-- The seventeen buffers the host lines touch: the three accumulator arrays and the fourteen host buffers. -/
abbrev tailList : List (Ref sig .tc) := [main_v0_0, main_v0_1, main_v0_2, main_cst, main_v1, main_cst_0, main_v2, main_cst_1, main_v3, main_cst_2, main_v4, main_cst_3, main_v5, main_cst_4, main_v6, main_v7, main_v8]
abbrev tailSet : Finset (DevRef τ sig) := (tailList.map (Proc.devRef (τ := τ) .tc)).toFinset

theorem held_tail (c : Dev nD) (W : Valuation τ sig (Elt F)) :
    (StableHlo.held (Ix := Unit) (Name := ℕ) (U := UR sig nD τ) (Lvl := ℕ) (c.tc : Thread nD τ) tailSet W : sProp 𝕄)
      = iprop((((c.tc : Thread nD τ).loc main_v0_0) ↦{fullShare} W (Proc.devRef .tc main_v0_0))
          ∗ (((c.tc : Thread nD τ).loc main_v0_1) ↦{fullShare} W (Proc.devRef .tc main_v0_1))
          ∗ (((c.tc : Thread nD τ).loc main_v0_2) ↦{fullShare} W (Proc.devRef .tc main_v0_2))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))
          ∗ (((c.tc : Thread nD τ).loc main_cst_1) ↦{fullShare} W (Proc.devRef .tc main_cst_1))
          ∗ (((c.tc : Thread nD τ).loc main_v3) ↦{fullShare} W (Proc.devRef .tc main_v3))
          ∗ (((c.tc : Thread nD τ).loc main_cst_2) ↦{fullShare} W (Proc.devRef .tc main_cst_2))
          ∗ (((c.tc : Thread nD τ).loc main_v4) ↦{fullShare} W (Proc.devRef .tc main_v4))
          ∗ (((c.tc : Thread nD τ).loc main_cst_3) ↦{fullShare} W (Proc.devRef .tc main_cst_3))
          ∗ (((c.tc : Thread nD τ).loc main_v5) ↦{fullShare} W (Proc.devRef .tc main_v5))
          ∗ (((c.tc : Thread nD τ).loc main_cst_4) ↦{fullShare} W (Proc.devRef .tc main_cst_4))
          ∗ (((c.tc : Thread nD τ).loc main_v6) ↦{fullShare} W (Proc.devRef .tc main_v6))
          ∗ (((c.tc : Thread nD τ).loc main_v7) ↦{fullShare} W (Proc.devRef .tc main_v7))
          ∗ (((c.tc : Thread nD τ).loc main_v8) ↦{fullShare} W (Proc.devRef .tc main_v8))) :=
  BI.bigSep_eq_bigSepL_of_eq (tailList.map (Proc.devRef (τ := τ) .tc)) rfl (by decide) _

theorem tail_sub : ∀ ops ∈ [hostOps1 (F := F)], ∀ op ∈ ops, op.bufs ⊆ tailSet := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl
  all_goals (first | (rw [StableHlo.nullary_bufs]; decide) | (rw [StableHlo.binary_bufs]; decide))

theorem tail_fresh : ∀ ops ∈ [hostOps1 (F := F)], ∀ op ∈ ops, op.fresh = ∅ := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl
  all_goals rfl

/-- The host lines write none of the accumulator arrays. -/
theorem tail_keeps (b : Ref sig .tc) (hb : b ∈ [main_v0_0, main_v0_1, main_v0_2]) :
    ∀ op ∈ [hostOps1 (F := F)].flatten, Proc.devRef (τ := τ) .tc b ∉ op.writes := by
  intro op hop
  simp only [List.flatten_cons, List.flatten_nil, List.append_nil, hostOps1, List.mem_cons, List.mem_nil_iff, or_false] at hop hb
  rcases hop with rfl | rfl | rfl | rfl | rfl | rfl | rfl | rfl | rfl | rfl | rfl | rfl | rfl | rfl
  all_goals (simp only [StableHlo.nullary_writes, StableHlo.binary_writes, Finset.mem_singleton]; rcases hb with rfl | rfl | rfl <;> exact StableHlo.devRef_ne_of_ne (by decide))

/-- The region's exit contents as a valuation: each window's array at what the write-backs leave, every other buffer
    as launched. -/
def Wout (c : Dev nD) : Valuation τ sig (Elt F) :=
  Pipeline.withArrays spec0 c (V0 m c) fun w => (dats m 0 c).arrAt w cfg0.N

/-- What each buffer holds after the host lines. -/
def Wfin (c : Dev nD) (b : Ref sig .tc) : Buf (Elt F) ((c.tc : Thread nD τ).loc b) :=
  StableHlo.after [hostOps1 (F := F)].flatten (Wout m c) (Proc.devRef .tc b)

theorem Wout_arr (c : Dev nD) (w : Fin 11) (hw : ∀ w' : Fin 11, Pipeline.arrRef spec0 w' = Pipeline.arrRef spec0 w → w' = w) :
    Wout m c (Proc.devRef .tc (Pipeline.arrRef spec0 w)) = (dats m 0 c).arrAt w cfg0.N := by
  unfold Wout Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 11) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := hw w' (Proc.devRef_injective _ e)
  rfl

theorem Wout_rest (c : Dev nD) (b : Ref sig .tc) (hb : ∀ w, Pipeline.arrRef spec0 w ≠ b) :
    Wout m c (Proc.devRef .tc b) = V0 m c (Proc.devRef .tc b) :=
  Pipeline.withArrays_of_ne spec0 c (V0 m c) _ b hb

theorem Wout_8 (c : Dev nD) : Wout m c (Proc.devRef .tc main_v0_0) = (dats m 0 c).arrAt 8 cfg0.N := Wout_arr m c 8 (by decide)
theorem Wout_9 (c : Dev nD) : Wout m c (Proc.devRef .tc main_v0_1) = (dats m 0 c).arrAt 9 cfg0.N := Wout_arr m c 9 (by decide)
theorem Wout_10 (c : Dev nD) : Wout m c (Proc.devRef .tc main_v0_2) = (dats m 0 c).arrAt 10 cfg0.N := Wout_arr m c 10 (by decide)

theorem keep_8 (c : Dev nD) : StableHlo.after [hostOps1 (F := F)].flatten (Wout m c) (Proc.devRef .tc main_v0_0) = (dats m 0 c).arrAt 8 cfg0.N :=
  (StableHlo.after_of_forall_not_mem _ _ (tail_keeps main_v0_0 (by decide))).trans (Wout_8 m c)
theorem keep_9 (c : Dev nD) : StableHlo.after [hostOps1 (F := F)].flatten (Wout m c) (Proc.devRef .tc main_v0_1) = (dats m 0 c).arrAt 9 cfg0.N :=
  (StableHlo.after_of_forall_not_mem _ _ (tail_keeps main_v0_1 (by decide))).trans (Wout_9 m c)
theorem keep_10 (c : Dev nD) : StableHlo.after [hostOps1 (F := F)].flatten (Wout m c) (Proc.devRef .tc main_v0_2) = (dats m 0 c).arrAt 10 cfg0.N :=
  (StableHlo.after_of_forall_not_mem _ _ (tail_keeps main_v0_2 (by decide))).trans (Wout_10 m c)

set_option backward.isDefEq.respectTransparency.types false in
set_option maxHeartbeats 1000000 in
/-- The host lines from the region's exit: they run within the three accumulator arrays and the fourteen host
    buffers, write none of the arrays, and leave each host buffer at what they compute. -/
theorem htail (c : Dev nD) (Q' : PUnit → sProp 𝕄) :
    iprop((iprop((dats m 0 c).arrays ((dats m 0 c).arrAt · cfg0.N) ∗ Pipeline.unscopedRest (Ix := Unit) (Name := ℕ) (U := UR sig nD τ) (Lvl := ℕ) spec0 c (Wfin m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain ([hostOps1 (F := F)].map StableHlo.seq)) Q' := by
  unfold Dat.arrays
  rw [bigSep_W0, unscopedRest0_eq, unscopedRest0_eq]
  simp only [pt_whole c main_arg0, pt_whole c main_arg1, pt_whole c main_arg2, pt_whole c main_arg3, pt_whole c main_v0_0, pt_whole c main_v0_1, pt_whole c main_v0_2]
  iintro ⟨Hk, Hbd, ⟨A0, A1, A2, A3, A4, A5, A6, A7, A8, A9, A10⟩, ⟨R0, R1, R2, R3, R4, R5, R6, R7, R8, R9, R10, R11, R12, R13⟩⟩
  have hseq := Pipeline.wp_seqs_then (Ix := Unit) (Name := ℕ) (U := UR sig nD τ) (Lvl := ℕ) (fun q => (cfgs q).toPCfg (Val := Elt F)) defs₀ Variants.none c tailSet [] (K := Q')
    [hostOps1 (F := F)] tail_sub tail_fresh (Wout m c)
  rw [List.append_nil, held_tail, held_tail] at hseq
  rw [Wout_8 m c, Wout_9 m c, Wout_10 m c, keep_8 m c, keep_9 m c, keep_10 m c] at hseq
  simp only [Wout_8, Wout_rest m c main_cst (by decide), Wout_rest m c main_v1 (by decide), Wout_rest m c main_cst_0 (by decide), Wout_rest m c main_v2 (by decide), Wout_rest m c main_cst_1 (by decide), Wout_rest m c main_v3 (by decide), Wout_rest m c main_cst_2 (by decide), Wout_rest m c main_v4 (by decide), Wout_rest m c main_cst_3 (by decide), Wout_rest m c main_v5 (by decide), Wout_rest m c main_cst_4 (by decide), Wout_rest m c main_v6 (by decide), Wout_rest m c main_v7 (by decide), Wout_rest m c main_v8 (by decide)] at hseq
  iapply hseq $$ [Hbd A8 A9 A10 R0 R1 R2 R3 R4 R5 R6 R7 R8 R9 R10 R11 R12 R13]
  · isplitl [Hbd]; · iexact Hbd
    isplitl [A8]; · iexact A8
    isplitl [A9]; · iexact A9
    isplitl [A10]; · iexact A10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iintro ⟨Hbd, A8, A9, A10, R0, R1, R2, R3, R4, R5, R6, R7, R8, R9, R10, R11, R12, R13⟩
  rw [Pipeline.chain_nil, wp_pure]
  imodintro
  iapply Hk
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-! ## The run -/

/-- The unscoped buffers that are no window's array. -/
abbrev restSet : Finset (Ref sig .tc) := (Finset.univ.filter fun b : Ref sig .tc => ¬ b.isScoped) \ Finset.univ.image (Pipeline.arrRef spec0)

/-- The run's post: each window's array at what the write-backs leave, each other unscoped buffer at what the host
    lines compute from the region's exit contents. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restSet, r.2.mem ((c.tc : Thread nD τ).loc b) = Wfin m c b

set_option backward.isDefEq.respectTransparency.types false in
set_option maxHeartbeats 1000000 in
theorem run_main : θ_run (defs (F := F)) (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wfin m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ restSet, s.mem ((c.tc : Thread nD τ).loc b) = Wfin m c b)
    (hY := fun c s' => by
      iintro ⟨-, HU, HSI⟩
      unfold Pipeline.unscopedRest
      imodintro
      iapply (pointsTo_read_all restSet (fun b => (c.tc : Thread nD τ).loc b) (Wfin m c) s')
      isplitl [HU] <;> iassumption)
    (hQ := fun s h c => ⟨(h c).1, (h c).2.2⟩)

/-! ## The frame -/

/-- The argument arrays end unchanged: each is the array of an input window, which no write-back touches. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).1 5).trans (((dats m 0 c).arrAt_in 5 rfl _).trans (A_eq m c 5))⟩) (run_main m ρ)

end Cert.Kernel.Hand

end
-- ==== Proof.KI.Runs.lean ====
/-
  What the case runs of the kernel body share: the contents of a core's buffers when the region is entered
  (the launch contents: the region is the first line of the program), each window's block at a grid point read
  off its array, the staging memrefs the body is called with at a point, and the body's one branch condition
  (the accumulators are reset at the first time step of each batch entry) in closed form over the grid.
-/
import proofs.«130660_j5119601017343_2_alg».proof.Proof.Gen.KernelIdeal.Launch
import proofs.«130660_j5119601017343_2_alg».proof.Proof.Gen.KernelIdeal.Skeleton
import proofs.«130660_j5119601017343_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers when the region is entered: as launched. -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The body's branch condition: the time coordinate is zero. -/
abbrev cond0_0 (i : grid0.Coords) : Prop := (Scalar.cmpi .ne (Scalar.extui (Scalar.cmpi .eq (BitVec.ofNat 32 (i 1).val) 0#32)) 0#32) = 1#1
/-- It holds exactly at the first of every twenty consecutive points. -/
theorem hcond0_0 : ∀ t : Fin cfg0.N, cond0_0 (grid0.coords t) ↔ t.val % 20 = 0 :=
  (by decide +kernel : ∀ t : Fin grid0.N, cond0_0 (grid0.coords t) ↔ t.val % 20 = 0)

/-- One staging buffer of each output window, through which its contents are stated. -/
abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev VO0_10 : View sig .tc .vmem S1x1x1 .f32 := (Memref.whole cc0_stg10_0 : Memref sig .tc .vmem S1x1x1 .f32).view

abbrev ms0_0 (t : Fin cfg0.N) : Memref sig .tc .vmem S1x1x256x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1 .f32 := win0_10.stage (cfg0.slots t 10)
abbrev hs0_10 (t : Fin cfg0.N) : (ms0_10 t).IsWhole := hstage0_10 ((cfg0.slots t 10).cast nbuf0_10)

end Cert.KernelIdeal.Hand

end
-- ==== Proof.KI.RunA.lean ====
/-
  The kernel body run on any whole staging memrefs at a grid point where the accumulators are reset (the time coordinate is zero): each accumulator's memref, whatever it held, ends with the pieces the stores wrote;
  the inputs' memrefs are handed back as they were.
-/
import proofs.«130660_j5119601017343_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces each accumulator's memref ends with, and the body's triple over them. -/
structure KRunA (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Type where
  L8 : List (View.Piece (Elt F) S1x1x1 .f32)
  L9 : List (View.Piece (Elt F) S1x1x1 .f32)
  L10 : List (View.Piece (Elt F) S1x1x1 .f32)
  run : ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
      ⊢ wp frame (wpE (defs₀ (F := F)) Variants.none c none) E (cc0__pde_kernel i arg2 harg2 arg3 harg3 arg4 harg4 arg5 harg5 arg6 harg6 arg7 harg7 arg8 harg8 arg9 harg9 arg10 harg10 arg11 harg11 arg12 harg12) K

set_option maxHeartbeats 4000000 in
noncomputable def kernelRun0_A (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : KRunA (F := F) c i arg2 harg2 arg3 harg3 arg4 harg4 arg5 harg5 arg6 harg6 arg7 harg7 arg8 harg8 arg9 harg9 arg10 harg10 arg11 harg11 arg12 harg12 x0 x1 x2 x3 x4 x5 x6 x7 := by
  refine ⟨?_, ?_, ?_, fun E K => ?run⟩
  case run =>
    simp only [cc0__pde_kernel_eq_skeleton]; unfold cc0__pde_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.KernelIdeal.Hand

end
-- ==== Proof.KI.RunB.lean ====
/-
  The kernel body run on any whole staging memrefs at a grid point where the accumulators are carried (the time coordinate is not zero): each accumulator's memref, holding the running total, ends with the pieces the stores wrote;
  the inputs' memrefs are handed back as they were.
-/
import proofs.«130660_j5119601017343_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces each accumulator's memref ends with, and the body's triple over them. -/
structure KRunB (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 : Vec F S1x1x1 .f32) (xo9 : Vec F S1x1x1 .f32) (xo10 : Vec F S1x1x1 .f32) : Type where
  L8 : List (View.Piece (Elt F) S1x1x1 .f32)
  L9 : List (View.Piece (Elt F) S1x1x1 .f32)
  L10 : List (View.Piece (Elt F) S1x1x1 .f32)
  run : ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
      ⊢ wp frame (wpE (defs₀ (F := F)) Variants.none c none) E (cc0__pde_kernel i arg2 harg2 arg3 harg3 arg4 harg4 arg5 harg5 arg6 harg6 arg7 harg7 arg8 harg8 arg9 harg9 arg10 harg10 arg11 harg11 arg12 harg12) K

set_option maxHeartbeats 4000000 in
noncomputable def kernelRun0_B (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 : Vec F S1x1x1 .f32) (xo9 : Vec F S1x1x1 .f32) (xo10 : Vec F S1x1x1 .f32) : KRunB (F := F) c i arg2 harg2 arg3 harg3 arg4 harg4 arg5 harg5 arg6 harg6 arg7 harg7 arg8 harg8 arg9 harg9 arg10 harg10 arg11 harg11 arg12 harg12 x0 x1 x2 x3 x4 x5 x6 x7 xo8 xo9 xo10 := by
  refine ⟨?_, ?_, ?_, fun E K => ?run⟩
  case run =>
    simp only [cc0__pde_kernel_eq_skeleton]; unfold cc0__pde_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.KernelIdeal.Hand

end
-- ==== Proof.KI.Frame.lean ====
/-
  The proof data of the kernel's one pipelined region and its body obligation. The three accumulator windows
  (one element per batch entry) are reset at the first time step of a batch entry and added to at the nineteen
  later ones; their staging buffers are written back after the last. What the accumulators hold after each grid
  point is defined by recursion on the point from the two case runs of the body. The two time-stencilled input
  arrays are each handed to the region through three windows (frames t, t+1, t+2), which hold the array at three
  shares that make up the whole.
-/
import proofs.«130660_j5119601017343_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of accumulator window 8 cover its one-element block. -/
theorem cover0_A_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8 S1x1x1.size (by sl_kernel_rfl) y

/-- What the body leaves in accumulator window 8's staging buffer: its pieces read back. -/
def out0_A_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_8.read (Elt F) (VO0_8.writes (Elt F) VO0_8.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L8)

/-- The pieces of accumulator window 9 cover its one-element block. -/
theorem cover0_A_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9 S1x1x1.size (by sl_kernel_rfl) y

/-- What the body leaves in accumulator window 9's staging buffer: its pieces read back. -/
def out0_A_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_9.read (Elt F) (VO0_9.writes (Elt F) VO0_9.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L9)

/-- The pieces of accumulator window 10 cover its one-element block. -/
theorem cover0_A_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (y : S1x1x1.Idx) :
    ∃ pc ∈ (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10, y ∈ pc.1.set :=
  View.cover_of_tiledL (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10 S1x1x1.size (by sl_kernel_rfl) y

/-- What the body leaves in accumulator window 10's staging buffer: its pieces read back. -/
def out0_A_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) : Vec F S1x1x1 .f32 :=
  VO0_10.read (Elt F) (VO0_10.writes (Elt F) VO0_10.junk (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5 x6 x7).L10)

/-- The pieces of accumulator window 8 cover its one-element block. -/
theorem cover0_B_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8 S1x1x1.size (by sl_kernel_rfl) y

/-- What the body leaves in accumulator window 8's staging buffer: its pieces read back. -/
def out0_B_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_8.read (Elt F) (VO0_8.writes (Elt F) VO0_8.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L8)

/-- The pieces of accumulator window 9 cover its one-element block. -/
theorem cover0_B_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9 S1x1x1.size (by sl_kernel_rfl) y

/-- What the body leaves in accumulator window 9's staging buffer: its pieces read back. -/
def out0_B_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_9.read (Elt F) (VO0_9.writes (Elt F) VO0_9.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L9)

/-- The pieces of accumulator window 10 cover its one-element block. -/
theorem cover0_B_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) (y : S1x1x1.Idx) :
    ∃ pc ∈ (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10, y ∈ pc.1.set :=
  View.cover_of_tiledL (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10 S1x1x1.size (by sl_kernel_rfl) y

/-- What the body leaves in accumulator window 10's staging buffer: its pieces read back. -/
def out0_B_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i)
    (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) : Vec F S1x1x1 .f32 :=
  VO0_10.read (Elt F) (VO0_10.writes (Elt F) VO0_10.junk (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).L10)

/-! ## What the accumulators hold after each point -/

/-- The three accumulators' staging contents after the body at position n: at a reset point the reset case's,
    else the carrying case's over what the point before left. -/
def outsAt0 (c : Dev nD) : (n : ℕ) → n < cfg0.N → Vec F S1x1x1 .f32 × Vec F S1x1x1 .f32 × Vec F S1x1x1 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
        out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
        out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 20 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩),
        out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2,
        out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2,
        out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 20 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t),
        out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t),
        out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 20 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
        out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The proof data -/

/-- The proof data on core c: the arrays as the region finds them; after the body each input's buffer at its block and
    the accumulators' at outsAt0; the scoped rest and the generator register as invariant; nothing owed. The three
    windows on one array hold a half and two quarters of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2
  Φ _ := Pipeline.ΦA spec0 c
  q w := match w with
    | ⟨0, _⟩ => fullShare
    | ⟨1, _⟩ => fullShare
    | ⟨2, _⟩ => fullShare.left
    | ⟨3, _⟩ => fullShare.right.left
    | ⟨4, _⟩ => fullShare.right.right
    | ⟨5, _⟩ => fullShare.left
    | ⟨6, _⟩ => fullShare.right.left
    | ⟨7, _⟩ => fullShare.right.right
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At a carrying point accumulator window 8's staging buffer holds what the body left at the point before. -/
theorem before0_8_B (c : Dev nD) (t : Fin cfg0.N) (h0 : ¬t.val % 20 = 0) (d) :
    (dats m 0 c).before 8 t d = (outsAt0 m c (t.val - 1) (Nat.lt_of_le_of_lt (Nat.sub_le _ _) t.isLt)).1 := by
  have hN : t.val < 80 := lt_of_lt_of_eq t.isLt (show cfg0.N = 80 from N_0)
  rw [Dat.before_out_kept _ 8 rfl t (by omega) (Bool.eq_false_iff.mpr fun h => by have := (flush0_8 _).mp h; dsimp only at this; omega)
    (fun _ => rfl) (fun _ _ => rfl)]
  dsimp only [dats]

/-- At a carrying point accumulator window 9's staging buffer holds what the body left at the point before. -/
theorem before0_9_B (c : Dev nD) (t : Fin cfg0.N) (h0 : ¬t.val % 20 = 0) (d) :
    (dats m 0 c).before 9 t d = (outsAt0 m c (t.val - 1) (Nat.lt_of_le_of_lt (Nat.sub_le _ _) t.isLt)).2.1 := by
  have hN : t.val < 80 := lt_of_lt_of_eq t.isLt (show cfg0.N = 80 from N_0)
  rw [Dat.before_out_kept _ 9 rfl t (by omega) (Bool.eq_false_iff.mpr fun h => by have := (flush0_9 _).mp h; dsimp only at this; omega)
    (fun _ => rfl) (fun _ _ => rfl)]
  dsimp only [dats]

/-- At a carrying point accumulator window 10's staging buffer holds what the body left at the point before. -/
theorem before0_10_B (c : Dev nD) (t : Fin cfg0.N) (h0 : ¬t.val % 20 = 0) (d) :
    (dats m 0 c).before 10 t d = (outsAt0 m c (t.val - 1) (Nat.lt_of_le_of_lt (Nat.sub_le _ _) t.isLt)).2.2 := by
  have hN : t.val < 80 := lt_of_lt_of_eq t.isLt (show cfg0.N = 80 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 80 := lt_of_lt_of_eq t.isLt (show cfg0.N = 80 from N_0)
  by_cases h0 : t.val % 20 = 0
  · rw [outsAt0_A m c t h0]
    dsimp only
    unfold out0_A_8 out0_A_9 out0_A_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A (F := F) c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _)
  · rw [outsAt0_B m c t h0]
    dsimp only
    simp only [before0_8_B m c t h0, before0_9_B m c t h0, before0_10_B m c t h0]
    unfold out0_B_8 out0_B_9 out0_B_10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B (F := F) c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _).run Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the kernel's one pipelined region followed by the host lines that average the three accumulated
  sums: every weakly fair execution terminates, each window's array ends at what the write-backs leave, and
  every other buffer at what the host lines compute from the region's results. The two time-stencilled arrays
  reach the region through three windows each; the region holds such an array at three shares that make up the
  whole, split off the whole at entry.
-/
import proofs.«130660_j5119601017343_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch contents as a valuation of the device's references. -/
abbrev V0 (c : Dev nD) : Valuation τ sig (Elt F) := fun b => m (c, b)

theorem V_eq_V0 (c : Dev nD) (b : Ref sig .tc) : V m c b = V0 m c (Proc.devRef .tc b) := rfl

/-- The program is the region followed by the host lines. -/
theorem hmain (𝒱₀ : Variants) : Pipeline.HMainK (Ix := Unit) (Name := ℕ) (U := UR sig nD τ) (Lvl := ℕ) cfgs 0 defs₀ 𝒱₀ m (main (F := F))
    (V m) (fun _ => Pipeline.chain ([hostOps1 (F := F)].map StableHlo.seq)) :=
  Pipeline.hmain_around cfgs 0 defs₀ 𝒱₀ m main [] [hostOps1] trivial trivial (fun c => (main_chain c).trans rfl)

theorem pt_whole (c : Dev nD) (b : Ref sig .tc) (q : PosShare TreeShare) (f : Buf (Elt F) ((c.tc : Thread nD τ).loc b)) :
    ((View.loc (c.tc : Thread nD τ) (View.whole b)) ↦[(View.whole b).set]{q} f : sProp 𝕄) = (((c.tc : Thread nD τ).loc b) ↦{q} f) := by
  rw [show (View.whole b).set = Finset.univ from (Memref.isWhole_whole b).set_eq_univ]

/-- The seven distinct buffers behind the eleven windows, one by one. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_arg2) ↦{fullShare} W main_arg2) ∗ (((c.tc : Thread nD τ).loc main_arg3) ↦{fullShare} W main_arg3)
          ∗ (((c.tc : Thread nD τ).loc main_v0_0) ↦{fullShare} W main_v0_0) ∗ (((c.tc : Thread nD τ).loc main_v0_1) ↦{fullShare} W main_v0_1)
          ∗ (((c.tc : Thread nD τ).loc main_v0_2) ↦{fullShare} W main_v0_2)) :=
  BI.bigSep_eq_bigSepL_of_eq [main_arg0, main_arg1, main_arg2, main_arg3, main_v0_0, main_v0_1, main_v0_2] (by decide) (by decide) _

/-- At entry the seven distinct buffers behind the eleven windows, each whole, make the windows' arrays at their
    shares: a time-stencilled array's whole is split into a half and two quarters. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  unfold Dat.arrays
  rw [bigSep_W0, arrBufs_eq]
  simp only [pt_whole c main_arg0, pt_whole c main_arg1, pt_whole c main_arg2, pt_whole c main_arg3, pt_whole c main_v0_0, pt_whole c main_v0_1, pt_whole c main_v0_2]
  iintro ⟨H0, H1, H2, H3, H8, H9, H10⟩
  ihave H2s := (pointsTo_share (PosShare.mem_left_op_right fullShare)).1 $$ H2
  icases H2s with ⟨H2a, H2r⟩
  ihave H2t := (pointsTo_share (PosShare.mem_left_op_right fullShare.right)).1 $$ H2r
  icases H2t with ⟨H2b, H2c⟩
  ihave H3s := (pointsTo_share (PosShare.mem_left_op_right fullShare)).1 $$ H3
  icases H3s with ⟨H3a, H3r⟩
  ihave H3t := (pointsTo_share (PosShare.mem_left_op_right fullShare.right)).1 $$ H3r
  icases H3t with ⟨H3b, H3c⟩
  isplitl [H0]; · iexact H0
  isplitl [H1]; · iexact H1
  isplitl [H2a]; · iexact H2a
  isplitl [H2b]; · iexact H2b
  isplitl [H2c]; · iexact H2c
  isplitl [H3a]; · iexact H3a
  isplitl [H3b]; · iexact H3b
  isplitl [H3c]; · iexact H3c
  isplitl [H8]; · iexact H8
  isplitl [H9]; · iexact H9
  iexact H10

/-! ## The host lines after the region -/

/-- The seventeen buffers the host lines touch: the three accumulator arrays and the fourteen host buffers. -/
abbrev tailList : List (Ref sig .tc) := [main_v0_0, main_v0_1, main_v0_2, main_cst, main_v1, main_cst_0, main_v2, main_cst_1, main_v3, main_cst_2, main_v4, main_cst_3, main_v5, main_cst_4, main_v6, main_v7, main_v8]
abbrev tailSet : Finset (DevRef τ sig) := (tailList.map (Proc.devRef (τ := τ) .tc)).toFinset

theorem held_tail (c : Dev nD) (W : Valuation τ sig (Elt F)) :
    (StableHlo.held (Ix := Unit) (Name := ℕ) (U := UR sig nD τ) (Lvl := ℕ) (c.tc : Thread nD τ) tailSet W : sProp 𝕄)
      = iprop((((c.tc : Thread nD τ).loc main_v0_0) ↦{fullShare} W (Proc.devRef .tc main_v0_0))
          ∗ (((c.tc : Thread nD τ).loc main_v0_1) ↦{fullShare} W (Proc.devRef .tc main_v0_1))
          ∗ (((c.tc : Thread nD τ).loc main_v0_2) ↦{fullShare} W (Proc.devRef .tc main_v0_2))
          ∗ (((c.tc : Thread nD τ).loc main_cst) ↦{fullShare} W (Proc.devRef .tc main_cst))
          ∗ (((c.tc : Thread nD τ).loc main_v1) ↦{fullShare} W (Proc.devRef .tc main_v1))
          ∗ (((c.tc : Thread nD τ).loc main_cst_0) ↦{fullShare} W (Proc.devRef .tc main_cst_0))
          ∗ (((c.tc : Thread nD τ).loc main_v2) ↦{fullShare} W (Proc.devRef .tc main_v2))
          ∗ (((c.tc : Thread nD τ).loc main_cst_1) ↦{fullShare} W (Proc.devRef .tc main_cst_1))
          ∗ (((c.tc : Thread nD τ).loc main_v3) ↦{fullShare} W (Proc.devRef .tc main_v3))
          ∗ (((c.tc : Thread nD τ).loc main_cst_2) ↦{fullShare} W (Proc.devRef .tc main_cst_2))
          ∗ (((c.tc : Thread nD τ).loc main_v4) ↦{fullShare} W (Proc.devRef .tc main_v4))
          ∗ (((c.tc : Thread nD τ).loc main_cst_3) ↦{fullShare} W (Proc.devRef .tc main_cst_3))
          ∗ (((c.tc : Thread nD τ).loc main_v5) ↦{fullShare} W (Proc.devRef .tc main_v5))
          ∗ (((c.tc : Thread nD τ).loc main_cst_4) ↦{fullShare} W (Proc.devRef .tc main_cst_4))
          ∗ (((c.tc : Thread nD τ).loc main_v6) ↦{fullShare} W (Proc.devRef .tc main_v6))
          ∗ (((c.tc : Thread nD τ).loc main_v7) ↦{fullShare} W (Proc.devRef .tc main_v7))
          ∗ (((c.tc : Thread nD τ).loc main_v8) ↦{fullShare} W (Proc.devRef .tc main_v8))) :=
  BI.bigSep_eq_bigSepL_of_eq (tailList.map (Proc.devRef (τ := τ) .tc)) rfl (by decide) _

theorem tail_sub : ∀ ops ∈ [hostOps1 (F := F)], ∀ op ∈ ops, op.bufs ⊆ tailSet := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl
  all_goals (first | (rw [StableHlo.nullary_bufs]; decide) | (rw [StableHlo.binary_bufs]; decide))

theorem tail_fresh : ∀ ops ∈ [hostOps1 (F := F)], ∀ op ∈ ops, op.fresh = ∅ := by
  intro ops hops op hop
  obtain rfl := List.mem_singleton.mp hops
  simp only [hostOps1, List.mem_cons, List.mem_nil_iff, or_false] at hop
  rcases hop with rfl | rfl | rfl | rfl | rfl | rfl | rfl | rfl | rfl | rfl | rfl | rfl | rfl | rfl
  all_goals rfl

/-- The host lines write none of the accumulator arrays. -/
theorem tail_keeps (b : Ref sig .tc) (hb : b ∈ [main_v0_0, main_v0_1, main_v0_2]) :
    ∀ op ∈ [hostOps1 (F := F)].flatten, Proc.devRef (τ := τ) .tc b ∉ op.writes := by
  intro op hop
  simp only [List.flatten_cons, List.flatten_nil, List.append_nil, hostOps1, List.mem_cons, List.mem_nil_iff, or_false] at hop hb
  rcases hop with rfl | rfl | rfl | rfl | rfl | rfl | rfl | rfl | rfl | rfl | rfl | rfl | rfl | rfl
  all_goals (simp only [StableHlo.nullary_writes, StableHlo.binary_writes, Finset.mem_singleton]; rcases hb with rfl | rfl | rfl <;> exact StableHlo.devRef_ne_of_ne (by decide))

/-- The region's exit contents as a valuation: each window's array at what the write-backs leave, every other buffer
    as launched. -/
def Wout (c : Dev nD) : Valuation τ sig (Elt F) :=
  Pipeline.withArrays spec0 c (V0 m c) fun w => (dats m 0 c).arrAt w cfg0.N

/-- What each buffer holds after the host lines. -/
def Wfin (c : Dev nD) (b : Ref sig .tc) : Buf (Elt F) ((c.tc : Thread nD τ).loc b) :=
  StableHlo.after [hostOps1 (F := F)].flatten (Wout m c) (Proc.devRef .tc b)

theorem Wout_arr (c : Dev nD) (w : Fin 11) (hw : ∀ w' : Fin 11, Pipeline.arrRef spec0 w' = Pipeline.arrRef spec0 w → w' = w) :
    Wout m c (Proc.devRef .tc (Pipeline.arrRef spec0 w)) = (dats m 0 c).arrAt w cfg0.N := by
  unfold Wout Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 11) (e : Proc.devRef .tc (Pipeline.arrRef spec0 w') = Proc.devRef (τ := τ) .tc (Pipeline.arrRef spec0 w)),
      cast (congrArg (fun b' : DevRef τ sig => b'.ty.Contents (Elt F)) e) ((dats m 0 c).arrAt w' cfg0.N) = (dats m 0 c).arrAt w cfg0.N from this _ h.choose_spec
  intro w' e
  obtain rfl : w' = w := hw w' (Proc.devRef_injective _ e)
  rfl

theorem Wout_rest (c : Dev nD) (b : Ref sig .tc) (hb : ∀ w, Pipeline.arrRef spec0 w ≠ b) :
    Wout m c (Proc.devRef .tc b) = V0 m c (Proc.devRef .tc b) :=
  Pipeline.withArrays_of_ne spec0 c (V0 m c) _ b hb

theorem Wout_8 (c : Dev nD) : Wout m c (Proc.devRef .tc main_v0_0) = (dats m 0 c).arrAt 8 cfg0.N := Wout_arr m c 8 (by decide)
theorem Wout_9 (c : Dev nD) : Wout m c (Proc.devRef .tc main_v0_1) = (dats m 0 c).arrAt 9 cfg0.N := Wout_arr m c 9 (by decide)
theorem Wout_10 (c : Dev nD) : Wout m c (Proc.devRef .tc main_v0_2) = (dats m 0 c).arrAt 10 cfg0.N := Wout_arr m c 10 (by decide)

theorem keep_8 (c : Dev nD) : StableHlo.after [hostOps1 (F := F)].flatten (Wout m c) (Proc.devRef .tc main_v0_0) = (dats m 0 c).arrAt 8 cfg0.N :=
  (StableHlo.after_of_forall_not_mem _ _ (tail_keeps main_v0_0 (by decide))).trans (Wout_8 m c)
theorem keep_9 (c : Dev nD) : StableHlo.after [hostOps1 (F := F)].flatten (Wout m c) (Proc.devRef .tc main_v0_1) = (dats m 0 c).arrAt 9 cfg0.N :=
  (StableHlo.after_of_forall_not_mem _ _ (tail_keeps main_v0_1 (by decide))).trans (Wout_9 m c)
theorem keep_10 (c : Dev nD) : StableHlo.after [hostOps1 (F := F)].flatten (Wout m c) (Proc.devRef .tc main_v0_2) = (dats m 0 c).arrAt 10 cfg0.N :=
  (StableHlo.after_of_forall_not_mem _ _ (tail_keeps main_v0_2 (by decide))).trans (Wout_10 m c)

set_option backward.isDefEq.respectTransparency.types false in
set_option maxHeartbeats 1000000 in
/-- The host lines from the region's exit: they run within the three accumulator arrays and the fourteen host
    buffers, write none of the arrays, and leave each host buffer at what they compute. -/
theorem htail (c : Dev nD) (Q' : PUnit → sProp 𝕄) :
    iprop((iprop((dats m 0 c).arrays ((dats m 0 c).arrAt · cfg0.N) ∗ Pipeline.unscopedRest (Ix := Unit) (Name := ℕ) (U := UR sig nD τ) (Lvl := ℕ) spec0 c (Wfin m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c.tc : Thread nD τ) none) Set.univ
          (Pipeline.chain ([hostOps1 (F := F)].map StableHlo.seq)) Q' := by
  unfold Dat.arrays
  rw [bigSep_W0, unscopedRest0_eq, unscopedRest0_eq]
  simp only [pt_whole c main_arg0, pt_whole c main_arg1, pt_whole c main_arg2, pt_whole c main_arg3, pt_whole c main_v0_0, pt_whole c main_v0_1, pt_whole c main_v0_2]
  iintro ⟨Hk, Hbd, ⟨A0, A1, A2, A3, A4, A5, A6, A7, A8, A9, A10⟩, ⟨R0, R1, R2, R3, R4, R5, R6, R7, R8, R9, R10, R11, R12, R13⟩⟩
  have hseq := Pipeline.wp_seqs_then (Ix := Unit) (Name := ℕ) (U := UR sig nD τ) (Lvl := ℕ) (fun q => (cfgs q).toPCfg (Val := Elt F)) defs₀ Variants.none c tailSet [] (K := Q')
    [hostOps1 (F := F)] tail_sub tail_fresh (Wout m c)
  rw [List.append_nil, held_tail, held_tail] at hseq
  rw [Wout_8 m c, Wout_9 m c, Wout_10 m c, keep_8 m c, keep_9 m c, keep_10 m c] at hseq
  simp only [Wout_8, Wout_rest m c main_cst (by decide), Wout_rest m c main_v1 (by decide), Wout_rest m c main_cst_0 (by decide), Wout_rest m c main_v2 (by decide), Wout_rest m c main_cst_1 (by decide), Wout_rest m c main_v3 (by decide), Wout_rest m c main_cst_2 (by decide), Wout_rest m c main_v4 (by decide), Wout_rest m c main_cst_3 (by decide), Wout_rest m c main_v5 (by decide), Wout_rest m c main_cst_4 (by decide), Wout_rest m c main_v6 (by decide), Wout_rest m c main_v7 (by decide), Wout_rest m c main_v8 (by decide)] at hseq
  iapply hseq $$ [Hbd A8 A9 A10 R0 R1 R2 R3 R4 R5 R6 R7 R8 R9 R10 R11 R12 R13]
  · isplitl [Hbd]; · iexact Hbd
    isplitl [A8]; · iexact A8
    isplitl [A9]; · iexact A9
    isplitl [A10]; · iexact A10
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    iexact R13
  iintro ⟨Hbd, A8, A9, A10, R0, R1, R2, R3, R4, R5, R6, R7, R8, R9, R10, R11, R12, R13⟩
  rw [Pipeline.chain_nil, wp_pure]
  imodintro
  iapply Hk
  isplitl [A0 A1 A2 A3 A4 A5 A6 A7 A8 A9 A10]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-! ## The run -/

/-- The unscoped buffers that are no window's array. -/
abbrev restSet : Finset (Ref sig .tc) := (Finset.univ.filter fun b : Ref sig .tc => ¬ b.isScoped) \ Finset.univ.image (Pipeline.arrRef spec0)

/-- The run's post: each window's array at what the write-backs leave, each other unscoped buffer at what the host
    lines compute from the region's exit contents. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ restSet, r.2.mem ((c.tc : Thread nD τ).loc b) = Wfin m c b

set_option backward.isDefEq.respectTransparency.types false in
set_option maxHeartbeats 1000000 in
theorem run_main : θ_run (defs (F := F)) (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wfin m c))
    (hX := fun c => by
      rw [Pipeline.unscopedRestP_none]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ restSet, s.mem ((c.tc : Thread nD τ).loc b) = Wfin m c b)
    (hY := fun c s' => by
      iintro ⟨-, HU, HSI⟩
      unfold Pipeline.unscopedRest
      imodintro
      iapply (pointsTo_read_all restSet (fun b => (c.tc : Thread nD τ).loc b) (Wfin m c) s')
      isplitl [HU] <;> iassumption)
    (hQ := fun s h c => ⟨(h c).1, (h c).2.2⟩)

/-! ## The frame -/

/-- The argument arrays end unchanged: each is the array of an input window, which no write-back touches. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).1 5).trans (((dats m 0 c).arrAt_in 5 rfl _).trans (A_eq m c 5))⟩) (run_main m ρ)

end Cert.KernelIdeal.Hand

end
-- ==== Proof.KI.Results.lean ====
/-
  What the host lines after the region compute: each of the three losses is the total of one accumulator array
  divided by the number of summed elements, and the fourth result is their sum.
-/
import proofs.«130660_j5119601017343_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One loss: an accumulator array's total divided by the element count. -/
def lossOf (X : FVec F S4x1x1 .f32) : FVec F S_ .f32 :=
  Host.divf (Host.reduceAdd X (constant S_ .f32 0x00000000#32) Facts₀.reducesTo_S4x1x1_S_d0_1_2 Facts₀.h_S_) (constant S_ .f32 0x4AA00000#32)

theorem tail_v2 (W : Valuation τ sig (Elt F)) :
    StableHlo.after [hostOps1 (F := F)].flatten W (Proc.devRef .tc main_v2) = lossOf (W (Proc.devRef .tc main_v0_0)) := by
  unfold lossOf
  simp only [List.flatten_cons, List.flatten_nil, List.append_nil, hostOps1]
  after_results

theorem tail_v4 (W : Valuation τ sig (Elt F)) :
    StableHlo.after [hostOps1 (F := F)].flatten W (Proc.devRef .tc main_v4) = lossOf (W (Proc.devRef .tc main_v0_1)) := by
  unfold lossOf
  simp only [List.flatten_cons, List.flatten_nil, List.append_nil, hostOps1]
  after_results

theorem tail_v6 (W : Valuation τ sig (Elt F)) :
    StableHlo.after [hostOps1 (F := F)].flatten W (Proc.devRef .tc main_v6) = lossOf (W (Proc.devRef .tc main_v0_2)) := by
  unfold lossOf
  simp only [List.flatten_cons, List.flatten_nil, List.append_nil, hostOps1]
  after_results

theorem tail_v8 (W : Valuation τ sig (Elt F)) :
    StableHlo.after [hostOps1 (F := F)].flatten W (Proc.devRef .tc main_v8)
      = addf (addf (lossOf (W (Proc.devRef .tc main_v0_0))) (lossOf (W (Proc.devRef .tc main_v0_1)))) (lossOf (W (Proc.devRef .tc main_v0_2))) := by
  unfold lossOf
  simp only [List.flatten_cons, List.flatten_nil, List.append_nil, hostOps1]
  after_results

/-- The four results and the unchanged arguments after the run, the losses as functions of the accumulator arrays at
    what the write-backs leave. -/
theorem run_results : θ_run (defs (F := F)) (onTc (τ := τ) (main (F := F))) ⟨m, fun _ => 0, ρ⟩ (fun r => ∀ c : Dev nD,
      r.2.mem ((c.tc : Thread nD τ).loc main_v8) = addf (addf (lossOf ((dats m 0 c).arrAt 8 cfg0.N)) (lossOf ((dats m 0 c).arrAt 9 cfg0.N))) (lossOf ((dats m 0 c).arrAt 10 cfg0.N))
      ∧ r.2.mem ((c.tc : Thread nD τ).loc main_v2) = lossOf ((dats m 0 c).arrAt 8 cfg0.N)
      ∧ r.2.mem ((c.tc : Thread nD τ).loc main_v4) = lossOf ((dats m 0 c).arrAt 9 cfg0.N)
      ∧ r.2.mem ((c.tc : Thread nD τ).loc main_v6) = lossOf ((dats m 0 c).arrAt 10 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun _ h c =>
    ⟨((h c).2 main_v8 (by decide)).trans (by unfold Wfin; rw [tail_v8, Wout_8, Wout_9, Wout_10]),
     ((h c).2 main_v2 (by decide)).trans (by unfold Wfin; rw [tail_v2, Wout_8]),
     ((h c).2 main_v4 (by decide)).trans (by unfold Wfin; rw [tail_v4, Wout_9]),
     ((h c).2 main_v6 (by decide)).trans (by unfold Wfin; rw [tail_v6, Wout_10]),
     ((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).1 5).trans (((dats m 0 c).arrAt_in 5 rfl _).trans (A_eq m c 5))⟩) (run_main m ρ)

end Cert.KernelIdeal.Hand

end
-- ==== Proof.KV.Pieces.lean ====
/-
  What each case of the body leaves in the three accumulators' staging buffers, read back as values: every
  accumulator is written by one covering store of (old value) + (sum of the squares of a plane), where the old
  value is the running total (carrying case) or the zero just stored (reset case), and the plane is the
  divergence, the residual of the first field, or the residual of the second field, computed from the eight
  input blocks.
-/
import proofs.«130660_j5119601017343_2_alg».proof.Proof.KI.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.Hand

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The residual plane of the first transported field, from the velocity blocks and the field's three frames. -/
def kResC (x0 x1 x2 x3 x4 : Vec F S1x1x256x256 .f32) : FVec F S256x256 .f32 :=
  k0_pay34 (k0_pay7 x0) (k0_pay8 x0) (k0_pay9 x1) (k0_pay10 x1) (k0_pay11 x0 x1) (k0_pay13 x3)
    (k0_pay17 (k0_pay12 x2) x4)
    (k0_pay28 (k0_pay18 x3) (k0_pay20 x3) (k0_pay26 (k0_pay7 x0)) (k0_pay27 x3) (FloatOps.ofBits FTy.f32 1069547520#32))
    (k0_pay29 (k0_pay8 x0) (k0_pay13 x3) (k0_pay18 x3) (k0_pay19 x3) (k0_pay21 x3))
    (k0_pay30 (k0_pay9 x1) (k0_pay13 x3) (k0_pay22 x3) (k0_pay23 x3) (k0_pay24 x3)) (k0_pay31 (k0_pay10 x1))
    (k0_pay32 (k0_pay23 x3) (k0_pay25 x3)) (k0_pay33 (k0_pay13 x3) (k0_pay22 x3))

/-- The second field's time difference plus convection, before diffusion and the divergence correction. -/
def kD46 (x0 x1 x5 x6 x7 : Vec F S1x1x256x256 .f32) : FVec F S256x256 .f32 :=
  k0_pay46 (k0_pay7 x0) (k0_pay8 x0) (k0_pay9 x1) (k0_pay10 x1) (k0_pay15 x6)
    (k0_pay35 (k0_pay14 x5) (k0_pay16 x7)) (k0_pay40 (k0_pay15 x6)) (k0_pay41 (k0_pay15 x6))
    (k0_pay42 (k0_pay15 x6))
    (k0_pay43 (k0_pay7 x0) (k0_pay15 x6) (k0_pay36 (k0_pay15 x6)) (k0_pay37 (k0_pay15 x6)) (k0_pay38 (k0_pay15 x6)))
    (k0_pay44 (k0_pay8 x0) (k0_pay15 x6) (k0_pay36 (k0_pay15 x6)) (k0_pay37 (k0_pay15 x6)) (k0_pay39 (k0_pay15 x6)))
    (k0_pay45 (k0_pay9 x1) (k0_pay15 x6) (k0_pay40 (k0_pay15 x6)))

/-- The third accumulator's new value: the old one plus the squares of the second field's residual. -/
def kAcc10 (x0 x1 x5 x6 x7 : Vec F S1x1x256x256 .f32) (acc : Vec F S1x1x1 .f32) : FVec F S1x1x1 .f32 :=
  k0_pay1 (k0_pay50 (k0_pay11 x0 x1) (k0_pay15 x6) (kD46 x0 x1 x5 x6 x7) (k0_pay47 (k0_pay15 x6)) acc)

theorem out_B_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay48 (k0_pay11 x0 x1) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]

theorem out_B_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay49 (kResC x0 x1 x2 x3 x4) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]
  rfl

theorem out_B_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) (xo8 xo9 xo10 : Vec F S1x1x1 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = kAcc10 x0 x1 x5 x6 x7 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]
  rfl

theorem out_A_8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay48 (k0_pay11 x0 x1) k0_pay2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]

theorem out_A_9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay49 (kResC x0 x1 x2 x3 x4) k0_pay3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]
  rfl

theorem out_A_10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec F S1x1x256x256 .f32) (x1 : Vec F S1x1x256x256 .f32) (x2 : Vec F S1x1x256x256 .f32) (x3 : Vec F S1x1x256x256 .f32) (x4 : Vec F S1x1x256x256 .f32) (x5 : Vec F S1x1x256x256 .f32) (x6 : Vec F S1x1x256x256 .f32) (x7 : Vec F S1x1x256x256 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 = kAcc10 x0 x1 x5 x6 x7 k0_pay4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1x1) hz3, View.ld_unit_zero (S := S1x1x256x256) hz4]
  rfl

end Cert.KernelIdeal.KV
end
-- ==== Proof.PlaneSpec.lean ====
import Idealize.ShloMosaic.PureOps
import Idealize.ShloMosaic.PureOps.Ideal.Laws
import Idealize.ShloMosaic.Lib.ValueIdx
import proofs.«130660_j5119601017343_2_alg».proof.KernelIdeal

/-!
# The per-plane quantities of the stencil

One grid point of the kernel works on 256 x 256 planes: the velocity planes `u`, `v` at an interior time
and three consecutive time frames `f0`, `f1`, `f2` of a transported field. All neighbours are periodic:
`rollX n` and `rollY n` rotate a plane by `n` places along its second and its first axis, so rotating by
`255` reads the neighbour at `+1` and rotating by `1` the neighbour at `-1` (likewise `254` / `2` for the
second neighbours).

* `divPlane u v` is the discrete divergence of the face velocities (the averages of a plane with its
  neighbour), `(uE - uW) / dx + (vN - vS) / dy`.
* `resPlane u v f0 f1 f2` is the residual of the transport equation for one field: the centred time
  difference `(f2 - f0) / (2 dt)`, plus the second-order upwind convective flux difference of `f1`, minus
  the diffusion coefficient times the five-point Laplacian of `f1`, minus `f1` times the divergence.
* `planeSq p` is the sum of the squares of a plane's entries.

Every quantity is spelt with the vector operations, the float words and the operation order of the
kernel's body, at the extended-real instance.
-/

noncomputable section

namespace Cert.RefPlanes

open Idealize.ShloMosaic Idealize.ShloMosaic.ValueIdx Cert.KernelIdeal

variable [Cert.KernelIdeal.Facts]
open Cert.KernelIdeal.Facts₀ Cert.KernelIdeal.Facts

/-- A 256 x 256 plane of extended reals. -/
abbrev Plane : Type := FVec Ideal S256x256 .f32

/-- The plane of batch `b` and time frame `s` of a `[4, 22, 256, 256]` array. -/
def argPlane (A : FVec Ideal S4x22x256x256 .f32) (b : Fin 4) (s : Fin 22) : Plane :=
  fun j => A (ix4 b s (j 0) (j 1))

/-- The constant plane holding one float word. -/
abbrev cst (w : BitVec 32) : Plane := broadcast S256x256 (Scalar.ofBits .f32 w)

/-- Periodic rotation by `n` places along the second axis (within rows). -/
abbrev rollX (n : BitVec 32) (x : Plane) : Plane := dynamicRotate 1 n none x rotates_S256x256_d1

/-- Periodic rotation by `n` places along the first axis (within columns). -/
abbrev rollY (n : BitVec 32) (x : Plane) : Plane := dynamicRotate 0 n none x rotates_S256x256_d0

/-- East face velocity `(u + u[+1]) / 2`. -/
def faceE (u : Plane) : Plane := mulf (cst 0x3F000000#32) (addf u (rollX 255#32 u))
/-- West face velocity `(u + u[-1]) / 2`. -/
def faceW (u : Plane) : Plane := mulf (cst 0x3F000000#32) (addf u (rollX 1#32 u))
/-- North face velocity `(v + v[+1]) / 2`. -/
def faceN (v : Plane) : Plane := mulf (cst 0x3F000000#32) (addf v (rollY 255#32 v))
/-- South face velocity `(v + v[-1]) / 2`. -/
def faceS (v : Plane) : Plane := mulf (cst 0x3F000000#32) (addf v (rollY 1#32 v))

/-- The divergence `(uE - uW) / dx + (vN - vS) / dy` with `dx = dy = 10 / 256`. -/
def divPlane (u v : Plane) : Plane :=
  addf (divf (subf (faceE u) (faceW u)) (cst 0x3D200000#32))
       (divf (subf (faceN v) (faceS v)) (cst 0x3D200000#32))

/-- The second-order upwind extrapolation `1.5 a - 0.5 b`. -/
def extrap (a b : Plane) : Plane := subf (mulf (cst 0x3FC00000#32) a) (mulf (cst 0x3F000000#32) b)

/-- The upwind value of `f` on the east face: from the west side when the face velocity is non-negative. -/
def fluxE (u f : Plane) : Plane :=
  select (cmpf .oge (faceE u) (cst 0x00000000#32))
    (extrap f (rollX 1#32 f)) (extrap (rollX 255#32 f) (rollX 254#32 f))
/-- The upwind value of `f` on the west face. -/
def fluxW (u f : Plane) : Plane :=
  select (cmpf .oge (faceW u) (cst 0x00000000#32))
    (extrap (rollX 1#32 f) (rollX 2#32 f)) (extrap f (rollX 255#32 f))
/-- The upwind value of `f` on the north face. -/
def fluxN (v f : Plane) : Plane :=
  select (cmpf .oge (faceN v) (cst 0x00000000#32))
    (extrap f (rollY 1#32 f)) (extrap (rollY 255#32 f) (rollY 254#32 f))
/-- The upwind value of `f` on the south face. -/
def fluxS (v f : Plane) : Plane :=
  select (cmpf .oge (faceS v) (cst 0x00000000#32))
    (extrap (rollY 1#32 f) (rollY 2#32 f)) (extrap f (rollY 255#32 f))

/-- The convective term `(uE fE - uW fW) / dx + (vN fN - vS fS) / dy`. -/
def upwind (u v f : Plane) : Plane :=
  addf (divf (subf (mulf (faceE u) (fluxE u f)) (mulf (faceW u) (fluxW u f))) (cst 0x3D200000#32))
       (divf (subf (mulf (faceN v) (fluxN v f)) (mulf (faceS v) (fluxS v f))) (cst 0x3D200000#32))

/-- The five-point Laplacian `(f[+1] - 2 f + f[-1]) / dx² ` along both axes. -/
def lap (f : Plane) : Plane :=
  addf (divf (addf (subf (rollX 255#32 f) (mulf (cst 0x40000000#32) f)) (rollX 1#32 f)) (cst 0x3AC80000#32))
       (divf (addf (subf (rollY 255#32 f) (mulf (cst 0x40000000#32) f)) (rollY 1#32 f)) (cst 0x3AC80000#32))

/-- The residual `(f2 - f0) / (2 dt) + upwind f1 - 0.05 lap f1 - f1 div`. -/
def resPlane (u v f0 f1 f2 : Plane) : Plane :=
  subf (subf (addf (divf (subf f2 f0) (cst 0x3F000000#32)) (upwind u v f1))
             (mulf (cst 0x3D4CCCCD#32) (lap f1)))
       (mulf f1 (divPlane u v))

/-- The sum of the squares of a plane's entries. -/
def planeSq (p : Plane) : EReal := ∑ r : Fin 256, ∑ c : Fin 256, p (ix2 r c) * p (ix2 r c)

end Cert.RefPlanes

end
-- ==== Proof.KV.SumSq.lean ====
/-
  The two chained lane reductions that sum a 256 x 256 plane of squares, read at the extended reals: the sum
  over the rows of the sums over the columns; and each accumulator's new value as its old value plus the sum of
  the squares of its plane.
-/
import proofs.«130660_j5119601017343_2_alg».proof.Proof.KV.Pieces
import proofs.«130660_j5119601017343_2_alg».proof.Proof.PlaneSpec
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.Hand Cert.RefPlanes
open Idealize.ShloMosaic.ValueIdx

/-- An `[a]` vector cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a, b]` block cast to a plane `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- The one index of a one-element block. -/
theorem idx111 (j : S1x1x1.Idx) : j = ix3 (0 : Fin 1) (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- Summing the squares of a plane along the rows' lanes, then down the column of row sums, is the sum of the
    squares of all its entries. -/
theorem sumAll_eq (p : Plane) :
    shapeCast S1x1 (multiReduction (F := Ideal) .add [0] S1
      (shapeCast S256x1 (multiReduction (F := Ideal) .add [1] S256 (mulf p p) 0x00000000#32 reduces_S256x256_S256 (.inl rfl) rfl)
        shapeCasts_S256_S256x1) 0x00000000#32 reduces_S256x1_S1 (.inl rfl) rfl) shapeCasts_S1_S1x1
      (ix2 (0 : Fin 1) (0 : Fin 1)) = planeSq p := by
  refine (shapeCast_a_1a_apply _ shapeCasts_S1_S1x1 0 0).trans ?_
  refine (Ideal.multiReduction_add_single _ _ reduces_S256x1_S1 (.inl rfl) rfl (ix1 0)).trans ?_
  unfold planeSq
  refine Finset.sum_congr rfl fun r _ => ?_
  refine (shapeCast_a_a1_apply _ shapeCasts_S256_S256x1 r 0).trans ?_
  refine (Ideal.multiReduction_add_single _ _ reduces_S256x256_S256 (.inl rfl) rfl (ix1 r)).trans ?_
  refine Finset.sum_congr rfl fun c _ => ?_
  have hl : reduces_S256x256_S256.lift (ix1 r) c = ix2 r c := by
    funext a
    apply Fin.ext
    match a with
    | ⟨0, _⟩ => rfl
    | ⟨1, _⟩ => rfl
  rw [hl]
  rfl

/-- The first accumulator's new value: the old one plus the sum of the squares of the plane. -/
theorem pay48_eq (p : Plane) (acc : Vec Ideal S1x1x1 .f32) :
    k0_pay48 (F := Ideal) p acc = fun _ => acc (ix3 (0 : Fin 1) (0 : Fin 1) (0 : Fin 1)) + planeSq p := by
  funext j
  rw [idx111 j]
  unfold k0_pay48
  refine (shapeCast_ab_1ab_apply _ shapeCasts_S1x1_S1x1x1 0 0 0).trans ?_
  exact congrArg₂ (· + ·) (shapeCast_1ab_ab_apply acc shapeCasts_S1x1x1_S1x1 0 0) (sumAll_eq p)

/-- The second accumulator's new value, likewise. -/
theorem pay49_eq (p : Plane) (acc : Vec Ideal S1x1x1 .f32) :
    k0_pay49 (F := Ideal) p acc = fun _ => acc (ix3 (0 : Fin 1) (0 : Fin 1) (0 : Fin 1)) + planeSq p := by
  funext j
  rw [idx111 j]
  unfold k0_pay49
  refine (shapeCast_ab_1ab_apply _ shapeCasts_S1x1_S1x1x1 0 0 0).trans ?_
  exact congrArg₂ (· + ·) (shapeCast_1ab_ab_apply acc shapeCasts_S1x1x1_S1x1 0 0) (sumAll_eq p)

/-- The third accumulator's new value: its plane is the second field's residual, assembled in the same payload. -/
theorem pay50_eq (v29 v39 v213 v232 : Plane) (acc : Vec Ideal S1x1x1 .f32) :
    k0_pay1 (F := Ideal) (k0_pay50 v29 v39 v213 v232 acc)
      = fun _ => acc (ix3 (0 : Fin 1) (0 : Fin 1) (0 : Fin 1)) + planeSq (subf (subf v213 v232) (mulf v39 v29)) := by
  funext j
  rw [idx111 j]
  unfold k0_pay1 k0_pay50
  refine (shapeCast_ab_1ab_apply _ shapeCasts_S1x1_S1x1x1 0 0 0).trans ?_
  exact congrArg₂ (· + ·) (shapeCast_1ab_ab_apply acc shapeCasts_S1x1x1_S1x1 0 0) (sumAll_eq _)

end Cert.KernelIdeal.KV
end
-- ==== Proof.KV.Planes.lean ====
/-
  The planes the body works on, named: the divergence and the two residuals the body computes from its eight
  staged blocks are the per-plane quantities of the stencil at the blocks read as planes (the body's arithmetic
  unfolds to them), and each window's block at a grid point is the plane of its array at the point's batch
  entry and time frame.
-/
import proofs.«130660_j5119601017343_2_alg».proof.Proof.KV.SumSq

set_option maxRecDepth 16384

noncomputable section

open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.Hand Cert.RefPlanes
open Idealize.ShloMosaic.ValueIdx

/-- A staged block read as a plane. -/
abbrev pl (x : Vec Ideal S1x1x256x256 .f32) : Plane := shapeCast S256x256 x shapeCasts_S1x1x256x256_S256x256

/-- The divergence the body computes is the divergence of the two velocity planes. -/
theorem div_eq (x0 x1 : Vec Ideal S1x1x256x256 .f32) : k0_pay11 (F := Ideal) x0 x1 = divPlane (pl x0) (pl x1) := rfl

/-- The first field's residual as the body computes it. -/
theorem resC_eq (x0 x1 x2 x3 x4 : Vec Ideal S1x1x256x256 .f32) :
    kResC (F := Ideal) x0 x1 x2 x3 x4 = resPlane (pl x0) (pl x1) (pl x2) (pl x3) (pl x4) := rfl

/-- The second field's residual as the body computes it. -/
theorem resD_eq (x0 x1 x5 x6 x7 : Vec Ideal S1x1x256x256 .f32) :
    subf (subf (kD46 (F := Ideal) x0 x1 x5 x6 x7) (k0_pay47 (k0_pay15 x6))) (mulf (k0_pay15 x6) (k0_pay11 x0 x1))
      = resPlane (pl x0) (pl x1) (pl x5) (pl x6) (pl x7) := rfl

variable (m : (ℓ : Loc nD τ sig) → Buf (Elt Ideal) ℓ)

/-- The batch entry of a grid point: twenty consecutive points per entry. -/
def bt (t : Fin cfg0.N) : Fin 4 := ⟨t.val / 20, by have := t.isLt; have hN : cfg0.N = 80 := N_0; omega⟩

theorem idx0 : ∀ t : Fin grid0.N, win0_0.index t 0 = t.val / 20 ∧ win0_0.index t 1 = t.val % 20 + 1 ∧ win0_0.index t 2 = 0 ∧ win0_0.index t 3 = 0 := by decide +kernel

/-- Window 0's block at a point, as a plane, is the plane of its array at the point's batch entry and time frame plus 1. -/
theorem pl_iblk0 (c : Dev nD) (t : Fin cfg0.N) :
    pl (iblk m c 0 t) = argPlane (V m c main_arg0) (bt t) ⟨t.val % 20 + 1, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg0 _ = V m c main_arg0 _
  obtain ⟨h0, h1, h2, h3⟩ := idx0 t
  congr 1
  funext a
  apply Fin.ext
  match a with
  | ⟨0, _⟩ => show win0_0.index t 0 * 1 + 1 * 0 = t.val / 20; rw [h0]; omega
  | ⟨1, _⟩ => show win0_0.index t 1 * 1 + 1 * 0 = t.val % 20 + 1; rw [h1]; omega
  | ⟨2, _⟩ => show win0_0.index t 2 * 256 + 1 * r.val = r.val; rw [h2]; omega
  | ⟨3, _⟩ => show win0_0.index t 3 * 256 + 1 * q.val = q.val; rw [h3]; omega

theorem idx1 : ∀ t : Fin grid0.N, win0_1.index t 0 = t.val / 20 ∧ win0_1.index t 1 = t.val % 20 + 1 ∧ win0_1.index t 2 = 0 ∧ win0_1.index t 3 = 0 := by decide +kernel

/-- Window 1's block at a point, as a plane, is the plane of its array at the point's batch entry and time frame plus 1. -/
theorem pl_iblk1 (c : Dev nD) (t : Fin cfg0.N) :
    pl (iblk m c 1 t) = argPlane (V m c main_arg1) (bt t) ⟨t.val % 20 + 1, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg1 _ = V m c main_arg1 _
  obtain ⟨h0, h1, h2, h3⟩ := idx1 t
  congr 1
  funext a
  apply Fin.ext
  match a with
  | ⟨0, _⟩ => show win0_1.index t 0 * 1 + 1 * 0 = t.val / 20; rw [h0]; omega
  | ⟨1, _⟩ => show win0_1.index t 1 * 1 + 1 * 0 = t.val % 20 + 1; rw [h1]; omega
  | ⟨2, _⟩ => show win0_1.index t 2 * 256 + 1 * r.val = r.val; rw [h2]; omega
  | ⟨3, _⟩ => show win0_1.index t 3 * 256 + 1 * q.val = q.val; rw [h3]; omega

theorem idx2 : ∀ t : Fin grid0.N, win0_2.index t 0 = t.val / 20 ∧ win0_2.index t 1 = t.val % 20 + 0 ∧ win0_2.index t 2 = 0 ∧ win0_2.index t 3 = 0 := by decide +kernel

/-- Window 2's block at a point, as a plane, is the plane of its array at the point's batch entry and time frame . -/
theorem pl_iblk2 (c : Dev nD) (t : Fin cfg0.N) :
    pl (iblk m c 2 t) = argPlane (V m c main_arg2) (bt t) ⟨t.val % 20 + 0, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg2 _ = V m c main_arg2 _
  obtain ⟨h0, h1, h2, h3⟩ := idx2 t
  congr 1
  funext a
  apply Fin.ext
  match a with
  | ⟨0, _⟩ => show win0_2.index t 0 * 1 + 1 * 0 = t.val / 20; rw [h0]; omega
  | ⟨1, _⟩ => show win0_2.index t 1 * 1 + 1 * 0 = t.val % 20 + 0; rw [h1]; omega
  | ⟨2, _⟩ => show win0_2.index t 2 * 256 + 1 * r.val = r.val; rw [h2]; omega
  | ⟨3, _⟩ => show win0_2.index t 3 * 256 + 1 * q.val = q.val; rw [h3]; omega

theorem idx3 : ∀ t : Fin grid0.N, win0_3.index t 0 = t.val / 20 ∧ win0_3.index t 1 = t.val % 20 + 1 ∧ win0_3.index t 2 = 0 ∧ win0_3.index t 3 = 0 := by decide +kernel

/-- Window 3's block at a point, as a plane, is the plane of its array at the point's batch entry and time frame plus 1. -/
theorem pl_iblk3 (c : Dev nD) (t : Fin cfg0.N) :
    pl (iblk m c 3 t) = argPlane (V m c main_arg2) (bt t) ⟨t.val % 20 + 1, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg2 _ = V m c main_arg2 _
  obtain ⟨h0, h1, h2, h3⟩ := idx3 t
  congr 1
  funext a
  apply Fin.ext
  match a with
  | ⟨0, _⟩ => show win0_3.index t 0 * 1 + 1 * 0 = t.val / 20; rw [h0]; omega
  | ⟨1, _⟩ => show win0_3.index t 1 * 1 + 1 * 0 = t.val % 20 + 1; rw [h1]; omega
  | ⟨2, _⟩ => show win0_3.index t 2 * 256 + 1 * r.val = r.val; rw [h2]; omega
  | ⟨3, _⟩ => show win0_3.index t 3 * 256 + 1 * q.val = q.val; rw [h3]; omega

theorem idx4 : ∀ t : Fin grid0.N, win0_4.index t 0 = t.val / 20 ∧ win0_4.index t 1 = t.val % 20 + 2 ∧ win0_4.index t 2 = 0 ∧ win0_4.index t 3 = 0 := by decide +kernel

/-- Window 4's block at a point, as a plane, is the plane of its array at the point's batch entry and time frame plus 2. -/
theorem pl_iblk4 (c : Dev nD) (t : Fin cfg0.N) :
    pl (iblk m c 4 t) = argPlane (V m c main_arg2) (bt t) ⟨t.val % 20 + 2, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg2 _ = V m c main_arg2 _
  obtain ⟨h0, h1, h2, h3⟩ := idx4 t
  congr 1
  funext a
  apply Fin.ext
  match a with
  | ⟨0, _⟩ => show win0_4.index t 0 * 1 + 1 * 0 = t.val / 20; rw [h0]; omega
  | ⟨1, _⟩ => show win0_4.index t 1 * 1 + 1 * 0 = t.val % 20 + 2; rw [h1]; omega
  | ⟨2, _⟩ => show win0_4.index t 2 * 256 + 1 * r.val = r.val; rw [h2]; omega
  | ⟨3, _⟩ => show win0_4.index t 3 * 256 + 1 * q.val = q.val; rw [h3]; omega

theorem idx5 : ∀ t : Fin grid0.N, win0_5.index t 0 = t.val / 20 ∧ win0_5.index t 1 = t.val % 20 + 0 ∧ win0_5.index t 2 = 0 ∧ win0_5.index t 3 = 0 := by decide +kernel

/-- Window 5's block at a point, as a plane, is the plane of its array at the point's batch entry and time frame . -/
theorem pl_iblk5 (c : Dev nD) (t : Fin cfg0.N) :
    pl (iblk m c 5 t) = argPlane (V m c main_arg3) (bt t) ⟨t.val % 20 + 0, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg3 _ = V m c main_arg3 _
  obtain ⟨h0, h1, h2, h3⟩ := idx5 t
  congr 1
  funext a
  apply Fin.ext
  match a with
  | ⟨0, _⟩ => show win0_5.index t 0 * 1 + 1 * 0 = t.val / 20; rw [h0]; omega
  | ⟨1, _⟩ => show win0_5.index t 1 * 1 + 1 * 0 = t.val % 20 + 0; rw [h1]; omega
  | ⟨2, _⟩ => show win0_5.index t 2 * 256 + 1 * r.val = r.val; rw [h2]; omega
  | ⟨3, _⟩ => show win0_5.index t 3 * 256 + 1 * q.val = q.val; rw [h3]; omega

theorem idx6 : ∀ t : Fin grid0.N, win0_6.index t 0 = t.val / 20 ∧ win0_6.index t 1 = t.val % 20 + 1 ∧ win0_6.index t 2 = 0 ∧ win0_6.index t 3 = 0 := by decide +kernel

/-- Window 6's block at a point, as a plane, is the plane of its array at the point's batch entry and time frame plus 1. -/
theorem pl_iblk6 (c : Dev nD) (t : Fin cfg0.N) :
    pl (iblk m c 6 t) = argPlane (V m c main_arg3) (bt t) ⟨t.val % 20 + 1, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg3 _ = V m c main_arg3 _
  obtain ⟨h0, h1, h2, h3⟩ := idx6 t
  congr 1
  funext a
  apply Fin.ext
  match a with
  | ⟨0, _⟩ => show win0_6.index t 0 * 1 + 1 * 0 = t.val / 20; rw [h0]; omega
  | ⟨1, _⟩ => show win0_6.index t 1 * 1 + 1 * 0 = t.val % 20 + 1; rw [h1]; omega
  | ⟨2, _⟩ => show win0_6.index t 2 * 256 + 1 * r.val = r.val; rw [h2]; omega
  | ⟨3, _⟩ => show win0_6.index t 3 * 256 + 1 * q.val = q.val; rw [h3]; omega

theorem idx7 : ∀ t : Fin grid0.N, win0_7.index t 0 = t.val / 20 ∧ win0_7.index t 1 = t.val % 20 + 2 ∧ win0_7.index t 2 = 0 ∧ win0_7.index t 3 = 0 := by decide +kernel

/-- Window 7's block at a point, as a plane, is the plane of its array at the point's batch entry and time frame plus 2. -/
theorem pl_iblk7 (c : Dev nD) (t : Fin cfg0.N) :
    pl (iblk m c 7 t) = argPlane (V m c main_arg3) (bt t) ⟨t.val % 20 + 2, by omega⟩ := by
  funext j
  obtain ⟨r, q, rfl⟩ : ∃ (r : Fin 256) (q : Fin 256), j = ix2 r q := ⟨j 0, j 1, eq_ix2 j⟩
  unfold argPlane
  refine (shapeCast_11ab_ab_apply _ shapeCasts_S1x1x256x256_S256x256 r q).trans ?_
  unfold iblk
  rw [View.read_apply]
  show V m c main_arg3 _ = V m c main_arg3 _
  obtain ⟨h0, h1, h2, h3⟩ := idx7 t
  congr 1
  funext a
  apply Fin.ext
  match a with
  | ⟨0, _⟩ => show win0_7.index t 0 * 1 + 1 * 0 = t.val / 20; rw [h0]; omega
  | ⟨1, _⟩ => show win0_7.index t 1 * 1 + 1 * 0 = t.val % 20 + 2; rw [h1]; omega
  | ⟨2, _⟩ => show win0_7.index t 2 * 256 + 1 * r.val = r.val; rw [h2]; omega
  | ⟨3, _⟩ => show win0_7.index t 3 * 256 + 1 * q.val = q.val; rw [h3]; omega

end Cert.KernelIdeal.KV
end
-- ==== Proof.KV.Steps.lean ====
/-
  What the three accumulators hold after every grid point: at the first time step of a batch entry zero plus the
  point's sum of squares, at a later one the previous total plus the point's sum of squares; hence, by induction
  on the point, zero plus the sum over the time steps of the entry so far.
-/
import proofs.«130660_j5119601017343_2_alg».proof.Proof.KV.Planes

set_option maxRecDepth 16384

noncomputable section

open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.Hand Cert.RefPlanes
open Idealize.ShloMosaic.ValueIdx

/-- The one index of a one-element block. -/
abbrev z3 : S1x1x1.Idx := ix3 (0 : Fin 1) (0 : Fin 1) (0 : Fin 1)

theorem zero2 : (k0_pay2 (F := Ideal)) z3 = 0 := by
  unfold k0_pay2
  refine (shapeCast_ab_1ab_apply _ shapeCasts_S1x1_S1x1x1 0 0 0).trans ?_
  exact Ideal.ofBits_zero_f32

theorem zero3 : (k0_pay3 (F := Ideal)) z3 = 0 := by
  unfold k0_pay3
  refine (shapeCast_ab_1ab_apply _ shapeCasts_S1x1_S1x1x1 0 0 0).trans ?_
  exact Ideal.ofBits_zero_f32

theorem zero4 : (k0_pay4 (F := Ideal)) z3 = 0 := by
  unfold k0_pay4
  refine (shapeCast_ab_1ab_apply _ shapeCasts_S1x1_S1x1x1 0 0 0).trans ?_
  exact Ideal.ofBits_zero_f32

/-! ## Each case's value -/

theorem valA8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = fun _ => (0 : EReal) + planeSq (divPlane (pl x0) (pl x1)) := by
  rw [out_A_8, pay48_eq, div_eq, zero2]

theorem valB8 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) (xo8 xo9 xo10 : Vec Ideal S1x1x1 .f32) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = fun _ => xo8 z3 + planeSq (divPlane (pl x0) (pl x1)) := by
  rw [out_B_8, pay48_eq, div_eq]

theorem valA9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = fun _ => (0 : EReal) + planeSq (resPlane (pl x0) (pl x1) (pl x2) (pl x3) (pl x4)) := by
  rw [out_A_9, pay49_eq, resC_eq, zero3]

theorem valB9 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) (xo8 xo9 xo10 : Vec Ideal S1x1x1 .f32) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = fun _ => xo9 z3 + planeSq (resPlane (pl x0) (pl x1) (pl x2) (pl x3) (pl x4)) := by
  rw [out_B_9, pay49_eq, resC_eq]

theorem valA10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) :
    out0_A_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 = fun _ => (0 : EReal) + planeSq (resPlane (pl x0) (pl x1) (pl x5) (pl x6) (pl x7)) := by
  rw [out_A_10]; unfold kAcc10; rw [pay50_eq, resD_eq, zero4]

theorem valB10 (c : Dev nD) (i : grid0.Coords) (arg2 : Memref sig .tc .vmem S1x1x256x256 .f32) (harg2 : arg2.IsWhole) (arg3 : Memref sig .tc .vmem S1x1x256x256 .f32) (harg3 : arg3.IsWhole) (arg4 : Memref sig .tc .vmem S1x1x256x256 .f32) (harg4 : arg4.IsWhole) (arg5 : Memref sig .tc .vmem S1x1x256x256 .f32) (harg5 : arg5.IsWhole) (arg6 : Memref sig .tc .vmem S1x1x256x256 .f32) (harg6 : arg6.IsWhole) (arg7 : Memref sig .tc .vmem S1x1x256x256 .f32) (harg7 : arg7.IsWhole) (arg8 : Memref sig .tc .vmem S1x1x256x256 .f32) (harg8 : arg8.IsWhole) (arg9 : Memref sig .tc .vmem S1x1x256x256 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (hc0 : ¬cond0_0 i) (x0 : Vec Ideal S1x1x256x256 .f32) (x1 : Vec Ideal S1x1x256x256 .f32) (x2 : Vec Ideal S1x1x256x256 .f32) (x3 : Vec Ideal S1x1x256x256 .f32) (x4 : Vec Ideal S1x1x256x256 .f32) (x5 : Vec Ideal S1x1x256x256 .f32) (x6 : Vec Ideal S1x1x256x256 .f32) (x7 : Vec Ideal S1x1x256x256 .f32) (xo8 xo9 xo10 : Vec Ideal S1x1x1 .f32) :
    out0_B_10 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = fun _ => xo10 z3 + planeSq (resPlane (pl x0) (pl x1) (pl x5) (pl x6) (pl x7)) := by
  rw [out_B_10]; unfold kAcc10; rw [pay50_eq, resD_eq]

/-! ## One grid point -/

variable (m : (ℓ : Loc nD τ sig) → Buf (Elt Ideal) ℓ)

/-- A point's sum of the squares of the divergence. -/
def d8 (c : Dev nD) (t : Fin cfg0.N) : EReal := planeSq (divPlane (pl (iblk m c 0 t)) (pl (iblk m c 1 t)))
/-- A point's sum of the squares of the first field's residual. -/
def d9 (c : Dev nD) (t : Fin cfg0.N) : EReal := planeSq (resPlane (pl (iblk m c 0 t)) (pl (iblk m c 1 t)) (pl (iblk m c 2 t)) (pl (iblk m c 3 t)) (pl (iblk m c 4 t)))
/-- A point's sum of the squares of the second field's residual. -/
def d10 (c : Dev nD) (t : Fin cfg0.N) : EReal := planeSq (resPlane (pl (iblk m c 0 t)) (pl (iblk m c 1 t)) (pl (iblk m c 5 t)) (pl (iblk m c 6 t)) (pl (iblk m c 7 t)))

/-- At the first time step of a batch entry the accumulators hold zero plus the point's sums. -/
theorem stepA (c : Dev nD) (t : Fin cfg0.N) (h0 : t.val % 20 = 0) :
    outsAt0 m c t.val t.isLt = (fun _ => 0 + d8 m c t, fun _ => 0 + d9 m c t, fun _ => 0 + d10 m c t) :=
  (outsAt0_A m c t h0).trans (congrArg₂ Prod.mk
    (valA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t))
    (congrArg₂ Prod.mk
      (valA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t))
      (valA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t))))

/-- At a later time step they hold what the point before left plus the point's sums. -/
theorem stepB (c : Dev nD) (t : Fin cfg0.N) (h0 : ¬t.val % 20 = 0) :
    outsAt0 m c t.val t.isLt
      = (fun _ => (outsAt0 m c (t.val - 1) (Nat.lt_of_le_of_lt (Nat.sub_le _ _) t.isLt)).1 z3 + d8 m c t,
         fun _ => (outsAt0 m c (t.val - 1) (Nat.lt_of_le_of_lt (Nat.sub_le _ _) t.isLt)).2.1 z3 + d9 m c t,
         fun _ => (outsAt0 m c (t.val - 1) (Nat.lt_of_le_of_lt (Nat.sub_le _ _) t.isLt)).2.2 z3 + d10 m c t) :=
  (outsAt0_B m c t h0).trans (congrArg₂ Prod.mk
    (valB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
    (congrArg₂ Prod.mk
      (valB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)
      (valB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2)))

end Cert.KernelIdeal.KV
end
-- ==== Proof.KV.Total.lean ====
/-
  The running totals in closed form, and the three result arrays: after the last time step of a batch entry each
  accumulator holds zero plus the sum over the entry's twenty time steps of the sum of the squares of its plane,
  and that one element is written back to the entry's position of the result array.
-/
import proofs.«130660_j5119601017343_2_alg».proof.Proof.KV.Steps

set_option maxRecDepth 16384

noncomputable section

open Idealize.ShloMosaic Idealize.ShloMosaic.TcCoe Idealize.SL.Sem
open Idealize.ShloMosaic.Pipeline (Dat)

namespace Cert.KernelIdeal.KV
open Cert.KernelIdeal Cert.KernelIdeal.Gen Cert.KernelIdeal.Hand Cert.RefPlanes
open Idealize.ShloMosaic.ValueIdx

/-- The running total of a per-point quantity within the current batch entry: restarted from zero at the first of
    every twenty consecutive points. -/
def run (d : ℕ → EReal) : ℕ → EReal
  | 0 => 0 + d 0
  | n + 1 => if (n + 1) % 20 = 0 then 0 + d (n + 1) else run d n + d (n + 1)

/-- It is zero plus the sum over the points of the entry so far. -/
theorem run_eq (d : ℕ → EReal) : ∀ n, run d n = 0 + ∑ k ∈ Finset.range (n % 20 + 1), d (n - n % 20 + k)
  | 0 => by simp [run]
  | n + 1 => by
    by_cases h0 : (n + 1) % 20 = 0
    · rw [run, if_pos h0, h0]; simp
    · rw [run, if_neg h0, run_eq d n]
      have h1 : (n + 1) % 20 = n % 20 + 1 := by omega
      have h2 : n + 1 - (n % 20 + 1) = n - n % 20 := by omega
      have h3 : n - n % 20 + (n % 20 + 1) = n + 1 := by omega
      rw [h1, h2, Finset.sum_range_succ _ (n % 20 + 1), add_assoc, h3]

/-- After the last time step of an entry: zero plus the sum over its twenty time steps. -/
theorem run_last (d : ℕ → EReal) (n : ℕ) (h : n % 20 = 19) :
    run d n = 0 + ∑ s : Fin 20, d (n - 19 + s.val) := by
  rw [run_eq, h, Finset.sum_range]

variable (m : (ℓ : Loc nD τ sig) → Buf (Elt Ideal) ℓ)

/-- The per-point quantities as functions of the point's position (zero past the grid). -/
def dN8 (c : Dev nD) (n : ℕ) : EReal := if h : n < cfg0.N then d8 m c ⟨n, h⟩ else 0
def dN9 (c : Dev nD) (n : ℕ) : EReal := if h : n < cfg0.N then d9 m c ⟨n, h⟩ else 0
def dN10 (c : Dev nD) (n : ℕ) : EReal := if h : n < cfg0.N then d10 m c ⟨n, h⟩ else 0

/-- After every grid point the three accumulators hold the running totals of the point's batch entry. -/
theorem outsAt_eq (c : Dev nD) : ∀ (n : ℕ) (hn : n < cfg0.N),
    outsAt0 m c n hn = (fun _ => run (dN8 m c) n, fun _ => run (dN9 m c) n, fun _ => run (dN10 m c) n)
  | 0, hn => by
    refine (stepA m c ⟨0, hn⟩ rfl).trans ?_
    simp only [run, dN8, dN9, dN10, dif_pos hn]
  | n + 1, hn => by
    by_cases h0 : (n + 1) % 20 = 0
    · refine (stepA m c ⟨n + 1, hn⟩ h0).trans ?_
      simp only [run, if_pos h0, dN8, dN9, dN10, dif_pos hn]
    · refine (stepB m c ⟨n + 1, hn⟩ h0).trans ?_
      show ((fun _ => (outsAt0 m c n _).1 z3 + _), (fun _ => (outsAt0 m c n _).2.1 z3 + _), (fun _ => (outsAt0 m c n _).2.2 z3 + _)) = _
      rw [outsAt_eq c n (Nat.lt_of_succ_lt hn)]
      simp only [run, if_neg h0, dN8, dN9, dN10, dif_pos hn]

/-- The batch coordinate of an index of a `[4, 1, 1]` array. -/
def bOf (i : S4x1x1.Idx) : Fin 4 := ⟨(i 0).val, (i 0).isLt⟩

/-- The four input arrays as the region finds them. -/
abbrev A0 (c : Dev nD) : FVec Ideal S4x22x256x256 .f32 := V m c main_arg0
abbrev A1 (c : Dev nD) : FVec Ideal S4x22x256x256 .f32 := V m c main_arg1
abbrev A2 (c : Dev nD) : FVec Ideal S4x22x256x256 .f32 := V m c main_arg2
abbrev A3 (c : Dev nD) : FVec Ideal S4x22x256x256 .f32 := V m c main_arg3

/-- The total of accumulator 8 for batch entry `b`. -/
def tot8 (c : Dev nD) (b : Fin 4) : EReal :=
  0 + ∑ t : Fin 20, planeSq (divPlane (argPlane (A0 m c) b ⟨t.val + 1, by have := t.isLt; omega⟩) (argPlane (A1 m c) b ⟨t.val + 1, by have := t.isLt; omega⟩))

theorem dN8_at (c : Dev nD) (t : Fin cfg0.N) (h : t.val % 20 = 19) (s : Fin 20) :
    dN8 m c (t.val - 19 + s.val) = planeSq (divPlane (argPlane (A0 m c) (bt t) ⟨s.val + 1, by have := s.isLt; omega⟩) (argPlane (A1 m c) (bt t) ⟨s.val + 1, by have := s.isLt; omega⟩)) := by
  have hN : cfg0.N = 80 := N_0
  have hs : t.val - 19 + s.val < cfg0.N := by have := s.isLt; have := t.isLt; omega
  have hm : (t.val - 19 + s.val) % 20 = s.val := by have := s.isLt; omega
  have hd : (t.val - 19 + s.val) / 20 = t.val / 20 := by have := s.isLt; omega
  rw [dN8, dif_pos hs]
  unfold d8
  rw [pl_iblk0, pl_iblk1]
  simp only [bt, hm, hd, Nat.add_zero]

theorem run8_last (c : Dev nD) (t : Fin cfg0.N) (h : t.val % 20 = 19) : run (dN8 m c) t.val = tot8 m c (bt t) := by
  rw [run_last _ _ h]
  unfold tot8
  exact congrArg (fun x => 0 + x) (Finset.sum_congr rfl fun s _ => dN8_at m c t h s)

/-- The result array of accumulator 8: at each batch entry its total. -/
def res8 (c : Dev nD) : Buf (Elt Ideal) ((c : Thread nD τ).loc main_v0_0) := fun i => tot8 m c (bOf i)

theorem idxo8 : ∀ t : Fin grid0.N, win0_8.index t 0 = t.val / 20 ∧ win0_8.index t 1 = 0 ∧ win0_8.index t 2 = 0 := by decide +kernel
theorem xso8 : ∀ (t : Fin grid0.N) (a : Fin 3), win0_8.xsize (grid0.coords t) a = 1 := by decide +kernel

/-- The write-back after the last time step of an entry writes the entry's total. -/
theorem flushed8 (c : Dev nD) (t : Fin cfg0.N) (hf : (cfg0.win 8).flush t = true) :
    (dats m 0 c).flushed 8 t = ((cfg0.win 8).blk t).view.read (Elt Ideal) (res8 m c) := by
  have h19 : t.val % 20 = 19 := (flush0_8 t).mp hf
  show (cfg0.win 8).cut (grid0.coords t) ((dats m 0 c).after 8 t) = _
  rw [after0_8, outsAt_eq]
  funext x
  rw [View.read_apply]
  show run (dN8 m c) t.val = res8 m c _
  rw [run8_last m c t h19]
  unfold res8
  refine congrArg (tot8 m c) (Fin.ext ?_)
  have hx : (x 0).val < 1 := by
    have h : (x 0).val < win0_8.xsize (grid0.coords t) 0 := (x 0).isLt
    rw [xso8 t 0] at h; exact h
  show t.val / 20 = win0_8.index t 0 * 1 + 1 * (x 0).val
  rw [(idxo8 t).1]; omega

/-- Accumulator 8's result array ends holding, at each batch entry, the entry's total: the write-back after the
    entry's last time step covers its position. -/
theorem final8 (c : Dev nD) : (dats (F := Ideal) m 0 c).arrAt 8 cfg0.N = fun i => tot8 m c (bOf i) :=
  (dats m 0 c).arrAt_eq_of_cover 8 (res8 m c) (flushed8 m c) fun i => by
    have hN : cfg0.N = 80 := N_0
    have hi : (i 0).val < 4 := (i 0).isLt
    have h1 : (i 1).val < 1 := (i 1).isLt
    have h2 : (i 2).val < 1 := (i 2).isLt
    obtain ⟨t, ht⟩ : ∃ t : Fin cfg0.N, t.val = 20 * (i 0).val + 19 := ⟨⟨_, by omega⟩, rfl⟩
    refine ⟨t, (flush0_8 t).mpr (by omega), ?_⟩
    show i ∈ ((View.whole main_v0_0).slice (win0_8.rect t)).set
    rw [View.set_slice_whole, Rect.mem_set_unit]
    intro a
    obtain ⟨e0, e1, e2⟩ := idxo8 t
    match a with
    | ⟨0, _⟩ => show win0_8.index t 0 * win0_8.size 0 ≤ (i 0 : Nat) ∧ (i 0 : Nat) < win0_8.index t 0 * win0_8.size 0 + win0_8.xsize (grid0.coords t) 0
                rw [e0, xso8 t 0, show win0_8.size 0 = 1 from rfl]; omega
    | ⟨1, _⟩ => show win0_8.index t 1 * win0_8.size 1 ≤ (i 1 : Nat) ∧ (i 1 : Nat) < win0_8.index t 1 * win0_8.size 1 + win0_8.xsize (grid0.coords t) 1
                rw [e1, xso8 t 1, show win0_8.size 1 = 1 from rfl]; omega
    | ⟨2, _⟩ => show win0_8.index t 2 * win0_8.size 2 ≤ (i 2 : Nat) ∧ (i 2 : Nat) < win0_8.index t 2 * win0_8.size 2 + win0_8.xsize (grid0.coords t) 2
                rw [e2, xso8 t 2, show win0_8.size 2 = 1 from rfl]; omega

/-- The total of accumulator 9 for batch entry `b`. -/
def tot9 (c : Dev nD) (b : Fin 4) : EReal :=
  0 + ∑ t : Fin 20, planeSq (resPlane (argPlane (A0 m c) b ⟨t.val + 1, by have := t.isLt; omega⟩) (argPlane (A1 m c) b ⟨t.val + 1, by have := t.isLt; omega⟩) (argPlane (A2 m c) b ⟨t.val, by have := t.isLt; omega⟩) (argPlane (A2 m c) b ⟨t.val + 1, by have := t.isLt; omega⟩) (argPlane (A2 m c) b ⟨t.val + 2, by have := t.isLt; omega⟩))

theorem dN9_at (c : Dev nD) (t : Fin cfg0.N) (h : t.val % 20 = 19) (s : Fin 20) :
    dN9 m c (t.val - 19 + s.val) = planeSq (resPlane (argPlane (A0 m c) (bt t) ⟨s.val + 1, by have := s.isLt; omega⟩) (argPlane (A1 m c) (bt t) ⟨s.val + 1, by have := s.isLt; omega⟩) (argPlane (A2 m c) (bt t) ⟨s.val, by have := s.isLt; omega⟩) (argPlane (A2 m c) (bt t) ⟨s.val + 1, by have := s.isLt; omega⟩) (argPlane (A2 m c) (bt t) ⟨s.val + 2, by have := s.isLt; omega⟩)) := by
  have hN : cfg0.N = 80 := N_0
  have hs : t.val - 19 + s.val < cfg0.N := by have := s.isLt; have := t.isLt; omega
  have hm : (t.val - 19 + s.val) % 20 = s.val := by have := s.isLt; omega
  have hd : (t.val - 19 + s.val) / 20 = t.val / 20 := by have := s.isLt; omega
  rw [dN9, dif_pos hs]
  unfold d9
  rw [pl_iblk0, pl_iblk1, pl_iblk2, pl_iblk3, pl_iblk4]
  simp only [bt, hm, hd, Nat.add_zero]

theorem run9_last (c : Dev nD) (t : Fin cfg0.N) (h : t.val % 20 = 19) : run (dN9 m c) t.val = tot9 m c (bt t) := by
  rw [run_last _ _ h]
  unfold tot9
  exact congrArg (fun x => 0 + x) (Finset.sum_congr rfl fun s _ => dN9_at m c t h s)

/-- The result array of accumulator 9: at each batch entry its total. -/
def res9 (c : Dev nD) : Buf (Elt Ideal) ((c : Thread nD τ).loc main_v0_1) := fun i => tot9 m c (bOf i)

theorem idxo9 : ∀ t : Fin grid0.N, win0_9.index t 0 = t.val / 20 ∧ win0_9.index t 1 = 0 ∧ win0_9.index t 2 = 0 := by decide +kernel
theorem xso9 : ∀ (t : Fin grid0.N) (a : Fin 3), win0_9.xsize (grid0.coords t) a = 1 := by decide +kernel

/-- The write-back after the last time step of an entry writes the entry's total. -/
theorem flushed9 (c : Dev nD) (t : Fin cfg0.N) (hf : (cfg0.win 9).flush t = true) :
    (dats m 0 c).flushed 9 t = ((cfg0.win 9).blk t).view.read (Elt Ideal) (res9 m c) := by
  have h19 : t.val % 20 = 19 := (flush0_9 t).mp hf
  show (cfg0.win 9).cut (grid0.coords t) ((dats m 0 c).after 9 t) = _
  rw [after0_9, outsAt_eq]
  funext x
  rw [View.read_apply]
  show run (dN9 m c) t.val = res9 m c _
  rw [run9_last m c t h19]
  unfold res9
  refine congrArg (tot9 m c) (Fin.ext ?_)
  have hx : (x 0).val < 1 := by
    have h : (x 0).val < win0_9.xsize (grid0.coords t) 0 := (x 0).isLt
    rw [xso9 t 0] at h; exact h
  show t.val / 20 = win0_9.index t 0 * 1 + 1 * (x 0).val
  rw [(idxo9 t).1]; omega

/-- Accumulator 9's result array ends holding, at each batch entry, the entry's total: the write-back after the
    entry's last time step covers its position. -/
theorem final9 (c : Dev nD) : (dats (F := Ideal) m 0 c).arrAt 9 cfg0.N = fun i => tot9 m c (bOf i) :=
  (dats m 0 c).arrAt_eq_of_cover 9 (res9 m c) (flushed9 m c) fun i => by
    have hN : cfg0.N = 80 := N_0
    have hi : (i 0).val < 4 := (i 0).isLt
    have h1 : (i 1).val < 1 := (i 1).isLt
    have h2 : (i 2).val < 1 := (i 2).isLt
    obtain ⟨t, ht⟩ : ∃ t : Fin cfg0.N, t.val = 20 * (i 0).val + 19 := ⟨⟨_, by omega⟩, rfl⟩
    refine ⟨t, (flush0_9 t).mpr (by omega), ?_⟩
    show i ∈ ((View.whole main_v0_1).slice (win0_9.rect t)).set
    rw [View.set_slice_whole, Rect.mem_set_unit]
    intro a
    obtain ⟨e0, e1, e2⟩ := idxo9 t
    match a with
    | ⟨0, _⟩ => show win0_9.index t 0 * win0_9.size 0 ≤ (i 0 : Nat) ∧ (i 0 : Nat) < win0_9.index t 0 * win0_9.size 0 + win0_9.xsize (grid0.coords t) 0
                rw [e0, xso9 t 0, show win0_9.size 0 = 1 from rfl]; omega
    | ⟨1, _⟩ => show win0_9.index t 1 * win0_9.size 1 ≤ (i 1 : Nat) ∧ (i 1 : Nat) < win0_9.index t 1 * win0_9.size 1 + win0_9.xsize (grid0.coords t) 1
                rw [e1, xso9 t 1, show win0_9.size 1 = 1 from rfl]; omega
    | ⟨2, _⟩ => show win0_9.index t 2 * win0_9.size 2 ≤ (i 2 : Nat) ∧ (i 2 : Nat) < win0_9.index t 2 * win0_9.size 2 + win0_9.xsize (grid0.coords t) 2
                rw [e2, xso9 t 2, show win0_9.size 2 = 1 from rfl]; omega

/-- The total of accumulator 10 for batch entry `b`. -/
def tot10 (c : Dev nD) (b : Fin 4) : EReal :=
  0 + ∑ t : Fin 20, planeSq (resPlane (argPlane (A0 m c) b ⟨t.val + 1, by have := t.isLt; omega⟩) (argPlane (A1 m c) b ⟨t.val + 1, by have := t.isLt; omega⟩) (argPlane (A3 m c) b ⟨t.val, by have := t.isLt; omega⟩) (argPlane (A3 m c) b ⟨t.val + 1, by have := t.isLt; omega⟩) (argPlane (A3 m c) b ⟨t.val + 2, by have := t.isLt; omega⟩))

theorem dN10_at (c : Dev nD) (t : Fin cfg0.N) (h : t.val % 20 = 19) (s : Fin 20) :
    dN10 m c (t.val - 19 + s.val) = planeSq (resPlane (argPlane (A0 m c) (bt t) ⟨s.val + 1, by have := s.isLt; omega⟩) (argPlane (A1 m c) (bt t) ⟨s.val + 1, by have := s.isLt; omega⟩) (argPlane (A3 m c) (bt t) ⟨s.val, by have := s.isLt; omega⟩) (argPlane (A3 m c) (bt t) ⟨s.val + 1, by have := s.isLt; omega⟩) (argPlane (A3 m c) (bt t) ⟨s.val + 2, by have := s.isLt; omega⟩)) := by
  have hN : cfg0.N = 80 := N_0
  have hs : t.val - 19 + s.val < cfg0.N := by have := s.isLt; have := t.isLt; omega
  have hm : (t.val - 19 + s.val) % 20 = s.val := by have := s.isLt; omega
  have hd : (t.val - 19 + s.val) / 20 = t.val / 20 := by have := s.isLt; omega
  rw [dN10, dif_pos hs]
  unfold d10
  rw [pl_iblk0, pl_iblk1, pl_iblk5, pl_iblk6, pl_iblk7]
  simp only [bt, hm, hd, Nat.add_zero]

theorem run10_last (c : Dev nD) (t : Fin cfg0.N) (h : t.val % 20 = 19) : run (dN10 m c) t.val = tot10 m c (bt t) := by
  rw [run_last _ _ h]
  unfold tot10
  exact congrArg (fun x => 0 + x) (Finset.sum_congr rfl fun s _ => dN10_at m c t h s)

/-- The result array of accumulator 10: at each batch entry its total. -/
def res10 (c : Dev nD) : Buf (Elt Ideal) ((c : Thread nD τ).loc main_v0_2) := fun i => tot10 m c (bOf i)

theorem idxo10 : ∀ t : Fin grid0.N, win0_10.index t 0 = t.val / 20 ∧ win0_10.index t 1 = 0 ∧ win0_10.index t 2 = 0 := by decide +kernel
theorem xso10 : ∀ (t : Fin grid0.N) (a : Fin 3), win0_10.xsize (grid0.coords t) a = 1 := by decide +kernel

/-- The write-back after the last time step of an entry writes the entry's total. -/
theorem flushed10 (c : Dev nD) (t : Fin cfg0.N) (hf : (cfg0.win 10).flush t = true) :
    (dats m 0 c).flushed 10 t = ((cfg0.win 10).blk t).view.read (Elt Ideal) (res10 m c) := by
  have h19 : t.val % 20 = 19 := (flush0_10 t).mp hf
  show (cfg0.win 10).cut (grid0.coords t) ((dats m 0 c).after 10 t) = _
  rw [after0_10, outsAt_eq]
  funext x
  rw [View.read_apply]
  show run (dN10 m c) t.val = res10 m c _
  rw [run10_last m c t h19]
  unfold res10
  refine congrArg (tot10 m c) (Fin.ext ?_)
  have hx : (x 0).val < 1 := by
    have h : (x 0).val < win0_10.xsize (grid0.coords t) 0 := (x 0).isLt
    rw [xso10 t 0] at h; exact h
  show t.val / 20 = win0_10.index t 0 * 1 + 1 * (x 0).val
  rw [(idxo10 t).1]; omega

/-- Accumulator 10's result array ends holding, at each batch entry, the entry's total: the write-back after the
    entry's last time step covers its position. -/
theorem final10 (c : Dev nD) : (dats (F := Ideal) m 0 c).arrAt 10 cfg0.N = fun i => tot10 m c (bOf i) :=
  (dats m 0 c).arrAt_eq_of_cover 10 (res10 m c) (flushed10 m c) fun i => by
    have hN : cfg0.N = 80 := N_0
    have hi : (i 0).val < 4 := (i 0).isLt
    have h1 : (i 1).val < 1 := (i 1).isLt
    have h2 : (i 2).val < 1 := (i 2).isLt
    obtain ⟨t, ht⟩ : ∃ t : Fin cfg0.N, t.val = 20 * (i 0).val + 19 := ⟨⟨_, by omega⟩, rfl⟩
    refine ⟨t, (flush0_10 t).mpr (by omega), ?_⟩
    show i ∈ ((View.whole main_v0_2).slice (win0_10.rect t)).set
    rw [View.set_slice_whole, Rect.mem_set_unit]
    intro a
    obtain ⟨e0, e1, e2⟩ := idxo10 t
    match a with
    | ⟨0, _⟩ => show win0_10.index t 0 * win0_10.size 0 ≤ (i 0 : Nat) ∧ (i 0 : Nat) < win0_10.index t 0 * win0_10.size 0 + win0_10.xsize (grid0.coords t) 0
                rw [e0, xso10 t 0, show win0_10.size 0 = 1 from rfl]; omega
    | ⟨1, _⟩ => show win0_10.index t 1 * win0_10.size 1 ≤ (i 1 : Nat) ∧ (i 1 : Nat) < win0_10.index t 1 * win0_10.size 1 + win0_10.xsize (grid0.coords t) 1
                rw [e1, xso10 t 1, show win0_10.size 1 = 1 from rfl]; omega
    | ⟨2, _⟩ => show win0_10.index t 2 * win0_10.size 2 ≤ (i 2 : Nat) ∧ (i 2 : Nat) < win0_10.index t 2 * win0_10.size 2 + win0_10.xsize (grid0.coords t) 2
                rw [e2, xso10 t 2, show win0_10.size 2 = 1 from rfl]; omega

end Cert.KernelIdeal.KV
end
-- ==== Proof.Planes.lean ====
import Idealize.ShloMosaic.Lib.Pipeline.Value
import proofs.«130660_j5119601017343_2_alg».proof.Proof.PlaneSpec

/-!
# Planes of a `[4, 20, 256, 256]` array

`plane X b t` is the 256 x 256 plane of batch `b` and interior frame `t`. Taking a plane commutes with
every operation that acts entry by entry, a time slice of the `[4, 22, 256, 256]` argument becomes a
plane of the argument, and a periodic roll written as "the tail piece followed by the head piece"
becomes the rotation of the plane.
-/

noncomputable section

namespace Cert.RefPlanes

open Idealize.ShloMosaic Idealize.ShloMosaic.ValueIdx Cert.KernelIdeal

variable [Cert.KernelIdeal.Facts]
open Cert.KernelIdeal.Facts₀ Cert.KernelIdeal.Facts

/-- The shape of the interior frames. -/
abbrev T4 : Shape := ⟨4, ![4, 20, 256, 256]⟩

/-- The plane of batch `b` and frame `t`. -/
def plane {α : Type} (X : T4.Idx → α) (b : Fin 4) (t : Fin 20) : S256x256.Idx → α :=
  fun j => X (ix4 b t (j 0) (j 1))

theorem plane_apply {α : Type} (X : T4.Idx → α) (b : Fin 4) (t : Fin 20) (r c : Fin 256) :
    plane X b t (ix2 r c) = X (ix4 b t r c) := rfl

section Pointwise
variable (b : Fin 4) (t : Fin 20)

theorem plane_addf (X Y : FVec Ideal T4 .f32) : plane (addf X Y) b t = addf (plane X b t) (plane Y b t) := rfl
theorem plane_subf (X Y : FVec Ideal T4 .f32) : plane (subf X Y) b t = subf (plane X b t) (plane Y b t) := rfl
theorem plane_mulf (X Y : FVec Ideal T4 .f32) : plane (mulf X Y) b t = mulf (plane X b t) (plane Y b t) := rfl
/-- The host's quotient and the vector unit's are the same function of extended reals. -/
theorem plane_hostDivf (X Y : FVec Ideal T4 .f32) :
    plane (Host.divf X Y) b t = divf (plane X b t) (plane Y b t) := rfl
theorem plane_cmpf (p : CmpFPredicate) (X Y : FVec Ideal T4 .f32) :
    plane (cmpf p X Y) b t = cmpf p (plane X b t) (plane Y b t) := rfl
theorem plane_select {α : Type} (m : IVec T4 1) (X Y : T4.Idx → α) :
    plane (select m X Y) b t = select (plane m b t) (plane X b t) (plane Y b t) := rfl
/-- A constant array broadcast along any axes holds the constant at every entry: its plane is the constant plane. -/
theorem plane_bcast {s : Shape} (dims : Fin s.rank → Fin T4.rank) (h : s.BroadcastsInDim T4 dims) (w : BitVec 32) :
    plane (broadcastInDim T4 dims h (constant (F := Ideal) s .f32 w)) b t = cst w := rfl

end Pointwise

/-! ## Time slices -/

theorem plane_slice0 (A : FVec Ideal S4x22x256x256 .f32) (h : S4x22x256x256.Slices ![0, 0, 0, 0] T4)
    (b : Fin 4) (t : Fin 20) :
    plane (extractStridedSlice T4 ![0, 0, 0, 0] A h) b t = argPlane A b ⟨t.val, by omega⟩ := by
  funext j
  exact extractStridedSlice_apply ![0, 0, 0, 0] A h _ (ix4 b ⟨t.val, by omega⟩ (j 0) (j 1)) (fun a => match a with
    | ⟨0, _⟩ => by show b.val = 0 + b.val; omega
    | ⟨1, _⟩ => by show t.val = 0 + t.val; omega
    | ⟨2, _⟩ => by show (j 0).val = 0 + (j 0).val; omega
    | ⟨3, _⟩ => by show (j 1).val = 0 + (j 1).val; omega)

theorem plane_slice1 (A : FVec Ideal S4x22x256x256 .f32) (h : S4x22x256x256.Slices ![0, 1, 0, 0] T4)
    (b : Fin 4) (t : Fin 20) :
    plane (extractStridedSlice T4 ![0, 1, 0, 0] A h) b t = argPlane A b ⟨t.val + 1, by omega⟩ := by
  funext j
  exact extractStridedSlice_apply ![0, 1, 0, 0] A h _ (ix4 b ⟨t.val + 1, by omega⟩ (j 0) (j 1)) (fun a => match a with
    | ⟨0, _⟩ => by show b.val = 0 + b.val; omega
    | ⟨1, _⟩ => by show t.val + 1 = 1 + t.val; omega
    | ⟨2, _⟩ => by show (j 0).val = 0 + (j 0).val; omega
    | ⟨3, _⟩ => by show (j 1).val = 0 + (j 1).val; omega)

theorem plane_slice2 (A : FVec Ideal S4x22x256x256 .f32) (h : S4x22x256x256.Slices ![0, 2, 0, 0] T4)
    (b : Fin 4) (t : Fin 20) :
    plane (extractStridedSlice T4 ![0, 2, 0, 0] A h) b t = argPlane A b ⟨t.val + 2, by omega⟩ := by
  funext j
  exact extractStridedSlice_apply ![0, 2, 0, 0] A h _ (ix4 b ⟨t.val + 2, by omega⟩ (j 0) (j 1)) (fun a => match a with
    | ⟨0, _⟩ => by show b.val = 0 + b.val; omega
    | ⟨1, _⟩ => by show t.val + 2 = 2 + t.val; omega
    | ⟨2, _⟩ => by show (j 0).val = 0 + (j 0).val; omega
    | ⟨3, _⟩ => by show (j 1).val = 0 + (j 1).val; omega)

end Cert.RefPlanes

end
-- ==== Proof.Rolls.lean ====
import Idealize.ShloMosaic.Lib.Pipeline.Value
import proofs.«130660_j5119601017343_2_alg».proof.Proof.Planes

/-!
# A periodic roll, piece by piece, is the rotation of each plane

The host writes a periodic roll of the last axis as two slices laid end to end: the columns from `n2` on (there
are `n1` of them) followed by the first `n2` columns, `n1 + n2 = 256`. Entry `c` of the result is therefore entry
`(c + n2) mod 256` of the operand. Rotating a plane by `n1` places moves entry `c` to `(c + n1) mod 256`, so entry
`c` of the rotated plane is the operand's entry `(c + 256 - n1) mod 256`, which is the same entry. Likewise
along the rows.
-/

noncomputable section

namespace Cert.RefPlanes

open Idealize.ShloMosaic Idealize.ShloMosaic.ValueIdx Cert.KernelIdeal

variable [Cert.KernelIdeal.Facts]
open Cert.KernelIdeal.Facts₀ Cert.KernelIdeal.Facts

/-- A plane rotated by `n` places within its rows, read at an entry. -/
theorem rotX_apply {α : Type} (n : Nat) (hn : n < 256) (P : S256x256.Idx → α) (hrot : S256x256.Rotates 1 none)
    (r c : Fin 256) :
    dynamicRotate 1 (BitVec.ofNat 32 n) none P hrot (ix2 r c)
      = P (ix2 r ⟨(c.val + 256 - n) % 256, Nat.mod_lt _ (by decide)⟩) := by
  unfold dynamicRotate
  refine congrArg P (funext fun a => ?_)
  match a with
  | ⟨0, _⟩ => rfl
  | ⟨1, _⟩ =>
    refine Fin.ext ?_
    show (c.val + 256 - ((BitVec.ofNat 32 n).toNat + 0) % 256) % 256 = (c.val + 256 - n) % 256
    have h32 : n % 2 ^ 32 = n := Nat.mod_eq_of_lt (by omega)
    rw [BitVec.toNat_ofNat, h32]
    omega

/-- A plane rotated by `n` places within its columns, read at an entry. -/
theorem rotY_apply {α : Type} (n : Nat) (hn : n < 256) (P : S256x256.Idx → α) (hrot : S256x256.Rotates 0 none)
    (r c : Fin 256) :
    dynamicRotate 0 (BitVec.ofNat 32 n) none P hrot (ix2 r c)
      = P (ix2 ⟨(r.val + 256 - n) % 256, Nat.mod_lt _ (by decide)⟩ c) := by
  unfold dynamicRotate
  refine congrArg P (funext fun a => ?_)
  match a with
  | ⟨1, _⟩ => rfl
  | ⟨0, _⟩ =>
    refine Fin.ext ?_
    show (r.val + 256 - ((BitVec.ofNat 32 n).toNat + 0) % 256) % 256 = (r.val + 256 - n) % 256
    have h32 : n % 2 ^ 32 = n := Nat.mod_eq_of_lt (by omega)
    rw [BitVec.toNat_ofNat, h32]
    omega

/-- The columns from `n2` on followed by the first `n2` columns, read at an entry. -/
theorem catX_apply {α : Type} (n1 n2 : Nat) (hn : n1 + n2 = 256) (X : T4.Idx → α)
    (h1 : T4.Slices ![0, 0, 0, n2] ⟨4, ![4, 20, 256, n1]⟩)
    (h2 : T4.Slices ![0, 0, 0, 0] ⟨4, ![4, 20, 256, n2]⟩)
    (h3 : Shape.Concatenates [(⟨4, ![4, 20, 256, n1]⟩ : Shape), ⟨4, ![4, 20, 256, n2]⟩] T4 3)
    (b : Fin 4) (t : Fin 20) (r c : Fin 256) :
    concatenate T4 3
        [⟨⟨4, ![4, 20, 256, n1]⟩, extractStridedSlice ⟨4, ![4, 20, 256, n1]⟩ ![0, 0, 0, n2] X h1⟩,
         ⟨⟨4, ![4, 20, 256, n2]⟩, extractStridedSlice ⟨4, ![4, 20, 256, n2]⟩ ![0, 0, 0, 0] X h2⟩] h3 (ix4 b t r c)
      = X (ix4 b t r ⟨(c.val + n2) % 256, Nat.mod_lt _ (by decide)⟩) := by
  by_cases hc : c.val < n1
  · rw [concatenate_pair_apply_left (t := T4) 3 _ _ h3 (ix4 b t r c) rfl (ix4 b t r ⟨c.val, hc⟩)
      (fun a => match a with | ⟨0, _⟩ => rfl | ⟨1, _⟩ => rfl | ⟨2, _⟩ => rfl | ⟨3, _⟩ => rfl)]
    exact extractStridedSlice_apply ![0, 0, 0, n2] X h1 _ _ (fun a => match a with
      | ⟨0, _⟩ => by show b.val = 0 + b.val; omega
      | ⟨1, _⟩ => by show t.val = 0 + t.val; omega
      | ⟨2, _⟩ => by show r.val = 0 + r.val; omega
      | ⟨3, _⟩ => by show (c.val + n2) % 256 = n2 + c.val; omega)
  · have hc' : c.val - n1 < n2 := by have := c.isLt; omega
    rw [concatenate_pair_apply_right (t := T4) 3 _ _ h3 (ix4 b t r c) rfl rfl (ix4 b t r ⟨c.val - n1, hc'⟩)
      (fun a ha => match a, ha with
        | ⟨0, _⟩, _ => rfl | ⟨1, _⟩, _ => rfl | ⟨2, _⟩, _ => rfl | ⟨3, _⟩, ha => absurd rfl ha)
      (by show c.val - n1 + n1 = c.val; omega)]
    exact extractStridedSlice_apply ![0, 0, 0, 0] X h2 _ _ (fun a => match a with
      | ⟨0, _⟩ => by show b.val = 0 + b.val; omega
      | ⟨1, _⟩ => by show t.val = 0 + t.val; omega
      | ⟨2, _⟩ => by show r.val = 0 + r.val; omega
      | ⟨3, _⟩ => by show (c.val + n2) % 256 = 0 + (c.val - n1); have := c.isLt; omega)

/-- The rows from `n2` on followed by the first `n2` rows, read at an entry. -/
theorem catY_apply {α : Type} (n1 n2 : Nat) (hn : n1 + n2 = 256) (X : T4.Idx → α)
    (h1 : T4.Slices ![0, 0, n2, 0] ⟨4, ![4, 20, n1, 256]⟩)
    (h2 : T4.Slices ![0, 0, 0, 0] ⟨4, ![4, 20, n2, 256]⟩)
    (h3 : Shape.Concatenates [(⟨4, ![4, 20, n1, 256]⟩ : Shape), ⟨4, ![4, 20, n2, 256]⟩] T4 2)
    (b : Fin 4) (t : Fin 20) (r c : Fin 256) :
    concatenate T4 2
        [⟨⟨4, ![4, 20, n1, 256]⟩, extractStridedSlice ⟨4, ![4, 20, n1, 256]⟩ ![0, 0, n2, 0] X h1⟩,
         ⟨⟨4, ![4, 20, n2, 256]⟩, extractStridedSlice ⟨4, ![4, 20, n2, 256]⟩ ![0, 0, 0, 0] X h2⟩] h3 (ix4 b t r c)
      = X (ix4 b t ⟨(r.val + n2) % 256, Nat.mod_lt _ (by decide)⟩ c) := by
  by_cases hr : r.val < n1
  · rw [concatenate_pair_apply_left (t := T4) 2 _ _ h3 (ix4 b t r c) rfl (ix4 b t ⟨r.val, hr⟩ c)
      (fun a => match a with | ⟨0, _⟩ => rfl | ⟨1, _⟩ => rfl | ⟨2, _⟩ => rfl | ⟨3, _⟩ => rfl)]
    exact extractStridedSlice_apply ![0, 0, n2, 0] X h1 _ _ (fun a => match a with
      | ⟨0, _⟩ => by show b.val = 0 + b.val; omega
      | ⟨1, _⟩ => by show t.val = 0 + t.val; omega
      | ⟨2, _⟩ => by show (r.val + n2) % 256 = n2 + r.val; omega
      | ⟨3, _⟩ => by show c.val = 0 + c.val; omega)
  · have hr' : r.val - n1 < n2 := by have := r.isLt; omega
    rw [concatenate_pair_apply_right (t := T4) 2 _ _ h3 (ix4 b t r c) rfl rfl (ix4 b t ⟨r.val - n1, hr'⟩ c)
      (fun a ha => match a, ha with
        | ⟨0, _⟩, _ => rfl | ⟨1, _⟩, _ => rfl | ⟨3, _⟩, _ => rfl | ⟨2, _⟩, ha => absurd rfl ha)
      (by show r.val - n1 + n1 = r.val; omega)]
    exact extractStridedSlice_apply ![0, 0, 0, 0] X h2 _ _ (fun a => match a with
      | ⟨0, _⟩ => by show b.val = 0 + b.val; omega
      | ⟨1, _⟩ => by show t.val = 0 + t.val; omega
      | ⟨2, _⟩ => by show (r.val + n2) % 256 = 0 + (r.val - n1); have := r.isLt; omega
      | ⟨3, _⟩ => by show c.val = 0 + c.val; omega)

/-- The plane of a roll along the last axis is the plane rotated within its rows. -/
theorem plane_catX {α : Type} (n1 n2 : Nat) (hn : n1 + n2 = 256) (h2pos : 0 < n2) (X : T4.Idx → α)
    (h1 : T4.Slices ![0, 0, 0, n2] ⟨4, ![4, 20, 256, n1]⟩)
    (h2 : T4.Slices ![0, 0, 0, 0] ⟨4, ![4, 20, 256, n2]⟩)
    (h3 : Shape.Concatenates [(⟨4, ![4, 20, 256, n1]⟩ : Shape), ⟨4, ![4, 20, 256, n2]⟩] T4 3)
    (hrot : S256x256.Rotates 1 none) (b : Fin 4) (t : Fin 20) :
    plane (concatenate T4 3
        [⟨⟨4, ![4, 20, 256, n1]⟩, extractStridedSlice ⟨4, ![4, 20, 256, n1]⟩ ![0, 0, 0, n2] X h1⟩,
         ⟨⟨4, ![4, 20, 256, n2]⟩, extractStridedSlice ⟨4, ![4, 20, 256, n2]⟩ ![0, 0, 0, 0] X h2⟩] h3) b t
      = dynamicRotate 1 (BitVec.ofNat 32 n1) none (plane X b t) hrot := by
  funext j
  obtain ⟨r, c, rfl⟩ : ∃ (r : Fin 256) (c : Fin 256), j = ix2 r c := ⟨j 0, j 1, eq_ix2 j⟩
  rw [rotX_apply n1 (by omega) (plane X b t) hrot r c, plane_apply, plane_apply, catX_apply n1 n2 hn X h1 h2 h3 b t r c]
  exact congrArg (fun k => X (ix4 b t r k)) (Fin.ext (by show (c.val + n2) % 256 = (c.val + 256 - n1) % 256; congr 1; omega))

/-- The plane of a roll along the row axis is the plane rotated within its columns. -/
theorem plane_catY {α : Type} (n1 n2 : Nat) (hn : n1 + n2 = 256) (h2pos : 0 < n2) (X : T4.Idx → α)
    (h1 : T4.Slices ![0, 0, n2, 0] ⟨4, ![4, 20, n1, 256]⟩)
    (h2 : T4.Slices ![0, 0, 0, 0] ⟨4, ![4, 20, n2, 256]⟩)
    (h3 : Shape.Concatenates [(⟨4, ![4, 20, n1, 256]⟩ : Shape), ⟨4, ![4, 20, n2, 256]⟩] T4 2)
    (hrot : S256x256.Rotates 0 none) (b : Fin 4) (t : Fin 20) :
    plane (concatenate T4 2
        [⟨⟨4, ![4, 20, n1, 256]⟩, extractStridedSlice ⟨4, ![4, 20, n1, 256]⟩ ![0, 0, n2, 0] X h1⟩,
         ⟨⟨4, ![4, 20, n2, 256]⟩, extractStridedSlice ⟨4, ![4, 20, n2, 256]⟩ ![0, 0, 0, 0] X h2⟩] h3) b t
      = dynamicRotate 0 (BitVec.ofNat 32 n1) none (plane X b t) hrot := by
  funext j
  obtain ⟨r, c, rfl⟩ : ∃ (r : Fin 256) (c : Fin 256), j = ix2 r c := ⟨j 0, j 1, eq_ix2 j⟩
  rw [rotY_apply n1 (by omega) (plane X b t) hrot r c, plane_apply, plane_apply, catY_apply n1 n2 hn X h1 h2 h3 b t r c]
  exact congrArg (fun k => X (ix4 b t k c)) (Fin.ext (by show (r.val + n2) % 256 = (r.val + 256 - n1) % 256; congr 1; omega))

end Cert.RefPlanes

end
-- ==== Proof.RefDiv.lean ====
import proofs.«130660_j5119601017343_2_alg».proof.Proof.RefReadP
import proofs.«130660_j5119601017343_2_alg».proof.Proof.Rolls

/-!
# The reference's velocity stages, plane by plane

The reference computes the face velocities and the divergence on whole `[4, 20, 256, 256]` arrays. Read on the
plane of batch `b` and interior frame `t`, each stage is the kernel's operation on planes: the interior
slices are the argument's frame `t + 1`, the four rolls are the four rotations, and the rest acts entry by
entry.
-/

noncomputable section

namespace Cert.RefPlanes

open Idealize.ShloMosaic Idealize.ShloMosaic.ValueIdx Cert.ReferenceIdeal Cert.ReferenceIdeal.ReadP

variable [Cert.KernelIdeal.Facts]

/-- An argument array of the reference. -/
abbrev Arr : Type := (⟨S4x22x256x256, .f32⟩ : BufTy).Contents (Elt Ideal)

variable (x0 x1 : Arr) (b : Fin 4) (t : Fin 20)

/-- The interior frames of the first velocity component. -/
theorem p_v0 : plane (α := Ideal .f32) (val_main_v0 (F := Ideal) x0) b t = argPlane x0 b ⟨t.val + 1, by omega⟩ :=
  plane_slice1 x0 _ b t
/-- The interior frames of the second velocity component. -/
theorem p_v1 : plane (α := Ideal .f32) (val_main_v1 (F := Ideal) x1) b t = argPlane x1 b ⟨t.val + 1, by omega⟩ :=
  plane_slice1 x1 _ b t

theorem p_v2 : plane (α := Ideal .f32) (val_main_v2 (F := Ideal) x0) b t = rollX 255#32 (plane (α := Ideal .f32) (val_main_v0 (F := Ideal) x0) b t) :=
  plane_catX 255 1 rfl (by decide) _ _ _ _ _ b t
theorem p_v6 : plane (α := Ideal .f32) (val_main_v6 (F := Ideal) x0) b t = rollX 1#32 (plane (α := Ideal .f32) (val_main_v0 (F := Ideal) x0) b t) :=
  plane_catX 1 255 rfl (by decide) _ _ _ _ _ b t
theorem p_v10 : plane (α := Ideal .f32) (val_main_v10 (F := Ideal) x1) b t = rollY 255#32 (plane (α := Ideal .f32) (val_main_v1 (F := Ideal) x1) b t) :=
  plane_catY 255 1 rfl (by decide) _ _ _ _ _ b t
theorem p_v14 : plane (α := Ideal .f32) (val_main_v14 (F := Ideal) x1) b t = rollY 1#32 (plane (α := Ideal .f32) (val_main_v1 (F := Ideal) x1) b t) :=
  plane_catY 1 255 rfl (by decide) _ _ _ _ _ b t

/-- The east face velocity. -/
theorem p_v5 : plane (α := Ideal .f32) (val_main_v5 (F := Ideal) x0) b t = faceE (argPlane x0 b ⟨t.val + 1, by omega⟩) := by
  simp only [val_main_v5, val_main_v4, val_main_cst, val_main_v3, plane_mulf, plane_addf, plane_bcast, p_v2, p_v0]
  rfl
/-- The west face velocity. -/
theorem p_v9 : plane (α := Ideal .f32) (val_main_v9 (F := Ideal) x0) b t = faceW (argPlane x0 b ⟨t.val + 1, by omega⟩) := by
  simp only [val_main_v9, val_main_v8, val_main_cst_0, val_main_v7, plane_mulf, plane_addf, plane_bcast, p_v6, p_v0]
  rfl
/-- The north face velocity. -/
theorem p_v13 : plane (α := Ideal .f32) (val_main_v13 (F := Ideal) x1) b t = faceN (argPlane x1 b ⟨t.val + 1, by omega⟩) := by
  simp only [val_main_v13, val_main_v12, val_main_cst_1, val_main_v11, plane_mulf, plane_addf, plane_bcast, p_v10, p_v1]
  rfl
/-- The south face velocity. -/
theorem p_v17 : plane (α := Ideal .f32) (val_main_v17 (F := Ideal) x1) b t = faceS (argPlane x1 b ⟨t.val + 1, by omega⟩) := by
  simp only [val_main_v17, val_main_v16, val_main_cst_2, val_main_v15, plane_mulf, plane_addf, plane_bcast, p_v14, p_v1]
  rfl

/-- The divergence. -/
theorem p_v24 : plane (α := Ideal .f32) (val_main_v24 (F := Ideal) x0 x1) b t
    = divPlane (argPlane x0 b ⟨t.val + 1, by omega⟩) (argPlane x1 b ⟨t.val + 1, by omega⟩) := by
  simp only [val_main_v24, val_main_v23, val_main_v22, val_main_cst_4, val_main_v21, val_main_v20, val_main_v19,
    val_main_cst_3, val_main_v18, plane_addf, plane_subf, plane_hostDivf, plane_bcast, p_v5, p_v9, p_v13, p_v17]
  rfl

end Cert.RefPlanes

end
-- ==== Proof.RefConc.lean ====
import proofs.«130660_j5119601017343_2_alg».proof.Proof.RefDiv

/-!
# The reference's residual of the concentration field, plane by plane

The reference forms the residual of the transport equation of its third argument on whole
`[4, 20, 256, 256]` arrays: the centred time difference of frames `t + 2` and `t`, the upwind convective
term and the Laplacian of frame `t + 1`, and the divergence correction. Read on the plane of batch `b` and
interior frame `t`, each stage is the kernel's operation on planes.
-/

noncomputable section

namespace Cert.RefPlanes

open Idealize.ShloMosaic Idealize.ShloMosaic.ValueIdx Cert.ReferenceIdeal Cert.ReferenceIdeal.ReadP

variable [Cert.KernelIdeal.Facts]

variable (x0 x1 x2 : Arr) (b : Fin 4) (t : Fin 20)

/-- The field at the interior frame `t + 1`. -/
theorem p_v28 : plane (α := Ideal .f32) (val_main_v28 (F := Ideal) x2) b t = argPlane x2 b ⟨t.val + 1, by omega⟩ :=
  plane_slice1 x2 _ b t
/-- The field at the later frame `t + 2`. -/
theorem p_v29 : plane (α := Ideal .f32) (val_main_v29 (F := Ideal) x2) b t = argPlane x2 b ⟨t.val + 2, by omega⟩ :=
  plane_slice2 x2 _ b t
/-- The field at the earlier frame `t`. -/
theorem p_v30 : plane (α := Ideal .f32) (val_main_v30 (F := Ideal) x2) b t = argPlane x2 b ⟨t.val, by omega⟩ :=
  plane_slice0 x2 _ b t

/-- The centred time difference. -/
theorem p_v33 : plane (α := Ideal .f32) (val_main_v33 (F := Ideal) x2) b t = divf (subf (argPlane x2 b ⟨t.val + 2, by omega⟩) (argPlane x2 b ⟨t.val, by omega⟩)) (cst 0x3F000000#32) := by
  simp only [val_main_v33, val_main_v32, val_main_cst_7, val_main_v31, plane_hostDivf, plane_subf, plane_bcast, p_v29, p_v30]

/-! The eight neighbours of the upwind scheme and the four of the Laplacian. -/
theorem p_v34 : plane (α := Ideal .f32) (val_main_v34 (F := Ideal) x2) b t = rollX 255#32 (plane (α := Ideal .f32) (val_main_v28 (F := Ideal) x2) b t) :=
  plane_catX 255 1 rfl (by decide) _ _ _ _ _ b t
theorem p_v35 : plane (α := Ideal .f32) (val_main_v35 (F := Ideal) x2) b t = rollX 1#32 (plane (α := Ideal .f32) (val_main_v28 (F := Ideal) x2) b t) :=
  plane_catX 1 255 rfl (by decide) _ _ _ _ _ b t
theorem p_v36 : plane (α := Ideal .f32) (val_main_v36 (F := Ideal) x2) b t = rollX 254#32 (plane (α := Ideal .f32) (val_main_v28 (F := Ideal) x2) b t) :=
  plane_catX 254 2 rfl (by decide) _ _ _ _ _ b t
theorem p_v37 : plane (α := Ideal .f32) (val_main_v37 (F := Ideal) x2) b t = rollX 2#32 (plane (α := Ideal .f32) (val_main_v28 (F := Ideal) x2) b t) :=
  plane_catX 2 254 rfl (by decide) _ _ _ _ _ b t
theorem p_v38 : plane (α := Ideal .f32) (val_main_v38 (F := Ideal) x2) b t = rollY 255#32 (plane (α := Ideal .f32) (val_main_v28 (F := Ideal) x2) b t) :=
  plane_catY 255 1 rfl (by decide) _ _ _ _ _ b t
theorem p_v39 : plane (α := Ideal .f32) (val_main_v39 (F := Ideal) x2) b t = rollY 1#32 (plane (α := Ideal .f32) (val_main_v28 (F := Ideal) x2) b t) :=
  plane_catY 1 255 rfl (by decide) _ _ _ _ _ b t
theorem p_v40 : plane (α := Ideal .f32) (val_main_v40 (F := Ideal) x2) b t = rollY 254#32 (plane (α := Ideal .f32) (val_main_v28 (F := Ideal) x2) b t) :=
  plane_catY 254 2 rfl (by decide) _ _ _ _ _ b t
theorem p_v41 : plane (α := Ideal .f32) (val_main_v41 (F := Ideal) x2) b t = rollY 2#32 (plane (α := Ideal .f32) (val_main_v28 (F := Ideal) x2) b t) :=
  plane_catY 2 254 rfl (by decide) _ _ _ _ _ b t
theorem p_v106 : plane (α := Ideal .f32) (val_main_v106 (F := Ideal) x2) b t = rollX 255#32 (plane (α := Ideal .f32) (val_main_v28 (F := Ideal) x2) b t) :=
  plane_catX 255 1 rfl (by decide) _ _ _ _ _ b t
theorem p_v110 : plane (α := Ideal .f32) (val_main_v110 (F := Ideal) x2) b t = rollX 1#32 (plane (α := Ideal .f32) (val_main_v28 (F := Ideal) x2) b t) :=
  plane_catX 1 255 rfl (by decide) _ _ _ _ _ b t
theorem p_v114 : plane (α := Ideal .f32) (val_main_v114 (F := Ideal) x2) b t = rollY 255#32 (plane (α := Ideal .f32) (val_main_v28 (F := Ideal) x2) b t) :=
  plane_catY 255 1 rfl (by decide) _ _ _ _ _ b t
theorem p_v118 : plane (α := Ideal .f32) (val_main_v118 (F := Ideal) x2) b t = rollY 1#32 (plane (α := Ideal .f32) (val_main_v28 (F := Ideal) x2) b t) :=
  plane_catY 1 255 rfl (by decide) _ _ _ _ _ b t

/-- The upwind value on the east face. -/
theorem p_v54 : plane (α := Ideal .f32) (val_main_v54 (F := Ideal) x0 x2) b t = fluxE (argPlane x0 b ⟨t.val + 1, by omega⟩) (argPlane x2 b ⟨t.val + 1, by omega⟩) := by
  simp only [val_main_v54, val_main_v53, val_main_v52, val_main_v51, val_main_cst_12, val_main_v50, val_main_v49, val_main_cst_11, val_main_v48, val_main_v47, val_main_v46, val_main_cst_10, val_main_v45, val_main_v44, val_main_cst_9, val_main_v43, val_main_v42, val_main_cst_8,
    plane_select, plane_cmpf, plane_subf, plane_mulf, plane_bcast, p_v5, p_v34, p_v35, p_v36, p_v28]
  rfl
/-- The upwind value on the west face. -/
theorem p_v67 : plane (α := Ideal .f32) (val_main_v67 (F := Ideal) x0 x2) b t = fluxW (argPlane x0 b ⟨t.val + 1, by omega⟩) (argPlane x2 b ⟨t.val + 1, by omega⟩) := by
  simp only [val_main_v67, val_main_v66, val_main_v65, val_main_v64, val_main_cst_17, val_main_v63, val_main_v62, val_main_cst_16, val_main_v61, val_main_v60, val_main_v59, val_main_cst_15, val_main_v58, val_main_v57, val_main_cst_14, val_main_v56, val_main_v55, val_main_cst_13,
    plane_select, plane_cmpf, plane_subf, plane_mulf, plane_bcast, p_v9, p_v34, p_v35, p_v37, p_v28]
  rfl
/-- The upwind value on the north face. -/
theorem p_v80 : plane (α := Ideal .f32) (val_main_v80 (F := Ideal) x1 x2) b t = fluxN (argPlane x1 b ⟨t.val + 1, by omega⟩) (argPlane x2 b ⟨t.val + 1, by omega⟩) := by
  simp only [val_main_v80, val_main_v79, val_main_v78, val_main_v77, val_main_cst_22, val_main_v76, val_main_v75, val_main_cst_21, val_main_v74, val_main_v73, val_main_v72, val_main_cst_20, val_main_v71, val_main_v70, val_main_cst_19, val_main_v69, val_main_v68, val_main_cst_18,
    plane_select, plane_cmpf, plane_subf, plane_mulf, plane_bcast, p_v13, p_v38, p_v39, p_v40, p_v28]
  rfl
/-- The upwind value on the south face. -/
theorem p_v93 : plane (α := Ideal .f32) (val_main_v93 (F := Ideal) x1 x2) b t = fluxS (argPlane x1 b ⟨t.val + 1, by omega⟩) (argPlane x2 b ⟨t.val + 1, by omega⟩) := by
  simp only [val_main_v93, val_main_v92, val_main_v91, val_main_v90, val_main_cst_27, val_main_v89, val_main_v88, val_main_cst_26, val_main_v87, val_main_v86, val_main_v85, val_main_cst_25, val_main_v84, val_main_v83, val_main_cst_24, val_main_v82, val_main_v81, val_main_cst_23,
    plane_select, plane_cmpf, plane_subf, plane_mulf, plane_bcast, p_v17, p_v38, p_v39, p_v41, p_v28]
  rfl

/-- The convective term. -/
theorem p_v104 : plane (α := Ideal .f32) (val_main_v104 (F := Ideal) x0 x1 x2) b t = upwind (argPlane x0 b ⟨t.val + 1, by omega⟩) (argPlane x1 b ⟨t.val + 1, by omega⟩) (argPlane x2 b ⟨t.val + 1, by omega⟩) := by
  simp only [val_main_v104, val_main_v103, val_main_v102, val_main_cst_29, val_main_v101, val_main_v100, val_main_v99, val_main_v98, val_main_v97, val_main_cst_28, val_main_v96, val_main_v95, val_main_v94,
    plane_addf, plane_subf, plane_mulf, plane_hostDivf, plane_bcast, p_v5, p_v9, p_v13, p_v17, p_v54, p_v67, p_v80, p_v93]
  rfl

/-- The Laplacian. -/
theorem p_v122 : plane (α := Ideal .f32) (val_main_v122 (F := Ideal) x2) b t = lap (argPlane x2 b ⟨t.val + 1, by omega⟩) := by
  simp only [val_main_v122, val_main_v121, val_main_v120, val_main_cst_33, val_main_v119, val_main_v117, val_main_v116, val_main_v115, val_main_cst_32, val_main_v113, val_main_v112, val_main_cst_31, val_main_v111, val_main_v109, val_main_v108, val_main_v107, val_main_cst_30,
    plane_addf, plane_subf, plane_mulf, plane_hostDivf, plane_bcast, p_v106, p_v110, p_v114, p_v118, p_v28]
  rfl

/-- The residual. -/
theorem p_v127 : plane (α := Ideal .f32) (val_main_v127 (F := Ideal) x0 x1 x2) b t = resPlane (argPlane x0 b ⟨t.val + 1, by omega⟩) (argPlane x1 b ⟨t.val + 1, by omega⟩) (argPlane x2 b ⟨t.val, by omega⟩) (argPlane x2 b ⟨t.val + 1, by omega⟩) (argPlane x2 b ⟨t.val + 2, by omega⟩) := by
  simp only [val_main_v127, val_main_v126, val_main_v125, val_main_v124, val_main_v123, val_main_cst_34, val_main_v105,
    plane_addf, plane_subf, plane_mulf, plane_bcast, p_v24, p_v33, p_v104, p_v122, p_v28]
  rfl

end Cert.RefPlanes

end
-- ==== Proof.RefDxx.lean ====
import proofs.«130660_j5119601017343_2_alg».proof.Proof.RefDiv

/-!
# The reference's residual of the diffusivity field, plane by plane

The reference forms the residual of the transport equation of its fourth argument on whole
`[4, 20, 256, 256]` arrays: the centred time difference of frames `t + 2` and `t`, the upwind convective
term and the Laplacian of frame `t + 1`, and the divergence correction. Read on the plane of batch `b` and
interior frame `t`, each stage is the kernel's operation on planes.
-/

noncomputable section

namespace Cert.RefPlanes

open Idealize.ShloMosaic Idealize.ShloMosaic.ValueIdx Cert.ReferenceIdeal Cert.ReferenceIdeal.ReadP

variable [Cert.KernelIdeal.Facts]

variable (x0 x1 x3 : Arr) (b : Fin 4) (t : Fin 20)

/-- The field at the interior frame `t + 1`. -/
theorem p_v131 : plane (α := Ideal .f32) (val_main_v131 (F := Ideal) x3) b t = argPlane x3 b ⟨t.val + 1, by omega⟩ :=
  plane_slice1 x3 _ b t
/-- The field at the later frame `t + 2`. -/
theorem p_v132 : plane (α := Ideal .f32) (val_main_v132 (F := Ideal) x3) b t = argPlane x3 b ⟨t.val + 2, by omega⟩ :=
  plane_slice2 x3 _ b t
/-- The field at the earlier frame `t`. -/
theorem p_v133 : plane (α := Ideal .f32) (val_main_v133 (F := Ideal) x3) b t = argPlane x3 b ⟨t.val, by omega⟩ :=
  plane_slice0 x3 _ b t

/-- The centred time difference. -/
theorem p_v136 : plane (α := Ideal .f32) (val_main_v136 (F := Ideal) x3) b t = divf (subf (argPlane x3 b ⟨t.val + 2, by omega⟩) (argPlane x3 b ⟨t.val, by omega⟩)) (cst 0x3F000000#32) := by
  simp only [val_main_v136, val_main_v135, val_main_cst_37, val_main_v134, plane_hostDivf, plane_subf, plane_bcast, p_v132, p_v133]

/-! The eight neighbours of the upwind scheme and the four of the Laplacian. -/
theorem p_v137 : plane (α := Ideal .f32) (val_main_v137 (F := Ideal) x3) b t = rollX 255#32 (plane (α := Ideal .f32) (val_main_v131 (F := Ideal) x3) b t) :=
  plane_catX 255 1 rfl (by decide) _ _ _ _ _ b t
theorem p_v138 : plane (α := Ideal .f32) (val_main_v138 (F := Ideal) x3) b t = rollX 1#32 (plane (α := Ideal .f32) (val_main_v131 (F := Ideal) x3) b t) :=
  plane_catX 1 255 rfl (by decide) _ _ _ _ _ b t
theorem p_v139 : plane (α := Ideal .f32) (val_main_v139 (F := Ideal) x3) b t = rollX 254#32 (plane (α := Ideal .f32) (val_main_v131 (F := Ideal) x3) b t) :=
  plane_catX 254 2 rfl (by decide) _ _ _ _ _ b t
theorem p_v140 : plane (α := Ideal .f32) (val_main_v140 (F := Ideal) x3) b t = rollX 2#32 (plane (α := Ideal .f32) (val_main_v131 (F := Ideal) x3) b t) :=
  plane_catX 2 254 rfl (by decide) _ _ _ _ _ b t
theorem p_v141 : plane (α := Ideal .f32) (val_main_v141 (F := Ideal) x3) b t = rollY 255#32 (plane (α := Ideal .f32) (val_main_v131 (F := Ideal) x3) b t) :=
  plane_catY 255 1 rfl (by decide) _ _ _ _ _ b t
theorem p_v142 : plane (α := Ideal .f32) (val_main_v142 (F := Ideal) x3) b t = rollY 1#32 (plane (α := Ideal .f32) (val_main_v131 (F := Ideal) x3) b t) :=
  plane_catY 1 255 rfl (by decide) _ _ _ _ _ b t
theorem p_v143 : plane (α := Ideal .f32) (val_main_v143 (F := Ideal) x3) b t = rollY 254#32 (plane (α := Ideal .f32) (val_main_v131 (F := Ideal) x3) b t) :=
  plane_catY 254 2 rfl (by decide) _ _ _ _ _ b t
theorem p_v144 : plane (α := Ideal .f32) (val_main_v144 (F := Ideal) x3) b t = rollY 2#32 (plane (α := Ideal .f32) (val_main_v131 (F := Ideal) x3) b t) :=
  plane_catY 2 254 rfl (by decide) _ _ _ _ _ b t
theorem p_v209 : plane (α := Ideal .f32) (val_main_v209 (F := Ideal) x3) b t = rollX 255#32 (plane (α := Ideal .f32) (val_main_v131 (F := Ideal) x3) b t) :=
  plane_catX 255 1 rfl (by decide) _ _ _ _ _ b t
theorem p_v213 : plane (α := Ideal .f32) (val_main_v213 (F := Ideal) x3) b t = rollX 1#32 (plane (α := Ideal .f32) (val_main_v131 (F := Ideal) x3) b t) :=
  plane_catX 1 255 rfl (by decide) _ _ _ _ _ b t
theorem p_v217 : plane (α := Ideal .f32) (val_main_v217 (F := Ideal) x3) b t = rollY 255#32 (plane (α := Ideal .f32) (val_main_v131 (F := Ideal) x3) b t) :=
  plane_catY 255 1 rfl (by decide) _ _ _ _ _ b t
theorem p_v221 : plane (α := Ideal .f32) (val_main_v221 (F := Ideal) x3) b t = rollY 1#32 (plane (α := Ideal .f32) (val_main_v131 (F := Ideal) x3) b t) :=
  plane_catY 1 255 rfl (by decide) _ _ _ _ _ b t

/-- The upwind value on the east face. -/
theorem p_v157 : plane (α := Ideal .f32) (val_main_v157 (F := Ideal) x0 x3) b t = fluxE (argPlane x0 b ⟨t.val + 1, by omega⟩) (argPlane x3 b ⟨t.val + 1, by omega⟩) := by
  simp only [val_main_v157, val_main_v156, val_main_v155, val_main_v154, val_main_cst_42, val_main_v153, val_main_v152, val_main_cst_41, val_main_v151, val_main_v150, val_main_v149, val_main_cst_40, val_main_v148, val_main_v147, val_main_cst_39, val_main_v146, val_main_v145, val_main_cst_38,
    plane_select, plane_cmpf, plane_subf, plane_mulf, plane_bcast, p_v5, p_v137, p_v138, p_v139, p_v131]
  rfl
/-- The upwind value on the west face. -/
theorem p_v170 : plane (α := Ideal .f32) (val_main_v170 (F := Ideal) x0 x3) b t = fluxW (argPlane x0 b ⟨t.val + 1, by omega⟩) (argPlane x3 b ⟨t.val + 1, by omega⟩) := by
  simp only [val_main_v170, val_main_v169, val_main_v168, val_main_v167, val_main_cst_47, val_main_v166, val_main_v165, val_main_cst_46, val_main_v164, val_main_v163, val_main_v162, val_main_cst_45, val_main_v161, val_main_v160, val_main_cst_44, val_main_v159, val_main_v158, val_main_cst_43,
    plane_select, plane_cmpf, plane_subf, plane_mulf, plane_bcast, p_v9, p_v137, p_v138, p_v140, p_v131]
  rfl
/-- The upwind value on the north face. -/
theorem p_v183 : plane (α := Ideal .f32) (val_main_v183 (F := Ideal) x1 x3) b t = fluxN (argPlane x1 b ⟨t.val + 1, by omega⟩) (argPlane x3 b ⟨t.val + 1, by omega⟩) := by
  simp only [val_main_v183, val_main_v182, val_main_v181, val_main_v180, val_main_cst_52, val_main_v179, val_main_v178, val_main_cst_51, val_main_v177, val_main_v176, val_main_v175, val_main_cst_50, val_main_v174, val_main_v173, val_main_cst_49, val_main_v172, val_main_v171, val_main_cst_48,
    plane_select, plane_cmpf, plane_subf, plane_mulf, plane_bcast, p_v13, p_v141, p_v142, p_v143, p_v131]
  rfl
/-- The upwind value on the south face. -/
theorem p_v196 : plane (α := Ideal .f32) (val_main_v196 (F := Ideal) x1 x3) b t = fluxS (argPlane x1 b ⟨t.val + 1, by omega⟩) (argPlane x3 b ⟨t.val + 1, by omega⟩) := by
  simp only [val_main_v196, val_main_v195, val_main_v194, val_main_v193, val_main_cst_57, val_main_v192, val_main_v191, val_main_cst_56, val_main_v190, val_main_v189, val_main_v188, val_main_cst_55, val_main_v187, val_main_v186, val_main_cst_54, val_main_v185, val_main_v184, val_main_cst_53,
    plane_select, plane_cmpf, plane_subf, plane_mulf, plane_bcast, p_v17, p_v141, p_v142, p_v144, p_v131]
  rfl

/-- The convective term. -/
theorem p_v207 : plane (α := Ideal .f32) (val_main_v207 (F := Ideal) x0 x1 x3) b t = upwind (argPlane x0 b ⟨t.val + 1, by omega⟩) (argPlane x1 b ⟨t.val + 1, by omega⟩) (argPlane x3 b ⟨t.val + 1, by omega⟩) := by
  simp only [val_main_v207, val_main_v206, val_main_v205, val_main_cst_59, val_main_v204, val_main_v203, val_main_v202, val_main_v201, val_main_v200, val_main_cst_58, val_main_v199, val_main_v198, val_main_v197,
    plane_addf, plane_subf, plane_mulf, plane_hostDivf, plane_bcast, p_v5, p_v9, p_v13, p_v17, p_v157, p_v170, p_v183, p_v196]
  rfl

/-- The Laplacian. -/
theorem p_v225 : plane (α := Ideal .f32) (val_main_v225 (F := Ideal) x3) b t = lap (argPlane x3 b ⟨t.val + 1, by omega⟩) := by
  simp only [val_main_v225, val_main_v224, val_main_v223, val_main_cst_63, val_main_v222, val_main_v220, val_main_v219, val_main_v218, val_main_cst_62, val_main_v216, val_main_v215, val_main_cst_61, val_main_v214, val_main_v212, val_main_v211, val_main_v210, val_main_cst_60,
    plane_addf, plane_subf, plane_mulf, plane_hostDivf, plane_bcast, p_v209, p_v213, p_v217, p_v221, p_v131]
  rfl

/-- The residual. -/
theorem p_v230 : plane (α := Ideal .f32) (val_main_v230 (F := Ideal) x0 x1 x3) b t = resPlane (argPlane x0 b ⟨t.val + 1, by omega⟩) (argPlane x1 b ⟨t.val + 1, by omega⟩) (argPlane x3 b ⟨t.val, by omega⟩) (argPlane x3 b ⟨t.val + 1, by omega⟩) (argPlane x3 b ⟨t.val + 2, by omega⟩) := by
  simp only [val_main_v230, val_main_v229, val_main_v228, val_main_v227, val_main_v226, val_main_cst_64, val_main_v208,
    plane_addf, plane_subf, plane_mulf, plane_bcast, p_v24, p_v136, p_v207, p_v225, p_v131]
  rfl

end Cert.RefPlanes

end
-- ==== Proof.Sums.lean ====
import Idealize.ShloMosaic.Lib.ValueIdx
import proofs.«130660_j5119601017343_2_alg».proof.Proof.Planes

/-!
# The sum over a `[4, 20, 256, 256]` array, plane by plane

A rank-4 index set is the product of its four coordinate ranges, so a sum over it is the fourfold sum over the
coordinates; extended reals add commutatively and associatively without any finiteness, so this needs no
hypothesis. The sum of the squares of all entries is then the sum, over batches and frames, of each plane's sum
of squares.
-/

noncomputable section

namespace Cert.RefPlanes

open Idealize.ShloMosaic Idealize.ShloMosaic.ValueIdx Cert.KernelIdeal

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum of the squares of every entry is the sum over the planes of each plane's sum of squares. -/
theorem sum_mulf_self (Y : FVec Ideal T4 .f32) :
    ∑ j : T4.Idx, (mulf Y Y) j = ∑ b : Fin 4, ∑ t : Fin 20, planeSq (plane Y b t) := by
  rw [sum_idx4]
  rfl

end Cert.RefPlanes

end
-- ==== Proof.RefLoss.lean ====
import proofs.«130660_j5119601017343_2_alg».proof.Proof.RefConc
import proofs.«130660_j5119601017343_2_alg».proof.Proof.RefDxx
import proofs.«130660_j5119601017343_2_alg».proof.Proof.Sums

/-!
# The reference's four results

Each loss of the reference is the mean of the squares of one `[4, 20, 256, 256]` array: the initial value `0`
plus the sum over every entry, divided by the number of entries `5242880`. Grouping the sum by planes, and
reading each plane by the stage lemmas, the sum is the sum over the 4 x 20 grid points of the per-plane sum of
squares of the kernel's own divergence or residual plane. The total is the three losses added in the
reference's order.
-/

noncomputable section

namespace Cert.RefPlanes

open Idealize.ShloMosaic Idealize.ShloMosaic.ValueIdx Cert.ReferenceIdeal Cert.ReferenceIdeal.ReadP

variable [Cert.KernelIdeal.Facts]

variable (x0 x1 x2 x3 : Arr)

/-- The sum over the grid of the squared divergence planes. -/
def sumCont (x0 x1 : Arr) : EReal :=
  ∑ b : Fin 4, ∑ t : Fin 20,
    planeSq (divPlane (argPlane x0 b ⟨t.val + 1, by omega⟩) (argPlane x1 b ⟨t.val + 1, by omega⟩))

/-- The sum over the grid of the squared residual planes of the field `x`. -/
def sumRes (x0 x1 x : Arr) : EReal :=
  ∑ b : Fin 4, ∑ t : Fin 20,
    planeSq (resPlane (argPlane x0 b ⟨t.val + 1, by omega⟩) (argPlane x1 b ⟨t.val + 1, by omega⟩)
      (argPlane x b ⟨t.val, by omega⟩) (argPlane x b ⟨t.val + 1, by omega⟩) (argPlane x b ⟨t.val + 2, by omega⟩))

/-- The continuity loss. -/
theorem ref_cont :
    val_main_v27 (F := Ideal) x0 x1 ix0
      = Ideal.div (0 + sumCont x0 x1) (Ideal.ofBits .f32 0x4AA00000#32) := by
  rw [val_main_v27_apply, val_main_v26_apply, val_main_cst_5_apply, val_main_cst_6_apply]
  show Ideal.div (Ideal.ofBits .f32 0x00000000#32
      + ∑ j : T4.Idx, (mulf (val_main_v24 (F := Ideal) x0 x1) (val_main_v24 (F := Ideal) x0 x1) : FVec Ideal T4 .f32) j)
      (Ideal.ofBits .f32 0x4AA00000#32) = _
  rw [Ideal.ofBits_zero_f32, sum_mulf_self]
  simp only [p_v24, sumCont]

/-- The loss of the concentration field. -/
theorem ref_conc :
    val_main_v130 (F := Ideal) x0 x1 x2 ix0
      = Ideal.div (0 + sumRes x0 x1 x2) (Ideal.ofBits .f32 0x4AA00000#32) := by
  rw [val_main_v130_apply, val_main_v129_apply, val_main_cst_35_apply, val_main_cst_36_apply]
  show Ideal.div (Ideal.ofBits .f32 0x00000000#32
      + ∑ j : T4.Idx, (mulf (val_main_v127 (F := Ideal) x0 x1 x2) (val_main_v127 (F := Ideal) x0 x1 x2) : FVec Ideal T4 .f32) j)
      (Ideal.ofBits .f32 0x4AA00000#32) = _
  rw [Ideal.ofBits_zero_f32, sum_mulf_self]
  simp only [p_v127, sumRes]

/-- The loss of the diffusivity field. -/
theorem ref_dxx :
    val_main_v233 (F := Ideal) x0 x1 x3 ix0
      = Ideal.div (0 + sumRes x0 x1 x3) (Ideal.ofBits .f32 0x4AA00000#32) := by
  rw [val_main_v233_apply, val_main_v232_apply, val_main_cst_65_apply, val_main_cst_66_apply]
  show Ideal.div (Ideal.ofBits .f32 0x00000000#32
      + ∑ j : T4.Idx, (mulf (val_main_v230 (F := Ideal) x0 x1 x3) (val_main_v230 (F := Ideal) x0 x1 x3) : FVec Ideal T4 .f32) j)
      (Ideal.ofBits .f32 0x4AA00000#32) = _
  rw [Ideal.ofBits_zero_f32, sum_mulf_self]
  simp only [p_v230, sumRes]

/-- The total: the three losses added in the reference's order. -/
theorem ref_total :
    val_main_v235 (F := Ideal) x0 x1 x2 x3 ix0
      = (Ideal.div (0 + sumCont x0 x1) (Ideal.ofBits .f32 0x4AA00000#32)
          + Ideal.div (0 + sumRes x0 x1 x2) (Ideal.ofBits .f32 0x4AA00000#32))
        + Ideal.div (0 + sumRes x0 x1 x3) (Ideal.ofBits .f32 0x4AA00000#32) := by
  rw [← ref_cont, ← ref_conc, ← ref_dxx]
  rfl

/-- Every result of the reference is a rank-0 array: it is determined by its one entry. -/
theorem scalar_ext {α : Type} (f g : S_.Idx → α) (h : f ix0 = g ix0) : f = g :=
  funext fun i => by rw [eq_ix0 i]; exact h

end Cert.RefPlanes

end
-- ==== Proof.Bridge.lean ====
/-
  The two programs' results are the same extended reals. Each loss of the kernel program is the total of one
  accumulator array — whose entry for a batch element is the sum over the twenty time steps of one plane's sum of
  squares — divided by the element count; each loss of the reference is the sum over all batch elements, time steps
  and plane positions of the same squares, divided by the same count. The sums agree by regrouping (sums on the
  extended reals commute and reassociate; no finiteness is needed), the planes agree by the roll lemmas.
-/
import proofs.«130660_j5119601017343_2_alg».proof.Proof.KI.Results
import proofs.«130660_j5119601017343_2_alg».proof.Proof.KV.Total
import proofs.«130660_j5119601017343_2_alg».proof.Proof.RefLoss
import Idealize.ShloMosaic.PureOps.Ideal.Laws

set_option maxRecDepth 16384

noncomputable section

namespace Cert.Bridge

open Cert.KernelIdeal Cert.KernelIdeal.Gen Cert.KernelIdeal.Hand Cert.KernelIdeal.KV Cert.RefPlanes
open Idealize.ShloMosaic Idealize.ShloMosaic.TcCoe Idealize.ShloMosaic.ValueIdx
open Idealize.SL Idealize.SL.Sem

theorem lossOf_apply (X : FVec Ideal S4x1x1 .f32) (j : S_.Idx) :
    lossOf (F := Ideal) X j = Ideal.div (0 + ∑ i : S4x1x1.Idx, X i) (Ideal.ofBits .f32 0x4AA00000#32) := by
  unfold lossOf
  simp only [Host.divf, Host.reduceAdd, Ideal.hostDivf_def, Ideal.hostReduceAdd_def, constant, Ideal.ofBits_def]
  rw [Ideal.hostReduceAdd_total Facts₀.reducesTo_S4x1x1_S_d0_1_2 (fun b => b.elim0), Ideal.ofBits_zero_f32]

/-- The index set of a [4,1,1] array is its first coordinate's range. -/
def idxEquiv411 : S4x1x1.Idx ≃ Fin 4 where
  toFun i := ⟨(i 0).val, (i 0).isLt⟩
  invFun b := fun d => match d with | ⟨0, _⟩ => b | ⟨1, _⟩ => (0 : Fin 1) | ⟨2, _⟩ => (0 : Fin 1)
  left_inv i := by
    funext d
    match d with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl

theorem sum_idx411 {M : Type*} [AddCommMonoid M] (g : Fin 4 → M) :
    ∑ i : S4x1x1.Idx, g ⟨(i 0).val, (i 0).isLt⟩ = ∑ b : Fin 4, g b := by
  rw [← Equiv.sum_comp idxEquiv411 g]; rfl

variable (m : (ℓ : Loc nD τ sig) → Buf (Elt Ideal) ℓ)

/-- The element count 4 · 20 · 256 · 256 as the two programs spell it. -/
abbrev Wc : EReal := Ideal.ofBits .f32 0x4AA00000#32

theorem kloss8 (c : Dev nD) (j : S_.Idx) :
    lossOf (F := Ideal) ((dats m 0 c).arrAt 8 cfg0.N) j
      = Ideal.div (0 + sumCont (m ((c.tc : Thread nD τ).loc main_arg0)) (m ((c.tc : Thread nD τ).loc main_arg1))) Wc := by
  rw [lossOf_apply, final8 m c]
  refine congrArg (fun z => Ideal.div (0 + z) Wc) ?_
  unfold bOf
  rw [sum_idx411 (g := fun b => tot8 m c b)]
  unfold tot8 sumCont
  simp only [zero_add]

theorem kloss9 (c : Dev nD) (j : S_.Idx) :
    lossOf (F := Ideal) ((dats m 0 c).arrAt 9 cfg0.N) j
      = Ideal.div (0 + sumRes (m ((c.tc : Thread nD τ).loc main_arg0)) (m ((c.tc : Thread nD τ).loc main_arg1)) (m ((c.tc : Thread nD τ).loc main_arg2))) Wc := by
  rw [lossOf_apply, final9 m c]
  refine congrArg (fun z => Ideal.div (0 + z) Wc) ?_
  unfold bOf
  rw [sum_idx411 (g := fun b => tot9 m c b)]
  unfold tot9 sumRes
  simp only [zero_add]

theorem kloss10 (c : Dev nD) (j : S_.Idx) :
    lossOf (F := Ideal) ((dats m 0 c).arrAt 10 cfg0.N) j
      = Ideal.div (0 + sumRes (m ((c.tc : Thread nD τ).loc main_arg0)) (m ((c.tc : Thread nD τ).loc main_arg1)) (m ((c.tc : Thread nD τ).loc main_arg3))) Wc := by
  rw [lossOf_apply, final10 m c]
  refine congrArg (fun z => Ideal.div (0 + z) Wc) ?_
  unfold bOf
  rw [sum_idx411 (g := fun b => tot10 m c b)]
  unfold tot10 sumRes
  simp only [zero_add]

end Cert.Bridge

end
-- ==== Proof.lean ====
/-
  The certificate of a stencil kernel against its array-level reference. The kernel sweeps a grid of four batch
  entries by twenty interior time steps; at each point it takes one 256 x 256 plane of each velocity field (frame
  t+1) and three consecutive planes (frames t, t+1, t+2) of each transported field, forms the face velocities, the
  divergence, the upwind fluxes, the Laplacian and the residual with periodic neighbours (rolls by one and two
  positions along either axis), and adds the plane's sum of squares to a per-batch accumulator that is reset at the
  first time step; the host then divides each accumulator array's total by the element count and adds the three
  losses. The reference computes the same residuals on whole [4,20,256,256] arrays (its rolls are a join of two
  slices) and takes three means. Frames: the kernel's two programs run their one pipelined region (the body run once
  per case of the reset condition, the launch with the two time-stencilled arrays each shared by three windows) and
  the host lines; the reference is a straight line of host operations. Preservation: the idealization rewrote
  nothing. Equality on the extended reals: plane by plane the two residuals are the same composition of the same
  operations, and the sums agree by regrouping.
-/
import proofs.«130660_j5119601017343_2_alg».proof.Defs
import proofs.«130660_j5119601017343_2_alg».proof.Proof.Gen.Kernel
import proofs.«130660_j5119601017343_2_alg».proof.Proof.Gen.KernelIdeal
import proofs.«130660_j5119601017343_2_alg».proof.Proof.Gen.ReferenceIdeal
import proofs.«130660_j5119601017343_2_alg».proof.Proof.Gen.Pre_finite_inputs
import proofs.«130660_j5119601017343_2_alg».proof.Proof.KB.Launch
import proofs.«130660_j5119601017343_2_alg».proof.Proof.KI.Results
import proofs.«130660_j5119601017343_2_alg».proof.Proof.Bridge
import proofs.«130660_j5119601017343_2_alg».proof.Proof.RefRunP
import proofs.«130660_j5119601017343_2_alg».proof.Proof.RefReadEqP
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

/-- The reference is a straight line of host operations: its run, the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The idealization rewrote no operation. -/
theorem preserves : Cert.preserves_Kernel_KernelIdeal := trivial

open Cert.Bridge Cert.RefPlanes Cert.KernelIdeal.Hand Idealize.ShloMosaic.ValueIdx in
/-- On the extended reals both programs end with the same four numbers: each loss is the same sum of squares over
    batch entries, time steps and plane positions, divided by the same count. -/
theorem algebraic : Cert.algebraic_KernelIdeal_ReferenceIdeal := by
  intro m ρ m' ρ' _ hagree
  refine ⟨_, _, _, _, Cert.KernelIdeal.Hand.run_results (F := Ideal) m ρ, ?_⟩
  refine (θ_run Cert.ReferenceIdeal.defs _ _).mono (fun _ h c => ?_) (Cert.ReferenceIdeal.ValueP.run (F := Ideal) m' ρ')
  obtain ⟨h235, h27, h130, h233, ha0, ha1, ha2, ha3⟩ := h c
  obtain ⟨e0, e1, e2, e3⟩ := hagree c
  refine ⟨h235.trans ?_, h27.trans ?_, h130.trans ?_, h233.trans ?_, ha0, ha1, ha2, ha3⟩
  · rw [Cert.ReferenceIdeal.ReadP.val_main_v235_eq, e0, e1, e2, e3]
    refine scalar_ext _ _ ((ref_total _ _ _ _).trans ?_)
    show _ = lossOf (F := Ideal) _ ix0 + lossOf (F := Ideal) _ ix0 + lossOf (F := Ideal) _ ix0
    rw [kloss8 m c, kloss9 m c, kloss10 m c]
  · rw [Cert.ReferenceIdeal.ReadP.val_main_v27_eq, e0, e1]
    exact scalar_ext _ _ ((ref_cont _ _).trans (kloss8 m c ix0).symm)
  · rw [Cert.ReferenceIdeal.ReadP.val_main_v130_eq, e0, e1, e2]
    exact scalar_ext _ _ ((ref_conc _ _ _).trans (kloss9 m c ix0).symm)
  · rw [Cert.ReferenceIdeal.ReadP.val_main_v233_eq, e0, e1, e3]
    exact scalar_ext _ _ ((ref_dxx _ _ _).trans (kloss10 m c ix0).symm)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
